-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "coeff_over_norm" .f32 0x3DB504F3#32 ((1048576 / 11863283 : ℝ) : EReal)
  ∧ IdealRules.named_const.Statement Cert.KernelIdeal.κ "coeff_over_norm" .f32 0x3DB504F3#32 ((1048576 / 11863283 : ℝ) : EReal)
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x128 : Shape := ⟨4, ![2, 16, 2048, 128]⟩
abbrev S_ : Shape := ⟨0, ![]⟩

class Facts : Prop where
  bcast_S_S2x16x2048x128 : S_.BroadcastsInDim S2x16x2048x128 (![] : Fin 0 → Fin S2x16x2048x128.rank)
  reducesTo_S2x16x2048x128_S_d0_1_2_3 : S2x16x2048x128.ReducesTo [0, 1, 2, 3] S_
  h_S_ : 0 < S_.numel

variable [Facts]

def fn {F : FTy → Type} [FloatOps F] (main_arg0 : FVec F S2x16x2048x128 .f32) (main_arg1 : FVec F S2x16x2048x128 .f32) (main_arg2 : FVec F S2x16x2048x128 .f32) : IVec S_ 1 :=
  let main_v0 : FVec F S2x16x2048x128 .f32 := Host.absf main_arg0
  let main_cst : FVec F S_ .f32 := constant S_ .f32 0x7F800000#32
  let main_v1 : FVec F S2x16x2048x128 .f32 := broadcastInDim S2x16x2048x128 ![] bcast_S_S2x16x2048x128 main_cst
  let main_v2 : IVec S2x16x2048x128 1 := cmpf .olt main_v0 main_v1
  let main_c : IVec S_ 1 := constantI S_ 1 1#1
  let main_v3 : IVec S_ 1 := (fun x v => Host.reduce IntOp.andi x v reducesTo_S2x16x2048x128_S_d0_1_2_3 h_S_) main_v2 main_c
  let main_v4 : FVec F S2x16x2048x128 .f32 := Host.absf main_arg1
  let main_cst_0 : FVec F S_ .f32 := constant S_ .f32 0x7F800000#32
  let main_v5 : FVec F S2x16x2048x128 .f32 := broadcastInDim S2x16x2048x128 ![] bcast_S_S2x16x2048x128 main_cst_0
  let main_v6 : IVec S2x16x2048x128 1 := cmpf .olt main_v4 main_v5
  let main_c_1 : IVec S_ 1 := constantI S_ 1 1#1
  let main_v7 : IVec S_ 1 := (fun x v => Host.reduce IntOp.andi x v reducesTo_S2x16x2048x128_S_d0_1_2_3 h_S_) main_v6 main_c_1
  let main_v8 : IVec S_ 1 := andi main_v3 main_v7
  let main_v9 : FVec F S2x16x2048x128 .f32 := Host.absf main_arg2
  let main_cst_2 : FVec F S_ .f32 := constant S_ .f32 0x7F800000#32
  let main_v10 : FVec F S2x16x2048x128 .f32 := broadcastInDim S2x16x2048x128 ![] bcast_S_S2x16x2048x128 main_cst_2
  let main_v11 : IVec S2x16x2048x128 1 := cmpf .olt main_v9 main_v10
  let main_c_3 : IVec S_ 1 := constantI S_ 1 1#1
  let main_v12 : IVec S_ 1 := (fun x v => Host.reduce IntOp.andi x v reducesTo_S2x16x2048x128_S_d0_1_2_3 h_S_) main_v11 main_c_3
  let main_v13 : IVec S_ 1 := andi main_v8 main_v12
  main_v13
-- ==== Kernel.lean ====
abbrev S2x16x2048x128 : Shape := ⟨4, ![2, 16, 2048, 128]⟩
abbrev S3 : Shape := ⟨1, ![3]⟩
abbrev S32x2048x128 : Shape := ⟨3, ![32, 2048, 128]⟩
abbrev S1x1024x128 : Shape := ⟨3, ![1, 1024, 128]⟩
abbrev S1 : Shape := ⟨1, ![1]⟩
abbrev S1024x1 : Shape := ⟨2, ![1024, 1]⟩
abbrev S1024x128 : Shape := ⟨2, ![1024, 128]⟩
abbrev S128x1024 : Shape := ⟨2, ![128, 1024]⟩
abbrev S1024x1024 : Shape := ⟨2, ![1024, 1024]⟩
abbrev S1024 : Shape := ⟨1, ![1024]⟩
abbrev S2x2048x16x128 : Shape := ⟨4, ![2, 2048, 16, 128]⟩
abbrev S2x2048x2048 : Shape := ⟨3, ![2, 2048, 2048]⟩

abbrev nBuf : Space → Nat
  | .hbm => 10
  | .vmem => 11
  | .smem => 2
  | _ => 0

abbrev bufTy : (tb : Table) → Fin (tcTables nBuf tb) → BufTy
  | .hbm, ⟨0, _⟩ => ⟨S2x16x2048x128, .f32⟩
  | .hbm, ⟨1, _⟩ => ⟨S2x16x2048x128, .f32⟩
  | .hbm, ⟨2, _⟩ => ⟨S2x16x2048x128, .f32⟩
  | .hbm, ⟨3, _⟩ => ⟨S32x2048x128, .f32⟩
  | .hbm, ⟨4, _⟩ => ⟨S32x2048x128, .f32⟩
  | .hbm, ⟨5, _⟩ => ⟨S32x2048x128, .f32⟩
  | .hbm, ⟨6, _⟩ => ⟨S32x2048x128, .f32⟩
  | .hbm, ⟨7, _⟩ => ⟨S2x16x2048x128, .f32⟩
  | .hbm, ⟨8, _⟩ => ⟨S2x2048x16x128, .f32⟩
  | .hbm, ⟨9, _⟩ => ⟨S2x2048x2048, .f32⟩
  | .local _ .vmem, ⟨0, _⟩ => ⟨S1x1024x128, .f32⟩
  | .local _ .vmem, ⟨1, _⟩ => ⟨S1x1024x128, .f32⟩
  | .local _ .vmem, ⟨2, _⟩ => ⟨S1x1024x128, .f32⟩
  | .local _ .vmem, ⟨3, _⟩ => ⟨S1x1024x128, .f32⟩
  | .local _ .vmem, ⟨4, _⟩ => ⟨S1x1024x128, .f32⟩
  | .local _ .vmem, ⟨5, _⟩ => ⟨S1x1024x128, .f32⟩
  | .local _ .vmem, ⟨6, _⟩ => ⟨S1x1024x128, .f32⟩
  | .local _ .vmem, ⟨7, _⟩ => ⟨S1x1024x128, .f32⟩
  | .local _ .vmem, ⟨8, _⟩ => ⟨S1024x1, .f32⟩
  | .local _ .vmem, ⟨9, _⟩ => ⟨S1024x1, .f32⟩
  | .local _ .vmem, ⟨10, _⟩ => ⟨S1024x128, .f32⟩
  | .local _ .smem, ⟨0, _⟩ => ⟨S3, .i32⟩
  | .local _ .smem, ⟨1, _⟩ => ⟨S3, .i32⟩
  | _, _ => ⟨S2x16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 3], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond3 (v1 : BitVec 32) (v3 : BitVec 32) : BitVec 1 :=
  let v10 : BitVec 1 := Scalar.cmpi .eq v3 v1
  let v11 : BitVec 32 := Scalar.extui v10
  let c0_i32_2 : BitVec 32 := 0#32
  let v12 : BitVec 1 := Scalar.cmpi .ne v11 c0_i32_2
  v12

def cc0_transform_0 (k0_off1_inb : ∀ i : grid0.Coords, ∀ a, (k0_off1 i) a + S1.size a ≤ S3.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S3) ![v0.toNat] S1.size (k0_off1_inb i)) numel1_S1
  let c0_i32 : BitVec 32 := 0#32
  let c0_i32_0 : BitVec 32 := 0#32
  ![arg0.toNat, v1.toNat, c0_i32.toNat]

def cc0_transform_1 (k0_off1_inb : ∀ i : grid0.Coords, ∀ a, (k0_off1 i) a + S1.size a ≤ S3.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S3) ![v0.toNat] S1.size (k0_off1_inb i)) numel1_S1
  let c0_i32 : BitVec 32 := 0#32
  let c0_i32_0 : BitVec 32 := 0#32
  ![arg0.toNat, v1.toNat, c0_i32.toNat]

def cc0_transform_2 (k0_off1_inb : ∀ i : grid0.Coords, ∀ a, (k0_off1 i) a + S1.size a ≤ S3.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S3) ![v0.toNat] S1.size (k0_off1_inb i)) numel1_S1
  let c0_i32 : BitVec 32 := 0#32
  let c0_i32_0 : BitVec 32 := 0#32
  ![arg0.toNat, v1.toNat, c0_i32.toNat]

def cc0_transform_3 (k0_off1_inb : ∀ i : grid0.Coords, ∀ a, (k0_off1 i) a + S1.size a ≤ S3.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S3) ![v0.toNat] S1.size (k0_off1_inb i)) numel1_S1
  let c0_i32 : BitVec 32 := 0#32
  let c0_i32_0 : BitVec 32 := 0#32
  ![arg0.toNat, v1.toNat, c0_i32.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S2x16x2048x128_S32x2048x128 : S2x16x2048x128.ShapeCasts S32x2048x128
  numel1_S1 : S1.numel = 1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  bitsLt_bf16_f32 : FTy.bits .bf16 < FTy.bits .f32
  transposes_S1024x128_p1_0_S128x1024 : S1024x128.Transposes [1, 0] S128x1024
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x128 : S1024x1.Broadcasts S1024x128
  iota_S1024x1024_d0_w32 : S1024x1024.Iotas .tc 32 [0]
  iota_S1024x1024_d1_w32 : S1024x1024.Iotas .tc 32 [1]
  shapeCasts_S1024x128_S1x1024x128 : S1024x128.ShapeCasts S1x1024x128
  shapeCasts_S32x2048x128_S2x16x2048x128 : S32x2048x128.ShapeCasts S2x16x2048x128
  transposes_S2x16x2048x128_S2x2048x16x128_0_2_1_3 : S2x16x2048x128.Transposes [0, 2, 1, 3] S2x2048x16x128
  shapeCasts_S2x2048x16x128_S2x2048x2048 : S2x2048x16x128.ShapeCasts S2x2048x2048
  dot_S1024x128_S128x1024_S1024x1024_1_0_0_1_n_n_wf : DotDims.WF S1024x128 S128x1024 S1024x1024 [1] [0] [0] [1] [] []
  dot_S1024x1024_S1024x128_S1024x128_1_0_0_1_n_n_wf : DotDims.WF S1024x1024 S1024x128 S1024x128 [1] [0] [0] [1] [] []
  hrank0 : 0 < grid0.rank
  k0_off1_inb : ∀ i : grid0.Coords, ∀ a, (k0_off1 i) a + S1.size a ≤ S3.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off1_inb numel1_S1 pf i = cc0_transform_3 k0_off1_inb numel1_S1 pf i'

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev spec0_0 : Pipeline.WinSpec sig grid0.rank :=
  Pipeline.WinSpec.ofSpec (Memref.whole main_v0) S1x1024x128.size reads0_0 false false 2 stage0_0 sem0_0 nbuf0_0 hstage0_0

abbrev spec0_1 : Pipeline.WinSpec sig grid0.rank :=
  Pipeline.WinSpec.ofSpec (Memref.whole main_v1) S1x1024x128.size reads0_1 false false 2 stage0_1 sem0_1 nbuf0_1 hstage0_1

abbrev spec0_2 : Pipeline.WinSpec sig grid0.rank :=
  Pipeline.WinSpec.ofSpec (Memref.whole main_v2) S1x1024x128.size reads0_2 false false 2 stage0_2 sem0_2 nbuf0_2 hstage0_2

abbrev spec0_3 : Pipeline.WinSpec sig grid0.rank :=
  Pipeline.WinSpec.ofSpec (Memref.whole main_v3) S1x1024x128.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 k0_off1_inb numel1_S1 pf | 1 => cc0_transform_1 k0_off1_inb numel1_S1 pf | 2 => cc0_transform_2 k0_off1_inb numel1_S1 pf | 3 => cc0_transform_3 k0_off1_inb numel1_S1 pf | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 pf | 3 => hreads0_3 pf | ⟨_ + 4, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x1024x128.size a ≤ S32x2048x128.size a), EltTy.bits .f32 = 32 ∨ (Rect.block (s := S32x2048x128) S1x1024x128.size (cc0_transform_0 k0_off1_inb numel1_S1 pf i) h).WholeWords (EltTy.packing .f32)) ∧
  (∀ i : grid0.Coords, ∃ h : (∀ a, (cc0_transform_1 k0_off1_inb numel1_S1 pf i a + 1) * S1x1024x128.size a ≤ S32x2048x128.size a), EltTy.bits .f32 = 32 ∨ (Rect.block (s := S32x2048x128) S1x1024x128.size (cc0_transform_1 k0_off1_inb numel1_S1 pf i) h).WholeWords (EltTy.packing .f32)) ∧
  (∀ i : grid0.Coords, ∃ h : (∀ a, (cc0_transform_2 k0_off1_inb numel1_S1 pf i a + 1) * S1x1024x128.size a ≤ S32x2048x128.size a), EltTy.bits .f32 = 32 ∨ (Rect.block (s := S32x2048x128) S1x1024x128.size (cc0_transform_2 k0_off1_inb numel1_S1 pf i) h).WholeWords (EltTy.packing .f32)) ∧
  (∀ i : grid0.Coords, ∃ h : (∀ a, (cc0_transform_3 k0_off1_inb numel1_S1 pf i a + 1) * S1x1024x128.size a ≤ S32x2048x128.size a), EltTy.bits .f32 = 32 ∨ (Rect.block (s := S32x2048x128) S1x1024x128.size (cc0_transform_3 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2 i).elim fun h _ => h a | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2.1 i).elim fun _ h => h | 2 => fun i => (hok.2.2.1 i).elim fun _ h => h | 3 => fun i => (hok.2.2.2 i).elim fun _ h => h | ⟨_ + 4, h⟩ => absurd h (Nat.not_lt.2 (Nat.le_add_left _ _))
abbrev idle0 (pf : pre0.Contents (Elt F)) : Fin 4 → grid0.Coords → Bool := fun | 0 => fun _ => false | 1 => fun _ => false | 2 => fun _ => false | 3 => fun i => !(k0_cond3 (pf.atD 0 (k0_off1 i)) (pf.atD 1 (k0_off1 i)) == 1#1) | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S2x16x2048x128 : Shape := ⟨4, ![2, 16, 2048, 128]⟩
abbrev S2x16x2048x2048 : Shape := ⟨4, ![2, 16, 2048, 2048]⟩
abbrev S_ : Shape := ⟨0, ![]⟩
abbrev S2048x2048 : Shape := ⟨2, ![2048, 2048]⟩
abbrev S2x16x2048 : Shape := ⟨3, ![2, 16, 2048]⟩
abbrev S2x16x2048x1 : Shape := ⟨4, ![2, 16, 2048, 1]⟩
abbrev S2x2048x16x128 : Shape := ⟨4, ![2, 2048, 16, 128]⟩
abbrev S2x2048x2048 : Shape := ⟨3, ![2, 2048, 2048]⟩

abbrev nBuf : Space → Nat
  | .hbm => 42
  | .vmem => 0
  | .smem => 0
  | _ => 0

abbrev bufTy : (tb : Table) → Fin (tcTables nBuf tb) → BufTy
  | .hbm, ⟨0, _⟩ => ⟨S2x16x2048x128, .f32⟩
  | .hbm, ⟨1, _⟩ => ⟨S2x16x2048x128, .f32⟩
  | .hbm, ⟨2, _⟩ => ⟨S2x16x2048x128, .f32⟩
  | .hbm, ⟨3, _⟩ => ⟨S2x16x2048x2048, .f32⟩
  | .hbm, ⟨4, _⟩ => ⟨S_, .f32⟩
  | .hbm, ⟨5, _⟩ => ⟨S2x16x2048x2048, .f32⟩
  | .hbm, ⟨6, _⟩ => ⟨S2x16x2048x2048, .f32⟩
  | .hbm, ⟨7, _⟩ => ⟨S_, .f32⟩
  | .hbm, ⟨8, _⟩ => ⟨S2x16x2048x2048, .f32⟩
  | .hbm, ⟨9, _⟩ => ⟨S2x16x2048x2048, .f32⟩
  | .hbm, ⟨10, _⟩ => ⟨S_, .i1⟩
  | .hbm, ⟨11, _⟩ => ⟨S2048x2048, .i1⟩
  | .hbm, ⟨12, _⟩ => ⟨S2048x2048, .i32⟩
  | .hbm, ⟨13, _⟩ => ⟨S_, .i32⟩
  | .hbm, ⟨14, _⟩ => ⟨S2048x2048, .i32⟩
  | .hbm, ⟨15, _⟩ => ⟨S2048x2048, .i32⟩
  | .hbm, ⟨16, _⟩ => ⟨S2048x2048, .i32⟩
  | .hbm, ⟨17, _⟩ => ⟨S2048x2048, .i1⟩
  | .hbm, ⟨18, _⟩ => ⟨S_, .i1⟩
  | .hbm, ⟨19, _⟩ => ⟨S2048x2048, .i1⟩
  | .hbm, ⟨20, _⟩ => ⟨S2048x2048, .i1⟩
  | .hbm, ⟨21, _⟩ => ⟨S_, .f32⟩
  | .hbm, ⟨22, _⟩ => ⟨S2x16x2048x2048, .i1⟩
  | .hbm, ⟨23, _⟩ => ⟨S2x16x2048x2048, .f32⟩
  | .hbm, ⟨24, _⟩ => ⟨S2x16x2048x2048, .f32⟩
  | .hbm, ⟨25, _⟩ => ⟨S_, .f32⟩
  | .hbm, ⟨26, _⟩ => ⟨S2x16x2048, .f32⟩
  | .hbm, ⟨27, _⟩ => ⟨S_, .f32⟩
  | .hbm, ⟨28, _⟩ => ⟨S2x16x2048, .f32⟩
  | .hbm, ⟨29, _⟩ => ⟨S2x16x2048, .f32⟩
  | .hbm, ⟨30, _⟩ => ⟨S2x16x2048x1, .f32⟩
  | .hbm, ⟨31, _⟩ => ⟨S2x16x2048x2048, .f32⟩
  | .hbm, ⟨32, _⟩ => ⟨S2x16x2048x2048, .f32⟩
  | .hbm, ⟨33, _⟩ => ⟨S2x16x2048x2048, .f32⟩
  | .hbm, ⟨34, _⟩ => ⟨S_, .f32⟩
  | .hbm, ⟨35, _⟩ => ⟨S2x16x2048, .f32⟩
  | .hbm, ⟨36, _⟩ => ⟨S2x16x2048x1, .f32⟩
  | .hbm, ⟨37, _⟩ => ⟨S2x16x2048x2048, .f32⟩
  | .hbm, ⟨38, _⟩ => ⟨S2x16x2048x2048, .f32⟩
  | .hbm, ⟨39, _⟩ => ⟨S2x16x2048x128, .f32⟩
  | .hbm, ⟨40, _⟩ => ⟨S2x2048x16x128, .f32⟩
  | .hbm, ⟨41, _⟩ => ⟨S2x2048x2048, .f32⟩
  | _, _ => ⟨S2x16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_call0_v0 : Ref sig .tc := ⟨.hbm, 12, rfl⟩
abbrev main_call0_c : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_c_0 : Ref sig .tc := ⟨.hbm, 18, rfl⟩
abbrev main_call0_v5 : Ref sig .tc := ⟨.hbm, 19, rfl⟩
abbrev main_v6 : Ref sig .tc := ⟨.hbm, 20, rfl⟩
abbrev main_cst_1 : Ref sig .tc := ⟨.hbm, 21, rfl⟩
abbrev main_call1_v0 : Ref sig .tc := ⟨.hbm, 22, rfl⟩
abbrev main_call1_v1 : Ref sig .tc := ⟨.hbm, 23, rfl⟩
abbrev main_v7 : Ref sig .tc := ⟨.hbm, 24, rfl⟩
abbrev main_cst_2 : Ref sig .tc := ⟨.hbm, 25, rfl⟩
abbrev main_v8 : Ref sig .tc := ⟨.hbm, 26, rfl⟩
abbrev main_cst_3 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_4 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  bcast_S_S2048x2048 : S_.BroadcastsInDim S2048x2048 (![] : Fin 0 → Fin S2048x2048.rank)
  bcast_S2048x2048_S2x16x2048x2048_2_3 : S2048x2048.BroadcastsInDim S2x16x2048x2048 (![2, 3] : Fin 2 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x128_S2x2048x16x128_0_2_1_3 : S2x16x2048x128.Transposes [0, 2, 1, 3] S2x2048x16x128
  shapeCasts_S2x2048x16x128_S2x2048x2048 : S2x2048x16x128.ShapeCasts S2x2048x2048
  dot_S2x16x2048x128_S2x16x2048x128_S2x16x2048x2048_3_3_2_2_01_01_wf : DotDims.WF S2x16x2048x128 S2x16x2048x128 S2x16x2048x2048 [3] [3] [2] [2] [0, 1] [0, 1]
  dot_S2x16x2048x2048_S2x16x2048x128_S2x16x2048x128_3_2_2_3_01_01_wf : DotDims.WF S2x16x2048x2048 S2x16x2048x128 S2x16x2048x128 [3] [2] [2] [3] [0, 1] [0, 1]

variable [Facts₀]

def dot_S2x16x2048x128_S2x16x2048x128_S2x16x2048x2048_3_3_2_2_01_01 : DotDims S2x16x2048x128 S2x16x2048x128 S2x16x2048x2048 where
  lhsContracting := [3]
  rhsContracting := [3]
  lhsNonContracting := [2]
  rhsNonContracting := [2]
  lhsBatch := [0, 1]
  rhsBatch := [0, 1]
  wf := dot_S2x16x2048x128_S2x16x2048x128_S2x16x2048x2048_3_3_2_2_01_01_wf
def dot_S2x16x2048x2048_S2x16x2048x128_S2x16x2048x128_3_2_2_3_01_01 : DotDims S2x16x2048x2048 S2x16x2048x128 S2x16x2048x128 where
  lhsContracting := [3]
  rhsContracting := [2]
  lhsNonContracting := [2]
  rhsNonContracting := [3]
  lhsBatch := [0, 1]
  rhsBatch := [0, 1]
  wf := dot_S2x16x2048x2048_S2x16x2048x128_S2x16x2048x128_3_2_2_3_01_01_wf

class Facts : Prop extends Facts₀ where

variable [Facts]
-- ==== Proof.Steps.lean ====
/-
  The body's three branches as transitions of its scratch state, over the payload names of the generated skeleton:
  the reset (`scrInit`), the update by a block of keys wholly before the query block (`offStep`), the update by the
  query block's own keys under the causal mask (`diagStep`), and the output block computed from the state (`outOf`).
  With the literal (query block, key block) tables the grid meets three cases per head: reset and masked update
  (`outA`), reset and plain update (`scrB`), masked update from the state the plain update left (`outC`).
-/
import proofs.«141465_j40630390620348_2_alg».proof.Proof.Gen.KernelIdeal.Skeleton

noncomputable section

namespace Cert.KernelIdeal.Hand

open Idealize.ShloMosaic Idealize.SL.Sem
open Cert.KernelIdeal Cert.KernelIdeal.Gen

variable {F : FTy → Type} [FloatOps F] [Named F]

/-- The scratch state: the running maximum and sum per query row, the running weighted sum per row and feature. -/
structure Scr (F : FTy → Type) where
  m : Vec F S1024x1 .f32
  l : Vec F S1024x1 .f32
  acc : Vec F S1024x128 .f32

/-- The reset: maxima `-∞`, sums zero. -/
def scrInit : Scr F := ⟨k0_pay1, k0_pay2, k0_pay3⟩

/-- A block of keys wholly before the query block: no mask. -/
def offStep (q k v : Vec F S1x1024x128 .f32) (s : Scr F) : Scr F :=
  ⟨k0_pay5 (k0_pay10 q k s.m), k0_pay13 q k s.m s.l, k0_pay4 (k0_pay14 q k s.m s.acc v)⟩

/-- The query block's own keys, masked to the keys at or before each query (`w1`, `w3` the block numbers the
    positions are computed from). -/
def diagStep (w1 w3 : Elt F .i32) (q k v : Vec F S1x1024x128 .f32) (s : Scr F) : Scr F :=
  ⟨k0_pay7 (k0_pay16 w1 w3 q k s.m), k0_pay19 w1 w3 q k s.m s.l,
    k0_pay6 (k0_pay17 w1 w3 q k s.m) (k0_pay18 w1 w3 q k s.m) s.acc v⟩

/-- The output block: the weighted sums over the sums. -/
def outOf (s : Scr F) : Vec F S1x1024x128 .f32 := k0_pay8 s.acc s.l

/-- Query block 0 (its only key block is its own). -/
def outA (q k v : Vec F S1x1024x128 .f32) : Vec F S1x1024x128 .f32 := outOf (diagStep 0#32 0#32 q k v scrInit)
/-- Query block 1 against key block 0: the state it leaves. -/
def scrB (q k v : Vec F S1x1024x128 .f32) : Scr F := offStep q k v scrInit
/-- Query block 1 against its own keys, from the state key block 0 (`k0`, `v0`) left. -/
def outC (q k0 v0 k1 v1 : Vec F S1x1024x128 .f32) : Vec F S1x1024x128 .f32 :=
  outOf (diagStep 1#32 1#32 q k1 v1 (scrB q k0 v0))

end Cert.KernelIdeal.Hand

end
-- ==== Proof.Data.lean ====
/-
  The proof data of the one pipeline: the literal (query block, key block) tables the host writes, the pipeline at
  them, each window's block at a grid point, what each window's staging buffer holds after the body at each point,
  and the invariant the body keeps between points — the tables held, the generator register at some state, and the
  three scratch buffers at some state which, before the third point of each head, is the state the second point's
  plain update left.
-/
import proofs.«141465_j40630390620348_2_alg».proof.Proof.Gen.KernelIdeal.Launch
import proofs.«141465_j40630390620348_2_alg».proof.Proof.Steps
import Idealize.ShloMosaic.Lib.Pipeline.FrameBody
import Idealize.ShloMosaic.Lib.Pipeline.Regions

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F] [Named F]

local notation "𝕄" => MT nD τ sig Unit (Elt F) ℕ (UR sig nD τ) ℕ

/-! ## The tables -/

/-- The two tables as the host's constants write them: the query block and the key block of each of the three
    steps of a head, (0,0), (1,0), (1,1). -/
def tbl : pre0.Contents (Elt F) := fun
  | ⟨0, _⟩ => fun i => lit0 (S3.rowMajor i)
  | ⟨1, _⟩ => fun i => lit1 (S3.rowMajor i)
  | ⟨_ + 2, h⟩ => absurd h (Nat.not_lt.2 (Nat.le_add_left _ _))

/-- Every block the tables name lies inside its array: decided at one instance (the tables hold integer words, the
    same at every instance), -/
theorem ok_tbl_at : ok0 (F := Ideal) tbl := by decide
/-- hence at any. -/
theorem ok_tbl : ok0 (F := F) tbl := ok_tbl_at

/-- The tables as admissible contents of the pipeline's tables. -/
def adm : (p : Fin 1) → (pcfgs (F := F) p).Adm := fun _ => ⟨tbl, ok_tbl⟩

/-- The pipeline at the literal tables. -/
abbrev cfgT : Pipeline.Cfg sig Λ₀ := Pipeline.pin (pcfgs (F := F)) adm 0

theorem cfgT_N : (cfgT (F := F)).N = 96 := N_0

/-- Point number `n` (read modulo the grid's 96 points). -/
def pt (n : Nat) : Fin (cfgT (F := F)).N := ⟨n % 96, by rw [cfgT_N]; exact Nat.mod_lt _ (by decide)⟩

section Blocks

variable (V : (c : Dev nD) → (b : Ref sig .tc) → Buf (Elt F) ((c : Thread nD τ).loc b))

/-- Window `w`'s block at point `t`, read off its array as the region finds it. -/
def iblk (c : Dev nD) (w : Fin (cfgT (F := F)).W) (t : Fin (cfgT (F := F)).N) :
    (((cfgT (F := F)).win w).xblock ((cfgT (F := F)).grid.coords t)).Idx → Elt F ((cfgT (F := F)).win w).elt :=
  (((cfgT (F := F)).win w).blk t).view.read (Elt F) (V c (Pipeline.arrRef spec0 w))

/-- The output window's buffer after the body at point `t`: at the third point of a head the masked update from the
    state the second point left, else (the first point; the second stores nothing there) the reset and masked update. -/
def out3 (c : Dev nD) (t : Fin (cfgT (F := F)).N) : Vec F S1x1024x128 .f32 :=
  if t.val % 3 = 2 then
    outC (iblk V c 0 t) (iblk V c 1 (pt (t.val - 1))) (iblk V c 2 (pt (t.val - 1))) (iblk V c 1 t) (iblk V c 2 t)
  else outA (iblk V c 0 t) (iblk V c 1 t) (iblk V c 2 t)

/-- The invariant before point `t`. -/
def Φs (c : Dev nD) (t : Fin ((cfgT (F := F)).N + 1)) : sProp 𝕄 :=
  iprop(Pipeline.prefHeld pre0 c (fun _ => fullShare) (tbl (F := F)) ∗ (∃ r, prngReg c r)
    ∗ ∃ s : Scr F,
        owns (c : Thread nD τ) (Memref.whole cc0_scratch0) fullShare s.m
        ∗ owns (c : Thread nD τ) (Memref.whole cc0_scratch1) fullShare s.l
        ∗ owns (c : Thread nD τ) (Memref.whole cc0_scratch2) fullShare s.acc
        ∗ ⌜t.val % 3 = 2 → s = scrB (iblk V c 0 (pt (t.val - 1))) (iblk V c 1 (pt (t.val - 1))) (iblk V c 2 (pt (t.val - 1)))⌝)

/-- The proof data on core `c`: the arrays as the region finds them; after the body each input's buffer at its
    block and the output's at `out3`; the invariant `Φs`; full shares; nothing owed. -/
def dat (c : Dev nD) : Dat τ (Elt F) Unit ℕ (UR sig nD τ) ℕ (cfgT (F := F)) c where
  A w := V c (Pipeline.arrRef spec0 w)
  after w t := match w with
    | ⟨0, _⟩ => iblk V c 0 t
    | ⟨1, _⟩ => iblk V c 1 t
    | ⟨2, _⟩ => iblk V c 2 t
    | ⟨3, _⟩ => out3 V c t
  Φ t := Φs V c t
  q _ := fullShare
  owed _ := 0

end Blocks

end Cert.KernelIdeal.Hand

end
-- ==== Proof.BodyRuns.lean ====
/-
  The kernel body run once per control case. The body branches three times on the two table words of its step — the key
  block number `w3` and the query block number `w1`: reset the scratch when `w3 = 0`; update it by a key block wholly
  before the query block when `w3 < w1`; update it under the causal mask and write the output block when `w3 = w1`. With
  each condition decided the body is a straight line of whole-buffer loads and stores; what each buffer ends with is the last
  value stored into it, a composition of the skeleton's payloads named in the transitions of the scratch state.
-/
import proofs.«141465_j40630390620348_2_alg».proof.Proof.Data
import Idealize.ShloMosaic.Lib.Ring
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F] [Named F]

local notation "𝕄" => MT nD τ sig Unit (Elt F) ℕ (UR sig nD τ) ℕ

/-- The word the body loads from a table at the point's step. -/
abbrev wordOf (i : grid0.Coords) (a : Memref sig .tc .smem S3 .i32) (ha : a.IsWhole) (T : Vec F S3 .i32) : Elt F .i32 :=
  a.view.readAt (Elt F) (Rect.unit (s := S3) (k0_off1 i) S1.size (Facts₀.k0_off1_inb i)).toLoadRect (ha.unread T) (Shape.Idx.first (Facts₀.numel1_S1.symm ▸ Nat.one_pos))

/-- The three branch conditions, of the key block number `w3` and the query block number `w1`: the key block is the first;
    it is before the query block; it is the query block. -/
abbrev condInit (w3 : BitVec 32) : Prop := (Scalar.cmpi .ne (Scalar.extui (Scalar.cmpi .eq w3 0#32)) 0#32) = 1#1
abbrev condOff (w1 w3 : BitVec 32) : Prop := (Scalar.cmpi .ne (Scalar.extui (Scalar.cmpi .slt w3 w1)) 0#32) = 1#1
abbrev condDiag (w1 w3 : BitVec 32) : Prop := k0_cond3 w1 w3 = 1#1

theorem hz2 : (![0, 0] : Fin 2 → Nat) = fun _ => 0 := by funext a; fin_cases a <;> rfl
theorem hz3 : (![0, 0, 0] : Fin 3 → Nat) = fun _ => 0 := by funext a; fin_cases a <;> rfl

/-- After a list of stores whose LAST one covers the whole buffer, the buffer holds that store's value. -/
theorem read_head_whole {sg : RefSig} {κ : Kind} {sp : Space} {S : Shape} {e : EltTy} {Val : EltTy → Type} [∀ e, Nonempty (Val e)]
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.Mem.head _, View.mem_set_unit_zero h inb y⟩), View.canon_cons_unit_zero h]

/-- A load of a whole buffer held at known contents reads those contents. -/
theorem readAt_whole {sg : RefSig} {κ : Kind} {sp : Space} {S : Shape} {e : EltTy} {Val : EltTy → Type}
    (a : Memref sg κ sp S e) (ha : a.IsWhole) {off : Fin S.rank → Nat} (h : off = fun _ => 0)
    (inb : ∀ a, off a + S.size a ≤ S.size a) (X : S.Idx → Val e) :
    a.view.readAt Val (Rect.unit off S.size inb).toLoadRect (ha.unread X) = X := by
  rw [View.readAt_eq_ld, ha.read_unread, View.ld_unit_zero h]

/-- A load of a whole buffer after stores whose LAST one covered it reads that store's value. -/
theorem readCov_head_whole {sg : RefSig} {κ : Kind} {sp : Space} {S : Shape} {e : EltTy} {Val : EltTy → Type} [∀ e, Nonempty (Val e)]
    (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld v _ _ (fun y => ⟨_, List.Mem.head _, View.mem_set_unit_zero h inb y⟩), View.canon_cons_unit_zero h, View.ld_unit_zero h]

set_option maxHeartbeats 1000000 in
/-- The first step of a head (key block = query block = the first): the reset, then the masked update, then the output
    block. From any scratch and output contents the body ends with the scratch at the updated state and the output buffer at
    the state's quotient; the tables and the input blocks are left as found. -/
theorem run_A (c : Dev nD) (E : Set ℕ) (i : grid0.Coords) (arg2 : Memref sig .tc .smem S3 .i32) (harg2 : arg2.IsWhole) (arg3 : Memref sig .tc .smem S3 .i32) (harg3 : arg3.IsWhole)
    (arg4 : Memref sig .tc .vmem S1x1024x128 .f32) (harg4 : arg4.IsWhole) (arg5 : Memref sig .tc .vmem S1x1024x128 .f32) (harg5 : arg5.IsWhole)
    (arg6 : Memref sig .tc .vmem S1x1024x128 .f32) (harg6 : arg6.IsWhole) (arg7 : Memref sig .tc .vmem S1x1024x128 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x128 .f32) (harg10 : arg10.IsWhole)
    (T0 T1 : Vec F S3 .i32) (sh : PosShare TreeShare)
    (q k v : Vec F S1x1024x128 .f32)
    (w1 w3 : BitVec 32) (hw1 : wordOf i arg2 harg2 T0 = w1) (hw3 : wordOf i arg3 harg3 T1 = w3)
    (hc1 : condInit w3) (hc2 : ¬ condOff w1 w3) (hc3 : condDiag w1 w3)
    (K : PUnit → sProp 𝕄) :
    iprop(owns (c : Thread nD τ) arg2 sh T0 ∗ owns (c : Thread nD τ) arg3 sh T1
        ∗ owns (c : Thread nD τ) arg4 fullShare q ∗ owns (c : Thread nD τ) arg5 fullShare k ∗ owns (c : Thread nD τ) arg6 fullShare v
        ∗ (∃ d, owns (c : Thread nD τ) arg7 fullShare d)
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 sh T0 ∗ owns (c : Thread nD τ) arg3 sh T1
            ∗ owns (c : Thread nD τ) arg4 fullShare q ∗ owns (c : Thread nD τ) arg5 fullShare k ∗ owns (c : Thread nD τ) arg6 fullShare v
            ∗ owns (c : Thread nD τ) arg7 fullShare (outOf (diagStep w1 w3 q k v scrInit))
            ∗ owns (c : Thread nD τ) arg8 fullShare (diagStep w1 w3 q k v scrInit).m ∗ owns (c : Thread nD τ) arg9 fullShare (diagStep w1 w3 q k v scrInit).l ∗ owns (c : Thread nD τ) arg10 fullShare (diagStep w1 w3 q k v scrInit).acc) -∗ K ⟨⟩))
      ⊢ wp frame (wpE (defs₀ (F := F)) Variants.none c none) E (cc0__flash_causal_kernel i arg2 harg2 arg3 harg3 arg4 harg4 arg5 harg5 arg6 harg6 arg7 harg7 arg8 harg8 arg9 harg9 arg10 harg10) K := by
  subst hw1; subst hw3
  simp only [cc0__flash_causal_kernel_eq_skeleton]; unfold cc0__flash_causal_kernel_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
  obtain rfl := harg2.eq_unread hf2; obtain rfl := harg3.eq_unread hf3
  obtain rfl := harg4.eq_unread hf4; obtain rfl := harg5.eq_unread hf5; obtain rfl := harg6.eq_unread hf6
  sl_exec (disch := first | sl_exact hc1 | sl_exact hc2 | sl_exact hc3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    refine (read_head_whole _ _ hz3 Facts₀.inb_S1x1024x128_S1x1024x128_0_0_0 _ _).trans ?_
    sl_unfold_run_names
    simp only [readAt_whole (S := S1x1024x128) arg4 harg4 hz3 Facts₀.inb_S1x1024x128_S1x1024x128_0_0_0,
      readAt_whole (S := S1x1024x128) arg5 harg5 hz3 Facts₀.inb_S1x1024x128_S1x1024x128_0_0_0,
      readAt_whole (S := S1x1024x128) arg6 harg6 hz3 Facts₀.inb_S1x1024x128_S1x1024x128_0_0_0,
      readAt_whole (S := S1024x1) arg8 harg8 hz2 Facts₀.inb_S1024x1_S1024x1_0_0,
      readAt_whole (S := S1024x1) arg9 harg9 hz2 Facts₀.inb_S1024x1_S1024x1_0_0,
      readAt_whole (S := S1024x128) arg10 harg10 hz2 Facts₀.inb_S1024x128_S1024x128_0_0,
      readCov_head_whole (S := S1024x1) arg8.view hz2 Facts₀.inb_S1024x1_S1024x1_0_0,
      readCov_head_whole (S := S1024x1) arg9.view hz2 Facts₀.inb_S1024x1_S1024x1_0_0,
      readCov_head_whole (S := S1024x128) arg10.view hz2 Facts₀.inb_S1024x128_S1024x128_0_0]
    rfl
  isplitl [H8]
  · iexists _; isplitr
    swap; · iexact H8
    ipureintro
    refine (read_head_whole _ _ hz2 Facts₀.inb_S1024x1_S1024x1_0_0 _ _).trans ?_
    sl_unfold_run_names
    simp only [readAt_whole (S := S1x1024x128) arg4 harg4 hz3 Facts₀.inb_S1x1024x128_S1x1024x128_0_0_0,
      readAt_whole (S := S1x1024x128) arg5 harg5 hz3 Facts₀.inb_S1x1024x128_S1x1024x128_0_0_0,
      readAt_whole (S := S1x1024x128) arg6 harg6 hz3 Facts₀.inb_S1x1024x128_S1x1024x128_0_0_0,
      readAt_whole (S := S1024x1) arg8 harg8 hz2 Facts₀.inb_S1024x1_S1024x1_0_0,
      readAt_whole (S := S1024x1) arg9 harg9 hz2 Facts₀.inb_S1024x1_S1024x1_0_0,
      readAt_whole (S := S1024x128) arg10 harg10 hz2 Facts₀.inb_S1024x128_S1024x128_0_0,
      readCov_head_whole (S := S1024x1) arg8.view hz2 Facts₀.inb_S1024x1_S1024x1_0_0,
      readCov_head_whole (S := S1024x1) arg9.view hz2 Facts₀.inb_S1024x1_S1024x1_0_0,
      readCov_head_whole (S := S1024x128) arg10.view hz2 Facts₀.inb_S1024x128_S1024x128_0_0]
    rfl
  isplitl [H9]
  · iexists _; isplitr
    swap; · iexact H9
    ipureintro
    refine (read_head_whole _ _ hz2 Facts₀.inb_S1024x1_S1024x1_0_0 _ _).trans ?_
    sl_unfold_run_names
    simp only [readAt_whole (S := S1x1024x128) arg4 harg4 hz3 Facts₀.inb_S1x1024x128_S1x1024x128_0_0_0,
      readAt_whole (S := S1x1024x128) arg5 harg5 hz3 Facts₀.inb_S1x1024x128_S1x1024x128_0_0_0,
      readAt_whole (S := S1x1024x128) arg6 harg6 hz3 Facts₀.inb_S1x1024x128_S1x1024x128_0_0_0,
      readAt_whole (S := S1024x1) arg8 harg8 hz2 Facts₀.inb_S1024x1_S1024x1_0_0,
      readAt_whole (S := S1024x1) arg9 harg9 hz2 Facts₀.inb_S1024x1_S1024x1_0_0,
      readAt_whole (S := S1024x128) arg10 harg10 hz2 Facts₀.inb_S1024x128_S1024x128_0_0,
      readCov_head_whole (S := S1024x1) arg8.view hz2 Facts₀.inb_S1024x1_S1024x1_0_0,
      readCov_head_whole (S := S1024x1) arg9.view hz2 Facts₀.inb_S1024x1_S1024x1_0_0,
      readCov_head_whole (S := S1024x128) arg10.view hz2 Facts₀.inb_S1024x128_S1024x128_0_0]
    rfl
  iexists _; isplitr
  swap; · iexact H10
  ipureintro
  refine (read_head_whole _ _ hz2 Facts₀.inb_S1024x128_S1024x128_0_0 _ _).trans ?_
  sl_unfold_run_names
  simp only [readAt_whole (S := S1x1024x128) arg4 harg4 hz3 Facts₀.inb_S1x1024x128_S1x1024x128_0_0_0,
    readAt_whole (S := S1x1024x128) arg5 harg5 hz3 Facts₀.inb_S1x1024x128_S1x1024x128_0_0_0,
    readAt_whole (S := S1x1024x128) arg6 harg6 hz3 Facts₀.inb_S1x1024x128_S1x1024x128_0_0_0,
    readAt_whole (S := S1024x1) arg8 harg8 hz2 Facts₀.inb_S1024x1_S1024x1_0_0,
    readAt_whole (S := S1024x1) arg9 harg9 hz2 Facts₀.inb_S1024x1_S1024x1_0_0,
    readAt_whole (S := S1024x128) arg10 harg10 hz2 Facts₀.inb_S1024x128_S1024x128_0_0,
    readCov_head_whole (S := S1024x1) arg8.view hz2 Facts₀.inb_S1024x1_S1024x1_0_0,
    readCov_head_whole (S := S1024x1) arg9.view hz2 Facts₀.inb_S1024x1_S1024x1_0_0,
    readCov_head_whole (S := S1024x128) arg10.view hz2 Facts₀.inb_S1024x128_S1024x128_0_0]
  rfl

set_option maxHeartbeats 1000000 in
/-- The second step of a head (the first key block, before the query block): the reset, then the plain update. The
    output buffer is not touched. -/
theorem run_B (c : Dev nD) (E : Set ℕ) (i : grid0.Coords) (arg2 : Memref sig .tc .smem S3 .i32) (harg2 : arg2.IsWhole) (arg3 : Memref sig .tc .smem S3 .i32) (harg3 : arg3.IsWhole)
    (arg4 : Memref sig .tc .vmem S1x1024x128 .f32) (harg4 : arg4.IsWhole) (arg5 : Memref sig .tc .vmem S1x1024x128 .f32) (harg5 : arg5.IsWhole)
    (arg6 : Memref sig .tc .vmem S1x1024x128 .f32) (harg6 : arg6.IsWhole) (arg7 : Memref sig .tc .vmem S1x1024x128 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x128 .f32) (harg10 : arg10.IsWhole)
    (T0 T1 : Vec F S3 .i32) (sh : PosShare TreeShare)
    (q k v : Vec F S1x1024x128 .f32) (x7 : Vec F S1x1024x128 .f32)
    (w1 w3 : BitVec 32) (hw1 : wordOf i arg2 harg2 T0 = w1) (hw3 : wordOf i arg3 harg3 T1 = w3)
    (hc1 : condInit w3) (hc2 : condOff w1 w3) (hc3 : ¬ condDiag w1 w3)
    (K : PUnit → sProp 𝕄) :
    iprop(owns (c : Thread nD τ) arg2 sh T0 ∗ owns (c : Thread nD τ) arg3 sh T1
        ∗ owns (c : Thread nD τ) arg4 fullShare q ∗ owns (c : Thread nD τ) arg5 fullShare k ∗ owns (c : Thread nD τ) arg6 fullShare v
        ∗ owns (c : Thread nD τ) arg7 fullShare x7
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 sh T0 ∗ owns (c : Thread nD τ) arg3 sh T1
            ∗ owns (c : Thread nD τ) arg4 fullShare q ∗ owns (c : Thread nD τ) arg5 fullShare k ∗ owns (c : Thread nD τ) arg6 fullShare v
            ∗ owns (c : Thread nD τ) arg7 fullShare x7
            ∗ owns (c : Thread nD τ) arg8 fullShare (scrB q k v).m ∗ owns (c : Thread nD τ) arg9 fullShare (scrB q k v).l ∗ owns (c : Thread nD τ) arg10 fullShare (scrB q k v).acc) -∗ K ⟨⟩))
      ⊢ wp frame (wpE (defs₀ (F := F)) Variants.none c none) E (cc0__flash_causal_kernel i arg2 harg2 arg3 harg3 arg4 harg4 arg5 harg5 arg6 harg6 arg7 harg7 arg8 harg8 arg9 harg9 arg10 harg10) K := by
  subst hw1; subst hw3
  simp only [cc0__flash_causal_kernel_eq_skeleton]; unfold cc0__flash_causal_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  obtain rfl := harg2.eq_unread hf2; obtain rfl := harg3.eq_unread hf3
  obtain rfl := harg4.eq_unread hf4; obtain rfl := harg5.eq_unread hf5; obtain rfl := harg6.eq_unread hf6
  obtain rfl := harg7.eq_unread hf7
  sl_exec (disch := first | sl_exact hc1 | sl_exact hc2 | sl_exact hc3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    exact harg7.read_unread _
  isplitl [H8]
  · iexists _; isplitr
    swap; · iexact H8
    ipureintro
    refine (read_head_whole _ _ hz2 Facts₀.inb_S1024x1_S1024x1_0_0 _ _).trans ?_
    sl_unfold_run_names
    simp only [readAt_whole (S := S1x1024x128) arg4 harg4 hz3 Facts₀.inb_S1x1024x128_S1x1024x128_0_0_0,
      readAt_whole (S := S1x1024x128) arg5 harg5 hz3 Facts₀.inb_S1x1024x128_S1x1024x128_0_0_0,
      readAt_whole (S := S1x1024x128) arg6 harg6 hz3 Facts₀.inb_S1x1024x128_S1x1024x128_0_0_0,
      readAt_whole (S := S1024x1) arg8 harg8 hz2 Facts₀.inb_S1024x1_S1024x1_0_0,
      readAt_whole (S := S1024x1) arg9 harg9 hz2 Facts₀.inb_S1024x1_S1024x1_0_0,
      readAt_whole (S := S1024x128) arg10 harg10 hz2 Facts₀.inb_S1024x128_S1024x128_0_0,
      readCov_head_whole (S := S1024x1) arg8.view hz2 Facts₀.inb_S1024x1_S1024x1_0_0,
      readCov_head_whole (S := S1024x1) arg9.view hz2 Facts₀.inb_S1024x1_S1024x1_0_0,
      readCov_head_whole (S := S1024x128) arg10.view hz2 Facts₀.inb_S1024x128_S1024x128_0_0]
    rfl
  isplitl [H9]
  · iexists _; isplitr
    swap; · iexact H9
    ipureintro
    refine (read_head_whole _ _ hz2 Facts₀.inb_S1024x1_S1024x1_0_0 _ _).trans ?_
    sl_unfold_run_names
    simp only [readAt_whole (S := S1x1024x128) arg4 harg4 hz3 Facts₀.inb_S1x1024x128_S1x1024x128_0_0_0,
      readAt_whole (S := S1x1024x128) arg5 harg5 hz3 Facts₀.inb_S1x1024x128_S1x1024x128_0_0_0,
      readAt_whole (S := S1x1024x128) arg6 harg6 hz3 Facts₀.inb_S1x1024x128_S1x1024x128_0_0_0,
      readAt_whole (S := S1024x1) arg8 harg8 hz2 Facts₀.inb_S1024x1_S1024x1_0_0,
      readAt_whole (S := S1024x1) arg9 harg9 hz2 Facts₀.inb_S1024x1_S1024x1_0_0,
      readAt_whole (S := S1024x128) arg10 harg10 hz2 Facts₀.inb_S1024x128_S1024x128_0_0,
      readCov_head_whole (S := S1024x1) arg8.view hz2 Facts₀.inb_S1024x1_S1024x1_0_0,
      readCov_head_whole (S := S1024x1) arg9.view hz2 Facts₀.inb_S1024x1_S1024x1_0_0,
      readCov_head_whole (S := S1024x128) arg10.view hz2 Facts₀.inb_S1024x128_S1024x128_0_0]
    rfl
  iexists _; isplitr
  swap; · iexact H10
  ipureintro
  refine (read_head_whole _ _ hz2 Facts₀.inb_S1024x128_S1024x128_0_0 _ _).trans ?_
  sl_unfold_run_names
  simp only [readAt_whole (S := S1x1024x128) arg4 harg4 hz3 Facts₀.inb_S1x1024x128_S1x1024x128_0_0_0,
    readAt_whole (S := S1x1024x128) arg5 harg5 hz3 Facts₀.inb_S1x1024x128_S1x1024x128_0_0_0,
    readAt_whole (S := S1x1024x128) arg6 harg6 hz3 Facts₀.inb_S1x1024x128_S1x1024x128_0_0_0,
    readAt_whole (S := S1024x1) arg8 harg8 hz2 Facts₀.inb_S1024x1_S1024x1_0_0,
    readAt_whole (S := S1024x1) arg9 harg9 hz2 Facts₀.inb_S1024x1_S1024x1_0_0,
    readAt_whole (S := S1024x128) arg10 harg10 hz2 Facts₀.inb_S1024x128_S1024x128_0_0,
    readCov_head_whole (S := S1024x1) arg8.view hz2 Facts₀.inb_S1024x1_S1024x1_0_0,
    readCov_head_whole (S := S1024x1) arg9.view hz2 Facts₀.inb_S1024x1_S1024x1_0_0,
    readCov_head_whole (S := S1024x128) arg10.view hz2 Facts₀.inb_S1024x128_S1024x128_0_0]
  rfl

set_option maxHeartbeats 1000000 in
/-- The third step of a head (key block = query block, not the first): no reset; the masked update from the state found
    in the scratch, then the output block. -/
theorem run_C (c : Dev nD) (E : Set ℕ) (i : grid0.Coords) (arg2 : Memref sig .tc .smem S3 .i32) (harg2 : arg2.IsWhole) (arg3 : Memref sig .tc .smem S3 .i32) (harg3 : arg3.IsWhole)
    (arg4 : Memref sig .tc .vmem S1x1024x128 .f32) (harg4 : arg4.IsWhole) (arg5 : Memref sig .tc .vmem S1x1024x128 .f32) (harg5 : arg5.IsWhole)
    (arg6 : Memref sig .tc .vmem S1x1024x128 .f32) (harg6 : arg6.IsWhole) (arg7 : Memref sig .tc .vmem S1x1024x128 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x128 .f32) (harg10 : arg10.IsWhole)
    (T0 T1 : Vec F S3 .i32) (sh : PosShare TreeShare)
    (q k v : Vec F S1x1024x128 .f32)  (s : Scr F)
    (w1 w3 : BitVec 32) (hw1 : wordOf i arg2 harg2 T0 = w1) (hw3 : wordOf i arg3 harg3 T1 = w3)
    (hc1 : ¬ condInit w3) (hc2 : ¬ condOff w1 w3) (hc3 : condDiag w1 w3)
    (K : PUnit → sProp 𝕄) :
    iprop(owns (c : Thread nD τ) arg2 sh T0 ∗ owns (c : Thread nD τ) arg3 sh T1
        ∗ owns (c : Thread nD τ) arg4 fullShare q ∗ owns (c : Thread nD τ) arg5 fullShare k ∗ owns (c : Thread nD τ) arg6 fullShare v
        ∗ (∃ d, owns (c : Thread nD τ) arg7 fullShare d)
        ∗ owns (c : Thread nD τ) arg8 fullShare s.m ∗ owns (c : Thread nD τ) arg9 fullShare s.l ∗ owns (c : Thread nD τ) arg10 fullShare s.acc
        ∗ (iprop(owns (c : Thread nD τ) arg2 sh T0 ∗ owns (c : Thread nD τ) arg3 sh T1
            ∗ owns (c : Thread nD τ) arg4 fullShare q ∗ owns (c : Thread nD τ) arg5 fullShare k ∗ owns (c : Thread nD τ) arg6 fullShare v
            ∗ owns (c : Thread nD τ) arg7 fullShare (outOf (diagStep w1 w3 q k v s))
            ∗ owns (c : Thread nD τ) arg8 fullShare (diagStep w1 w3 q k v s).m ∗ owns (c : Thread nD τ) arg9 fullShare (diagStep w1 w3 q k v s).l ∗ owns (c : Thread nD τ) arg10 fullShare (diagStep w1 w3 q k v s).acc) -∗ K ⟨⟩))
      ⊢ wp frame (wpE (defs₀ (F := F)) Variants.none c none) E (cc0__flash_causal_kernel i arg2 harg2 arg3 harg3 arg4 harg4 arg5 harg5 arg6 harg6 arg7 harg7 arg8 harg8 arg9 harg9 arg10 harg10) K := by
  subst hw1; subst hw3
  simp only [cc0__flash_causal_kernel_eq_skeleton]; unfold cc0__flash_causal_kernel_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, Hk⟩
  obtain rfl := harg2.eq_unread hf2; obtain rfl := harg3.eq_unread hf3
  obtain rfl := harg4.eq_unread hf4; obtain rfl := harg5.eq_unread hf5; obtain rfl := harg6.eq_unread hf6
  obtain rfl := harg8.eq_unread hf8; obtain rfl := harg9.eq_unread hf9; obtain rfl := harg10.eq_unread hf10
  sl_exec (disch := first | sl_exact hc1 | sl_exact hc2 | sl_exact hc3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    refine (read_head_whole _ _ hz3 Facts₀.inb_S1x1024x128_S1x1024x128_0_0_0 _ _).trans ?_
    sl_unfold_run_names
    simp only [readAt_whole (S := S1x1024x128) arg4 harg4 hz3 Facts₀.inb_S1x1024x128_S1x1024x128_0_0_0,
      readAt_whole (S := S1x1024x128) arg5 harg5 hz3 Facts₀.inb_S1x1024x128_S1x1024x128_0_0_0,
      readAt_whole (S := S1x1024x128) arg6 harg6 hz3 Facts₀.inb_S1x1024x128_S1x1024x128_0_0_0,
      readAt_whole (S := S1024x1) arg8 harg8 hz2 Facts₀.inb_S1024x1_S1024x1_0_0,
      readAt_whole (S := S1024x1) arg9 harg9 hz2 Facts₀.inb_S1024x1_S1024x1_0_0,
      readAt_whole (S := S1024x128) arg10 harg10 hz2 Facts₀.inb_S1024x128_S1024x128_0_0,
      readCov_head_whole (S := S1024x1) arg8.view hz2 Facts₀.inb_S1024x1_S1024x1_0_0,
      readCov_head_whole (S := S1024x1) arg9.view hz2 Facts₀.inb_S1024x1_S1024x1_0_0,
      readCov_head_whole (S := S1024x128) arg10.view hz2 Facts₀.inb_S1024x128_S1024x128_0_0]
    rfl
  isplitl [H8]
  · iexists _; isplitr
    swap; · iexact H8
    ipureintro
    refine (read_head_whole _ _ hz2 Facts₀.inb_S1024x1_S1024x1_0_0 _ _).trans ?_
    sl_unfold_run_names
    simp only [readAt_whole (S := S1x1024x128) arg4 harg4 hz3 Facts₀.inb_S1x1024x128_S1x1024x128_0_0_0,
      readAt_whole (S := S1x1024x128) arg5 harg5 hz3 Facts₀.inb_S1x1024x128_S1x1024x128_0_0_0,
      readAt_whole (S := S1x1024x128) arg6 harg6 hz3 Facts₀.inb_S1x1024x128_S1x1024x128_0_0_0,
      readAt_whole (S := S1024x1) arg8 harg8 hz2 Facts₀.inb_S1024x1_S1024x1_0_0,
      readAt_whole (S := S1024x1) arg9 harg9 hz2 Facts₀.inb_S1024x1_S1024x1_0_0,
      readAt_whole (S := S1024x128) arg10 harg10 hz2 Facts₀.inb_S1024x128_S1024x128_0_0,
      readCov_head_whole (S := S1024x1) arg8.view hz2 Facts₀.inb_S1024x1_S1024x1_0_0,
      readCov_head_whole (S := S1024x1) arg9.view hz2 Facts₀.inb_S1024x1_S1024x1_0_0,
      readCov_head_whole (S := S1024x128) arg10.view hz2 Facts₀.inb_S1024x128_S1024x128_0_0]
    rfl
  isplitl [H9]
  · iexists _; isplitr
    swap; · iexact H9
    ipureintro
    refine (read_head_whole _ _ hz2 Facts₀.inb_S1024x1_S1024x1_0_0 _ _).trans ?_
    sl_unfold_run_names
    simp only [readAt_whole (S := S1x1024x128) arg4 harg4 hz3 Facts₀.inb_S1x1024x128_S1x1024x128_0_0_0,
      readAt_whole (S := S1x1024x128) arg5 harg5 hz3 Facts₀.inb_S1x1024x128_S1x1024x128_0_0_0,
      readAt_whole (S := S1x1024x128) arg6 harg6 hz3 Facts₀.inb_S1x1024x128_S1x1024x128_0_0_0,
      readAt_whole (S := S1024x1) arg8 harg8 hz2 Facts₀.inb_S1024x1_S1024x1_0_0,
      readAt_whole (S := S1024x1) arg9 harg9 hz2 Facts₀.inb_S1024x1_S1024x1_0_0,
      readAt_whole (S := S1024x128) arg10 harg10 hz2 Facts₀.inb_S1024x128_S1024x128_0_0,
      readCov_head_whole (S := S1024x1) arg8.view hz2 Facts₀.inb_S1024x1_S1024x1_0_0,
      readCov_head_whole (S := S1024x1) arg9.view hz2 Facts₀.inb_S1024x1_S1024x1_0_0,
      readCov_head_whole (S := S1024x128) arg10.view hz2 Facts₀.inb_S1024x128_S1024x128_0_0]
    rfl
  iexists _; isplitr
  swap; · iexact H10
  ipureintro
  refine (read_head_whole _ _ hz2 Facts₀.inb_S1024x128_S1024x128_0_0 _ _).trans ?_
  sl_unfold_run_names
  simp only [readAt_whole (S := S1x1024x128) arg4 harg4 hz3 Facts₀.inb_S1x1024x128_S1x1024x128_0_0_0,
    readAt_whole (S := S1x1024x128) arg5 harg5 hz3 Facts₀.inb_S1x1024x128_S1x1024x128_0_0_0,
    readAt_whole (S := S1x1024x128) arg6 harg6 hz3 Facts₀.inb_S1x1024x128_S1x1024x128_0_0_0,
    readAt_whole (S := S1024x1) arg8 harg8 hz2 Facts₀.inb_S1024x1_S1024x1_0_0,
    readAt_whole (S := S1024x1) arg9 harg9 hz2 Facts₀.inb_S1024x1_S1024x1_0_0,
    readAt_whole (S := S1024x128) arg10 harg10 hz2 Facts₀.inb_S1024x128_S1024x128_0_0,
    readCov_head_whole (S := S1024x1) arg8.view hz2 Facts₀.inb_S1024x1_S1024x1_0_0,
    readCov_head_whole (S := S1024x1) arg9.view hz2 Facts₀.inb_S1024x1_S1024x1_0_0,
    readCov_head_whole (S := S1024x128) arg10.view hz2 Facts₀.inb_S1024x128_S1024x128_0_0]
  rfl

end Cert.KernelIdeal.Hand

end
-- ==== Proof.Blocks.lean ====
/-
  From blocks to the array: the output array after the region as ONE function `G3` of the query, key and value arrays.

  The grid has 32 heads × 3 steps; at the literal tables a head's three steps read (query block, key block) =
  (0,0), (1,0), (1,1). A window's block at a point is the block of its array at the point's block index (an element
  of a block sits in the array, on each axis, at the block index times the block's size plus its own coordinate), so
  each input block is a block `blkOf X bh j` of its array. The output window is written back at a head's first
  point — rows below 1024, `outA` of the head's first query, key and value blocks — and at its third — rows from 1024,
  `outC` of the second query block, the first key and value blocks (which the second point read) and the second ones.
  Those two blocks per head cover the array, so it ends holding `G3`.
-/
import proofs.«141465_j40630390620348_2_alg».proof.Proof.Data
import Idealize.ShloMosaic.Lib.Pipeline.Value
import Idealize.ShloMosaic.Lib.ValueIdx

noncomputable section

namespace Cert.KernelIdeal.Hand

open Idealize.ShloMosaic Idealize.ShloMosaic.TcCoe Idealize.SL.Sem
open Idealize.ShloMosaic.Pipeline (Dat)
open Cert.KernelIdeal Cert.KernelIdeal.Gen

variable {F : FTy → Type} [FloatOps F] [Named F]

/-- Block `j` (rows `j*1024 … j*1024+1023`) of head `bh` of a [32,2048,128] array, as a [1,1024,128] block. -/
def blkOf (X : Vec F S32x2048x128 .f32) (bh : Fin 32) (j : Fin 2) : Vec F S1x1024x128 .f32 :=
  fun y => X (ValueIdx.ix3 bh
    ⟨j.val * 1024 + (y 1).val, by have h1 : (y 1).val < 1024 := (y 1).isLt; have := j.isLt; omega⟩
    ⟨(y 2).val, (y 2).isLt⟩)

/-- The output array as a function of the query, key and value arrays: rows below 1024 of a head by `outA` of the
    head's first blocks, rows from 1024 by `outC`. -/
def G3 (Q K V : Vec F S32x2048x128 .f32) : Vec F S32x2048x128 .f32 := fun i =>
  if (i 1).val < 1024 then
    outA (blkOf Q ⟨(i 0).val, (i 0).isLt⟩ 0) (blkOf K ⟨(i 0).val, (i 0).isLt⟩ 0) (blkOf V ⟨(i 0).val, (i 0).isLt⟩ 0)
      (ValueIdx.ix3 0 ⟨(i 1).val % 1024, Nat.mod_lt _ (by decide)⟩ ⟨(i 2).val, (i 2).isLt⟩)
  else
    outC (blkOf Q ⟨(i 0).val, (i 0).isLt⟩ 1) (blkOf K ⟨(i 0).val, (i 0).isLt⟩ 0) (blkOf V ⟨(i 0).val, (i 0).isLt⟩ 0)
      (blkOf K ⟨(i 0).val, (i 0).isLt⟩ 1) (blkOf V ⟨(i 0).val, (i 0).isLt⟩ 1)
      (ValueIdx.ix3 0 ⟨(i 1).val % 1024, Nat.mod_lt _ (by decide)⟩ ⟨(i 2).val, (i 2).isLt⟩)

/-! ## The block indices along the grid -/

/-- The four windows' block indices and the output's write-backs at every point of the grid, at the literal tables:
    the head is the point over 3 on every window; the query block (and the output block) is 0 at a head's first
    point and 1 after; the key block (and the value block) is 1 at a head's third point and 0 before; the feature
    block is 0; the output is written back everywhere but at a head's second point. Decided at one instance: the
    tables hold integer words, the same at every instance. -/
theorem idx_facts_at : ∀ t : Fin (cfgT (F := Ideal)).N,
    (((cfgT (F := Ideal)).win 0).index t (0 : Fin 3) = t.val / 3
      ∧ ((cfgT (F := Ideal)).win 0).index t (1 : Fin 3) = (if t.val % 3 = 0 then 0 else 1)
      ∧ ((cfgT (F := Ideal)).win 0).index t (2 : Fin 3) = 0)
    ∧ (((cfgT (F := Ideal)).win 1).index t (0 : Fin 3) = t.val / 3
      ∧ ((cfgT (F := Ideal)).win 1).index t (1 : Fin 3) = (if t.val % 3 = 2 then 1 else 0)
      ∧ ((cfgT (F := Ideal)).win 1).index t (2 : Fin 3) = 0)
    ∧ (((cfgT (F := Ideal)).win 2).index t (0 : Fin 3) = t.val / 3
      ∧ ((cfgT (F := Ideal)).win 2).index t (1 : Fin 3) = (if t.val % 3 = 2 then 1 else 0)
      ∧ ((cfgT (F := Ideal)).win 2).index t (2 : Fin 3) = 0)
    ∧ (((cfgT (F := Ideal)).win 3).index t (0 : Fin 3) = t.val / 3
      ∧ ((cfgT (F := Ideal)).win 3).index t (1 : Fin 3) = (if t.val % 3 = 0 then 0 else 1)
      ∧ ((cfgT (F := Ideal)).win 3).index t (2 : Fin 3) = 0)
    ∧ (((cfgT (F := Ideal)).win 3).flush t = true ↔ t.val % 3 ≠ 1) := by decide

/-- Hence the same facts at any instance. -/
theorem idx_facts (t : Fin (cfgT (F := F)).N) :
    (((cfgT (F := F)).win 0).index t (0 : Fin 3) = t.val / 3
      ∧ ((cfgT (F := F)).win 0).index t (1 : Fin 3) = (if t.val % 3 = 0 then 0 else 1)
      ∧ ((cfgT (F := F)).win 0).index t (2 : Fin 3) = 0)
    ∧ (((cfgT (F := F)).win 1).index t (0 : Fin 3) = t.val / 3
      ∧ ((cfgT (F := F)).win 1).index t (1 : Fin 3) = (if t.val % 3 = 2 then 1 else 0)
      ∧ ((cfgT (F := F)).win 1).index t (2 : Fin 3) = 0)
    ∧ (((cfgT (F := F)).win 2).index t (0 : Fin 3) = t.val / 3
      ∧ ((cfgT (F := F)).win 2).index t (1 : Fin 3) = (if t.val % 3 = 2 then 1 else 0)
      ∧ ((cfgT (F := F)).win 2).index t (2 : Fin 3) = 0)
    ∧ (((cfgT (F := F)).win 3).index t (0 : Fin 3) = t.val / 3
      ∧ ((cfgT (F := F)).win 3).index t (1 : Fin 3) = (if t.val % 3 = 0 then 0 else 1)
      ∧ ((cfgT (F := F)).win 3).index t (2 : Fin 3) = 0)
    ∧ (((cfgT (F := F)).win 3).flush t = true ↔ t.val % 3 ≠ 1) := idx_facts_at t

/-- Where the output window is idle and where each input window is fetched, at every point of the grid at the literal
    tables: the body stores the output block only where the query block is the key block, so the output is idle at a
    head's second point and nowhere else; the query block is fetched at a head's first and second points, the key
    and value blocks at its first and third. Decided at one instance. -/
theorem idle_fetch_facts_at : ∀ t : Fin (cfgT (F := Ideal)).N,
    (cfgT (F := Ideal)).idle 3 ((cfgT (F := Ideal)).grid.coords t) = decide (t.val % 3 = 1)
    ∧ (((cfgT (F := Ideal)).win 0).fetch t = true ↔ t.val % 3 ≠ 2)
    ∧ (((cfgT (F := Ideal)).win 1).fetch t = true ↔ t.val % 3 ≠ 1)
    ∧ (((cfgT (F := Ideal)).win 2).fetch t = true ↔ t.val % 3 ≠ 1) := by decide

/-- Hence the same facts at any instance. -/
theorem idle_fetch_facts (t : Fin (cfgT (F := F)).N) :
    (cfgT (F := F)).idle 3 ((cfgT (F := F)).grid.coords t) = decide (t.val % 3 = 1)
    ∧ (((cfgT (F := F)).win 0).fetch t = true ↔ t.val % 3 ≠ 2)
    ∧ (((cfgT (F := F)).win 1).fetch t = true ↔ t.val % 3 ≠ 1)
    ∧ (((cfgT (F := F)).win 2).fetch t = true ↔ t.val % 3 ≠ 1) := idle_fetch_facts_at t

/-- The output window is idle exactly at a head's second point. -/
theorem idle3_eq (t : Fin (cfgT (F := F)).N) :
    (cfgT (F := F)).idle 3 ((cfgT (F := F)).grid.coords t) = decide (t.val % 3 = 1) := (idle_fetch_facts t).1

/-- The output block is not written back at a head's second point. -/
theorem flush3_false (t : Fin (cfgT (F := F)).N) (h : t.val % 3 = 1) : ((cfgT (F := F)).win 3).flush t = false :=
  Bool.eq_false_iff.mpr fun hf => ((idx_facts (F := F) t).2.2.2.2.mp hf) h

/-- It is written back at a head's first and third points. -/
theorem flush3_true (t : Fin (cfgT (F := F)).N) (h : t.val % 3 ≠ 1) : ((cfgT (F := F)).win 3).flush t = true :=
  (idx_facts (F := F) t).2.2.2.2.mpr h

/-! ## The array function at an index -/

/-- At row `r < 1024` of head `bh`: `outA` of the head's first blocks, at row `r`. -/
theorem G3_lo (Q K W : Vec F S32x2048x128 .f32) (i : S32x2048x128.Idx) (bh : Fin 32) (y : S1x1024x128.Idx)
    (h0 : (i 0).val = bh.val) (h1 : (i 1).val = (y 1).val) (h2 : (i 2).val = (y 2).val) :
    G3 Q K W i = outA (blkOf Q bh 0) (blkOf K bh 0) (blkOf W bh 0) y := by
  have hy0 : (y 0).val < 1 := (y 0).isLt
  have hy1 : (y 1).val < 1024 := (y 1).isLt
  have eb : (⟨(i 0).val, (i 0).isLt⟩ : Fin 32) = bh := Fin.ext h0
  have ey : (ValueIdx.ix3 (0 : Fin 1) (⟨(i 1).val % 1024, Nat.mod_lt _ (by decide)⟩ : Fin 1024)
      (⟨(i 2).val, (i 2).isLt⟩ : Fin 128) : S1x1024x128.Idx) = y := by
    funext a
    apply Fin.ext
    match a with
    | ⟨0, _⟩ => show (0 : Nat) = (y 0).val; omega
    | ⟨1, _⟩ => show (i 1).val % 1024 = (y 1).val; omega
    | ⟨2, _⟩ => show (i 2).val = (y 2).val; omega
  unfold G3
  rw [if_pos (by omega : (i 1).val < 1024), eb, ey]

/-- At row `1024 + r` of head `bh`: `outC` of the head's second query block and its two key and value blocks, at row `r`. -/
theorem G3_hi (Q K W : Vec F S32x2048x128 .f32) (i : S32x2048x128.Idx) (bh : Fin 32) (y : S1x1024x128.Idx)
    (h0 : (i 0).val = bh.val) (h1 : (i 1).val = 1024 + (y 1).val) (h2 : (i 2).val = (y 2).val) :
    G3 Q K W i = outC (blkOf Q bh 1) (blkOf K bh 0) (blkOf W bh 0) (blkOf K bh 1) (blkOf W bh 1) y := by
  have hy0 : (y 0).val < 1 := (y 0).isLt
  have hy1 : (y 1).val < 1024 := (y 1).isLt
  have eb : (⟨(i 0).val, (i 0).isLt⟩ : Fin 32) = bh := Fin.ext h0
  have ey : (ValueIdx.ix3 (0 : Fin 1) (⟨(i 1).val % 1024, Nat.mod_lt _ (by decide)⟩ : Fin 1024)
      (⟨(i 2).val, (i 2).isLt⟩ : Fin 128) : S1x1024x128.Idx) = y := by
    funext a
    apply Fin.ext
    match a with
    | ⟨0, _⟩ => show (0 : Nat) = (y 0).val; omega
    | ⟨1, _⟩ => show (i 1).val % 1024 = (y 1).val; omega
    | ⟨2, _⟩ => show (i 2).val = (y 2).val; omega
  unfold G3
  rw [if_neg (by omega : ¬ (i 1).val < 1024), eb, ey]

/-! ## Each input block as a block of its array -/

section Arrays

variable (V : (c : Dev nD) → (b : Ref sig .tc) → Buf (Elt F) ((c : Thread nD τ).loc b))

/-- The query window's block at a point whose block index is `(bh, j, 0)` is block `j` of head `bh` of the query array: an
    element of a block sits in the array, on each axis, at the block index times the block's size plus its own coordinate. -/
theorem iblk0_eq (c : Dev nD) (t : Fin (cfgT (F := F)).N) (bh : Fin 32) (j : Fin 2)
    (h0 : ((cfgT (F := F)).win 0).index t (0 : Fin 3) = bh.val)
    (h1 : ((cfgT (F := F)).win 0).index t (1 : Fin 3) = j.val)
    (h2 : ((cfgT (F := F)).win 0).index t (2 : Fin 3) = 0) :
    (iblk V c 0 t : Vec F S1x1024x128 .f32) = blkOf (V c main_v0 : Vec F S32x2048x128 .f32) bh j := by
  refine funext fun (y : S1x1024x128.Idx) => ?_
  show (V c main_v0 : Vec F S32x2048x128 .f32) ((((cfgT (F := F)).win 0).blk t).view.emb y)
    = (V c main_v0 : Vec F S32x2048x128 .f32) _
  refine congrArg _ ?_
  funext a
  apply Fin.ext
  match a with
  | ⟨0, _⟩ =>
    show ((cfgT (F := F)).win 0).index t (0 : Fin 3) * 1 + 1 * (y 0).val = bh.val
    have hy : (y 0).val < 1 := (y 0).isLt
    omega
  | ⟨1, _⟩ =>
    show ((cfgT (F := F)).win 0).index t (1 : Fin 3) * 1024 + 1 * (y 1).val = j.val * 1024 + (y 1).val
    omega
  | ⟨2, _⟩ =>
    show ((cfgT (F := F)).win 0).index t (2 : Fin 3) * 128 + 1 * (y 2).val = (y 2).val
    omega

/-- The same for the key window and the key array, -/
theorem iblk1_eq (c : Dev nD) (t : Fin (cfgT (F := F)).N) (bh : Fin 32) (j : Fin 2)
    (h0 : ((cfgT (F := F)).win 1).index t (0 : Fin 3) = bh.val)
    (h1 : ((cfgT (F := F)).win 1).index t (1 : Fin 3) = j.val)
    (h2 : ((cfgT (F := F)).win 1).index t (2 : Fin 3) = 0) :
    (iblk V c 1 t : Vec F S1x1024x128 .f32) = blkOf (V c main_v1 : Vec F S32x2048x128 .f32) bh j := by
  refine funext fun (y : S1x1024x128.Idx) => ?_
  show (V c main_v1 : Vec F S32x2048x128 .f32) ((((cfgT (F := F)).win 1).blk t).view.emb y)
    = (V c main_v1 : Vec F S32x2048x128 .f32) _
  refine congrArg _ ?_
  funext a
  apply Fin.ext
  match a with
  | ⟨0, _⟩ =>
    show ((cfgT (F := F)).win 1).index t (0 : Fin 3) * 1 + 1 * (y 0).val = bh.val
    have hy : (y 0).val < 1 := (y 0).isLt
    omega
  | ⟨1, _⟩ =>
    show ((cfgT (F := F)).win 1).index t (1 : Fin 3) * 1024 + 1 * (y 1).val = j.val * 1024 + (y 1).val
    omega
  | ⟨2, _⟩ =>
    show ((cfgT (F := F)).win 1).index t (2 : Fin 3) * 128 + 1 * (y 2).val = (y 2).val
    omega

/-- and for the value window and the value array. -/
theorem iblk2_eq (c : Dev nD) (t : Fin (cfgT (F := F)).N) (bh : Fin 32) (j : Fin 2)
    (h0 : ((cfgT (F := F)).win 2).index t (0 : Fin 3) = bh.val)
    (h1 : ((cfgT (F := F)).win 2).index t (1 : Fin 3) = j.val)
    (h2 : ((cfgT (F := F)).win 2).index t (2 : Fin 3) = 0) :
    (iblk V c 2 t : Vec F S1x1024x128 .f32) = blkOf (V c main_v2 : Vec F S32x2048x128 .f32) bh j := by
  refine funext fun (y : S1x1024x128.Idx) => ?_
  show (V c main_v2 : Vec F S32x2048x128 .f32) ((((cfgT (F := F)).win 2).blk t).view.emb y)
    = (V c main_v2 : Vec F S32x2048x128 .f32) _
  refine congrArg _ ?_
  funext a
  apply Fin.ext
  match a with
  | ⟨0, _⟩ =>
    show ((cfgT (F := F)).win 2).index t (0 : Fin 3) * 1 + 1 * (y 0).val = bh.val
    have hy : (y 0).val < 1 := (y 0).isLt
    omega
  | ⟨1, _⟩ =>
    show ((cfgT (F := F)).win 2).index t (1 : Fin 3) * 1024 + 1 * (y 1).val = j.val * 1024 + (y 1).val
    omega
  | ⟨2, _⟩ =>
    show ((cfgT (F := F)).win 2).index t (2 : Fin 3) * 128 + 1 * (y 2).val = (y 2).val
    omega

/-- The query block at a head's third point is the one at its second: both are block 1 of the head. -/
theorem iblk0_prev (c : Dev nD) (t : Fin (cfgT (F := F)).N) (h : t.val % 3 = 2) :
    iblk V c 0 (pt (t.val - 1)) = iblk V c 0 t := by
  have hN : t.val < 96 := Nat.lt_of_lt_of_eq t.isLt cfgT_N
  have hbh : t.val / 3 < 32 := by omega
  obtain ⟨⟨a0, a1, a2⟩, _⟩ := idx_facts (F := F) t
  obtain ⟨⟨p0, p1, p2⟩, _⟩ := idx_facts (F := F) (pt (t.val - 1))
  have hp : (pt (F := F) (t.val - 1)).val = (t.val - 1) % 96 := rfl
  exact (iblk0_eq V c (pt (t.val - 1)) ⟨t.val / 3, hbh⟩ 1 (by rw [p0, hp]; show _ = t.val / 3; omega)
      (by rw [p1, hp, if_neg (by omega)]; rfl) p2).trans
    (iblk0_eq V c t ⟨t.val / 3, hbh⟩ 1 (by rw [a0]) (by rw [a1, if_neg (by omega)]; rfl) a2).symm

/-! ## What a point writes back, the cover, the array -/

/-- WHAT POINT `t` WRITES BACK, when it writes back, is block `t` of `G3` of the three arrays as the region finds
    them: a head's first point writes rows below 1024 (`outA` of the blocks it read), its third point rows from 1024
    (`outC` of the blocks it read and of the key and value blocks the second point read, which are the head's first). -/
theorem flushed3_eq (c : Dev nD) (t : Fin (cfgT (F := F)).N) (hf : ((cfgT (F := F)).win 3).flush t = true) :
    (dat V c).flushed 3 t
      = (((cfgT (F := F)).win 3).blk t).view.read (Elt F)
          (G3 (V c main_v0 : Vec F S32x2048x128 .f32) (V c main_v1 : Vec F S32x2048x128 .f32)
            (V c main_v2 : Vec F S32x2048x128 .f32)) := by
  have hN : t.val < 96 := Nat.lt_of_lt_of_eq t.isLt cfgT_N
  obtain ⟨⟨a0, a1, a2⟩, ⟨b0, b1, b2⟩, ⟨c0, c1, c2⟩, ⟨d0, d1, d2⟩, hfl⟩ := idx_facts (F := F) t
  have hm : t.val % 3 ≠ 1 := hfl.mp hf
  have hbh : t.val / 3 < 32 := by omega
  refine funext fun (y : S1x1024x128.Idx) => ?_
  have hy0 : (y 0).val < 1 := (y 0).isLt
  have hy1 : (y 1).val < 1024 := (y 1).isLt
  show out3 V c t y
    = G3 (V c main_v0 : Vec F S32x2048x128 .f32) (V c main_v1 : Vec F S32x2048x128 .f32)
        (V c main_v2 : Vec F S32x2048x128 .f32) ((((cfgT (F := F)).win 3).blk t).view.emb y)
  unfold out3
  by_cases h : t.val % 3 = 2
  · -- the head's third point: rows from 1024
    obtain ⟨⟨_, _, _⟩, ⟨p0, p1, p2⟩, ⟨q0, q1, q2⟩, _, _⟩ := idx_facts (F := F) (pt (t.val - 1))
    have hp : (pt (F := F) (t.val - 1)).val = (t.val - 1) % 96 := rfl
    rw [if_pos h,
      G3_hi (V c main_v0 : Vec F S32x2048x128 .f32) (V c main_v1 : Vec F S32x2048x128 .f32)
        (V c main_v2 : Vec F S32x2048x128 .f32) ((((cfgT (F := F)).win 3).blk t).view.emb y) ⟨t.val / 3, hbh⟩ y
        (by show ((cfgT (F := F)).win 3).index t (0 : Fin 3) * 1 + 1 * (y 0).val = t.val / 3; rw [d0]; omega)
        (by show ((cfgT (F := F)).win 3).index t (1 : Fin 3) * 1024 + 1 * (y 1).val = 1024 + (y 1).val
            rw [d1, if_neg (by omega)]; omega)
        (by show ((cfgT (F := F)).win 3).index t (2 : Fin 3) * 128 + 1 * (y 2).val = (y 2).val; rw [d2]; omega),
      iblk0_eq V c t ⟨t.val / 3, hbh⟩ 1 (by rw [a0]) (by rw [a1, if_neg (by omega)]; rfl) a2,
      iblk1_eq V c t ⟨t.val / 3, hbh⟩ 1 (by rw [b0]) (by rw [b1, if_pos h]; rfl) b2,
      iblk2_eq V c t ⟨t.val / 3, hbh⟩ 1 (by rw [c0]) (by rw [c1, if_pos h]; rfl) c2,
      iblk1_eq V c (pt (t.val - 1)) ⟨t.val / 3, hbh⟩ 0 (by rw [p0, hp]; show _ = t.val / 3; omega)
        (by rw [p1, hp, if_neg (by omega)]; rfl) p2,
      iblk2_eq V c (pt (t.val - 1)) ⟨t.val / 3, hbh⟩ 0 (by rw [q0, hp]; show _ = t.val / 3; omega)
        (by rw [q1, hp, if_neg (by omega)]; rfl) q2]
  · -- the head's first point: rows below 1024
    have h3 : t.val % 3 = 0 := by omega
    rw [if_neg h,
      G3_lo (V c main_v0 : Vec F S32x2048x128 .f32) (V c main_v1 : Vec F S32x2048x128 .f32)
        (V c main_v2 : Vec F S32x2048x128 .f32) ((((cfgT (F := F)).win 3).blk t).view.emb y) ⟨t.val / 3, hbh⟩ y
        (by show ((cfgT (F := F)).win 3).index t (0 : Fin 3) * 1 + 1 * (y 0).val = t.val / 3; rw [d0]; omega)
        (by show ((cfgT (F := F)).win 3).index t (1 : Fin 3) * 1024 + 1 * (y 1).val = (y 1).val
            rw [d1, if_pos h3]; omega)
        (by show ((cfgT (F := F)).win 3).index t (2 : Fin 3) * 128 + 1 * (y 2).val = (y 2).val; rw [d2]; omega),
      iblk0_eq V c t ⟨t.val / 3, hbh⟩ 0 (by rw [a0]) (by rw [a1, if_pos h3]; rfl) a2,
      iblk1_eq V c t ⟨t.val / 3, hbh⟩ 0 (by rw [b0]) (by rw [b1, if_neg h]; rfl) b2,
      iblk2_eq V c t ⟨t.val / 3, hbh⟩ 0 (by rw [c0]) (by rw [c1, if_neg h]; rfl) c2]

/-- An index of the array is in point `t`'s output block iff each coordinate is in the block's range on its axis. -/
theorem mem_blk3 (t : Fin (cfgT (F := F)).N) (i : S32x2048x128.Idx) :
    i ∈ (((cfgT (F := F)).win 3).blk t).view.set
      ↔ ∀ a : Fin 3, ((cfgT (F := F)).win 3).index t a * S1x1024x128.size a ≤ (i a).val
          ∧ (i a).val < ((cfgT (F := F)).win 3).index t a * S1x1024x128.size a + S1x1024x128.size a := by
  show i ∈ ((View.whole main_v3).slice (((cfgT (F := F)).win 3).rect t)).set ↔ _
  refine Iff.trans (Eq.to_iff (congrArg (fun s => i ∈ s)
    (View.set_slice_whole main_v3 (((cfgT (F := F)).win 3).rect t)))) ?_
  exact Rect.mem_set_unit

/-- THE COVER: row `s` of head `bh` is in the block the head's first point writes back (`s < 1024`) or in the one its
    third point does. -/
theorem cover3 (i : S32x2048x128.Idx) :
    ∃ t : Fin (cfgT (F := F)).N, ((cfgT (F := F)).win 3).flush t = true ∧ i ∈ (((cfgT (F := F)).win 3).blk t).view.set := by
  have hi0 : (i 0).val < 32 := (i 0).isLt
  have hi1 : (i 1).val < 2048 := (i 1).isLt
  have hi2 : (i 2).val < 128 := (i 2).isLt
  obtain ⟨_, _, _, ⟨d0, d1, d2⟩, hfl⟩ :=
    idx_facts (F := F) (pt (3 * (i 0).val + (if (i 1).val < 1024 then 0 else 2)))
  have hp : (pt (F := F) (3 * (i 0).val + (if (i 1).val < 1024 then 0 else 2))).val
      = (3 * (i 0).val + (if (i 1).val < 1024 then 0 else 2)) % 96 := rfl
  refine ⟨pt (3 * (i 0).val + (if (i 1).val < 1024 then 0 else 2)), hfl.mpr ?_, ?_⟩
  · rw [hp]; split_ifs <;> omega
  · rw [mem_blk3]
    intro a
    match a with
    | ⟨0, _⟩ =>
      show ((cfgT (F := F)).win 3).index _ (0 : Fin 3) * 1 ≤ (i 0).val
        ∧ (i 0).val < ((cfgT (F := F)).win 3).index _ (0 : Fin 3) * 1 + 1
      rw [d0, hp]; split_ifs <;> omega
    | ⟨1, _⟩ =>
      show ((cfgT (F := F)).win 3).index _ (1 : Fin 3) * 1024 ≤ (i 1).val
        ∧ (i 1).val < ((cfgT (F := F)).win 3).index _ (1 : Fin 3) * 1024 + 1024
      rw [d1, hp]; split_ifs <;> omega
    | ⟨2, _⟩ =>
      show ((cfgT (F := F)).win 3).index _ (2 : Fin 3) * 128 ≤ (i 2).val
        ∧ (i 2).val < ((cfgT (F := F)).win 3).index _ (2 : Fin 3) * 128 + 128
      rw [d2]; omega

/-- THE OUTPUT ARRAY after the region is `G3` of the query, key and value arrays as the region finds them. -/
theorem final3 (c : Dev nD) :
    (dat V c).arrAt 3 (cfgT (F := F)).N
      = G3 (V c main_v0 : Vec F S32x2048x128 .f32) (V c main_v1 : Vec F S32x2048x128 .f32)
          (V c main_v2 : Vec F S32x2048x128 .f32) :=
  (dat V c).arrAt_eq_of_cover 3 _ (fun t hf => flushed3_eq V c t hf) (fun i => cover3 i)

end Arrays

end Cert.KernelIdeal.Hand

end
-- ==== Proof.Body.lean ====
/-
  The body obligation of the pipeline at the literal tables: at every grid point the body, called on the windows'
  current staging buffers, the tables and the scratch, keeps the invariant and leaves each window's buffer at what the
  proof data names. Point t is step t % 3 of head t / 3; the tables give the steps the block pairs (0,0), (1,0), (1,1), which
  decide the body's three branches: step 0 resets and does the masked update and the output; step 1 resets and does the
  plain update, leaving the output buffer alone; step 2 does the masked update from the state step 1 left, and the output.
-/
import proofs.«141465_j40630390620348_2_alg».proof.Proof.BodyRuns
import proofs.«141465_j40630390620348_2_alg».proof.Proof.Blocks

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F] [Named F]

local notation "𝕄" => MT nD τ sig Unit (Elt F) ℕ (UR sig nD τ) ℕ

/-! ## The table words of a step -/

/-- The table position the body reads at point `t` is its step, `t % 3`. -/
theorem step_idx : ∀ t : Fin grid0.N,
    (S3.rowMajor ((Rect.unit (s := S3) (k0_off1 (grid0.coords t)) S1.size (Facts₀.k0_off1_inb (grid0.coords t))).idx
      (Shape.Idx.first (Facts₀.numel1_S1.symm ▸ Nat.one_pos)))).val = t.val % 3 := by decide

/-- The word the body loads from a table whose entries are the literals `lit`: the literal at the step. -/
theorem wordOf_lit (t : Fin grid0.N) (a : Memref sig .tc .smem S3 .i32) (ha : a.IsWhole) (T : Vec F S3 .i32)
    (lit : Fin 3 → BitVec 32) (hT : ∀ x, T x = lit (S3.rowMajor x)) :
    wordOf (F := F) (grid0.coords t) a ha T = lit ⟨t.val % 3, Nat.mod_lt _ (by decide)⟩ := by
  unfold wordOf
  rw [View.readAt_eq_ld, ha.read_unread]
  exact (hT _).trans (congrArg lit (Fin.ext (step_idx t)))

/-- The two tables at the types the body's table buffers have. -/
abbrev tb0 : Vec F S3 .i32 := fun x => lit0 (S3.rowMajor x)
abbrev tb1 : Vec F S3 .i32 := fun x => lit1 (S3.rowMajor x)

theorem fin3_eq {n : Nat} (h3 : n % 3 < 3) {j : Nat} (hj : j < 3) (h : n % 3 = j) : (⟨n % 3, h3⟩ : Fin 3) = ⟨j, hj⟩ := Fin.ext h

/-- Step 0: blocks (0, 0). -/
theorem words0 (t : Fin grid0.N) (h : t.val % 3 = 0) (a2 : Memref sig .tc .smem S3 .i32) (h2 : a2.IsWhole) (a3 : Memref sig .tc .smem S3 .i32) (h3 : a3.IsWhole) :
    wordOf (F := F) (grid0.coords t) a2 h2 tb0 = 0#32 ∧ wordOf (F := F) (grid0.coords t) a3 h3 tb1 = 0#32 := by
  rw [wordOf_lit t a2 h2 tb0 lit0 (fun _ => rfl), wordOf_lit t a3 h3 tb1 lit1 (fun _ => rfl), fin3_eq _ (by decide : 0 < 3) h]; exact ⟨rfl, rfl⟩
/-- Step 1: blocks (1, 0). -/
theorem words1 (t : Fin grid0.N) (h : t.val % 3 = 1) (a2 : Memref sig .tc .smem S3 .i32) (h2 : a2.IsWhole) (a3 : Memref sig .tc .smem S3 .i32) (h3 : a3.IsWhole) :
    wordOf (F := F) (grid0.coords t) a2 h2 tb0 = 1#32 ∧ wordOf (F := F) (grid0.coords t) a3 h3 tb1 = 0#32 := by
  rw [wordOf_lit t a2 h2 tb0 lit0 (fun _ => rfl), wordOf_lit t a3 h3 tb1 lit1 (fun _ => rfl), fin3_eq _ (by decide : 1 < 3) h]; exact ⟨rfl, rfl⟩
/-- Step 2: blocks (1, 1). -/
theorem words2 (t : Fin grid0.N) (h : t.val % 3 = 2) (a2 : Memref sig .tc .smem S3 .i32) (h2 : a2.IsWhole) (a3 : Memref sig .tc .smem S3 .i32) (h3 : a3.IsWhole) :
    wordOf (F := F) (grid0.coords t) a2 h2 tb0 = 1#32 ∧ wordOf (F := F) (grid0.coords t) a3 h3 tb1 = 1#32 := by
  rw [wordOf_lit t a2 h2 tb0 lit0 (fun _ => rfl), wordOf_lit t a3 h3 tb1 lit1 (fun _ => rfl), fin3_eq _ (by decide : 2 < 3) h]; exact ⟨rfl, rfl⟩

/-- The branch conditions at the three block pairs. -/
theorem cond_00 : condInit 0#32 ∧ ¬ condOff 0#32 0#32 ∧ condDiag 0#32 0#32 := by decide
theorem cond_10 : condInit 0#32 ∧ condOff 1#32 0#32 ∧ ¬ condDiag 1#32 0#32 := by decide
theorem cond_11 : ¬ condInit 1#32 ∧ ¬ condOff 1#32 1#32 ∧ condDiag 1#32 1#32 := by decide

/-- The tables as the invariant holds them are the two table buffers the body is called with. -/
theorem tables_eq (c : Dev nD) :
    (Pipeline.prefHeld pre0 c (fun _ => fullShare) (tbl (F := F)) : sProp 𝕄)
      = iprop(owns (c : Thread nD τ) (Memref.whole main_c) fullShare (tb0 (F := F))
          ∗ owns (c : Thread nD τ) (Memref.whole main_c_0) fullShare (tb1 (F := F))) :=
  (bigSep_univ_eq_bigSepL [(0 : Fin 2), (1 : Fin 2)] (by decide) (by decide) _).trans
    (congrArg₂ (fun a b : sProp 𝕄 => iprop(a ∗ b))
      (owns_whole (c : Thread nD τ) (pre0.ref 0) fullShare (tbl (F := F) 0)).symm
      (owns_whole (c : Thread nD τ) (pre0.ref 1) fullShare (tbl (F := F) 1)).symm)

section Body

variable (V : (c : Dev nD) → (b : Ref sig .tc) → Buf (Elt F) ((c : Thread nD τ).loc b))

theorem A_eq (c : Dev nD) (w : Fin (cfgT (F := F)).W) : (dat V c).A w = V c (Pipeline.arrRef spec0 w) := rfl
theorem after_0 (c : Dev nD) (t : Fin (cfgT (F := F)).N) : (dat V c).after 0 t = iblk V c 0 t := by dsimp only [dat]; rfl
theorem after_1 (c : Dev nD) (t : Fin (cfgT (F := F)).N) : (dat V c).after 1 t = iblk V c 1 t := by dsimp only [dat]; rfl
theorem after_2 (c : Dev nD) (t : Fin (cfgT (F := F)).N) : (dat V c).after 2 t = iblk V c 2 t := by dsimp only [dat]; rfl
theorem after_3 (c : Dev nD) (t : Fin (cfgT (F := F)).N) : (dat V c).after 3 t = out3 V c t := by dsimp only [dat]; rfl

/-- Each input window's current staging buffer holds its block at every point, fetched there or not. -/
theorem before_0 (c : Dev nD) (t : Fin (cfgT (F := F)).N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cfgT (F := F)).N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin (cfgT (F := F)).N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-- Each window's current staging buffer at point `t`. -/
abbrev st (w : Fin (cfgT (F := F)).W) (t : Fin (cfgT (F := F)).N) := ((cfgT (F := F)).win w).stage ((cfgT (F := F)).slots t w)

/-- The body at point `t`, on what the pipeline calls it with. -/
abbrev bodyAt (t : Fin (cfgT (F := F)).N) : Prog (TpuEff nD τ sig (Elt F) Λ₀ .tc) PUnit :=
  cc0__flash_causal_kernel (grid0.coords t) (Memref.whole main_c) (Memref.isWhole_whole _) (Memref.whole main_c_0) (Memref.isWhole_whole _)
    (spec0_0.stage ((cfgT (F := F)).slots t 0)) (Facts₀.hstage0_0 (((cfgT (F := F)).slots t 0).cast Facts₀.nbuf0_0))
    (spec0_1.stage ((cfgT (F := F)).slots t 1)) (Facts₀.hstage0_1 (((cfgT (F := F)).slots t 1).cast Facts₀.nbuf0_1))
    (spec0_2.stage ((cfgT (F := F)).slots t 2)) (Facts₀.hstage0_2 (((cfgT (F := F)).slots t 2).cast Facts₀.nbuf0_2))
    (spec0_3.stage ((cfgT (F := F)).slots t 3)) (Facts₀.hstage0_3 (((cfgT (F := F)).slots t 3).cast Facts₀.nbuf0_3))
    (Memref.whole cc0_scratch0) (Memref.isWhole_whole _) (Memref.whole cc0_scratch1) (Memref.isWhole_whole _) (Memref.whole cc0_scratch2) (Memref.isWhole_whole _)

/-- What the body is called with at point `t`, -/
def bodyPre (c : Dev nD) (t : Fin (cfgT (F := F)).N) : sProp 𝕄 :=
  iprop((dat V c).Φ t.castSucc ∗ (dat V c).owesAt () t.castSucc
    ∗ (∃ d, owns (c : Thread nD τ) (st 0 t) fullShare ((dat V c).before 0 t d))
    ∗ (∃ d, owns (c : Thread nD τ) (st 1 t) fullShare ((dat V c).before 1 t d))
    ∗ (∃ d, owns (c : Thread nD τ) (st 2 t) fullShare ((dat V c).before 2 t d))
    ∗ (∃ d, owns (c : Thread nD τ) (st 3 t) fullShare ((dat V c).before 3 t d)))

/-- and what it returns. -/
def bodyPost (c : Dev nD) (t : Fin (cfgT (F := F)).N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

theorem leaves_0 (c : Dev nD) (t : Fin (cfgT (F := F)).N) :
    (dat V c).leavesExact 0 t = owns (c : Thread nD τ) (st 0 t) fullShare (iblk V c 0 t) := by
  unfold Dat.leavesExact; rw [show (cfgT (F := F)).idle 0 ((cfgT (F := F)).grid.coords t) = false from rfl, after_0]
theorem leaves_1 (c : Dev nD) (t : Fin (cfgT (F := F)).N) :
    (dat V c).leavesExact 1 t = owns (c : Thread nD τ) (st 1 t) fullShare (iblk V c 1 t) := by
  unfold Dat.leavesExact; rw [show (cfgT (F := F)).idle 1 ((cfgT (F := F)).grid.coords t) = false from rfl, after_1]
theorem leaves_2 (c : Dev nD) (t : Fin (cfgT (F := F)).N) :
    (dat V c).leavesExact 2 t = owns (c : Thread nD τ) (st 2 t) fullShare (iblk V c 2 t) := by
  unfold Dat.leavesExact; rw [show (cfgT (F := F)).idle 2 ((cfgT (F := F)).grid.coords t) = false from rfl, after_2]
/-- The output window at a step that stores it: the buffer at the proof data's value. -/
theorem leaves_3_live (c : Dev nD) (t : Fin (cfgT (F := F)).N) (h : t.val % 3 ≠ 1) :
    (dat V c).leavesExact 3 t = owns (c : Thread nD τ) (st 3 t) fullShare (out3 V c t) := by
  unfold Dat.leavesExact; rw [idle3_eq t, decide_eq_false h, after_3]
/-- The output window at the step that leaves it alone (and does not write it back): the buffer as found. -/
theorem leaves_3_idle (c : Dev nD) (t : Fin (cfgT (F := F)).N) (h : t.val % 3 = 1) :
    (dat V c).leavesExact 3 t = iprop(∃ d, owns (c : Thread nD τ) (st 3 t) fullShare ((dat V c).before 3 t d)) :=
  (dat V c).leavesExact_idle 3 t (by rw [idle3_eq t, decide_eq_true h]) (flush3_false t h)

theorem pt_val (t : Fin (cfgT (F := F)).N) : pt (F := F) t.val = t :=
  Fin.ext (Nat.mod_eq_of_lt (lt_of_lt_of_eq t.isLt cfgT_N))

theorem out3_first (c : Dev nD) (t : Fin (cfgT (F := F)).N) (h : t.val % 3 ≠ 2) :
    out3 V c t = outA (iblk V c 0 t) (iblk V c 1 t) (iblk V c 2 t) := by unfold out3; rw [if_neg h]
theorem out3_third (c : Dev nD) (t : Fin (cfgT (F := F)).N) (h : t.val % 3 = 2) :
    out3 V c t = outC (iblk V c 0 t) (iblk V c 1 (pt (t.val - 1))) (iblk V c 2 (pt (t.val - 1))) (iblk V c 1 t) (iblk V c 2 t) := by
  unfold out3; rw [if_pos h]

set_option maxHeartbeats 1000000 in
/-- The body at any point, by its step. -/
theorem sound_body (c : Dev nD) (t : Fin (cfgT (F := F)).N) :
    bodyPre V c t ⊢ wp frame (wpE (defs₀ (F := F)) Variants.none c none) Set.univ (bodyAt (F := F) t) (fun _ => bodyPost V c t) := by
  unfold bodyPre bodyPost bodyAt
  simp only [before_0, before_1, before_2]
  rw [show (dat V c).owesAt () t.succ = (dat V c).owesAt () t.castSucc from rfl,
    show (dat V c).Φ t.succ = Φs V c t.succ from rfl, show (dat V c).Φ t.castSucc = Φs V c t.castSucc from rfl,
    leaves_0, leaves_1, leaves_2]
  unfold Φs
  rw [tables_eq]
  have hlt := Nat.mod_lt t.val (by decide : 0 < 3)
  rcases (by omega : t.val % 3 = 0 ∨ t.val % 3 = 1 ∨ t.val % 3 = 2) with h | h | h
  · obtain ⟨hw1, hw3⟩ := words0 (F := F) t h (Memref.whole main_c) (Memref.isWhole_whole _) (Memref.whole main_c_0) (Memref.isWhole_whole _)
    rw [leaves_3_live V c t (by omega), out3_first V c t (by omega)]
    iintro ⟨⟨⟨Ht0, Ht1⟩, Hg, ⟨%s, H8, H9, H10, -⟩⟩, Ho, ⟨%d0, H0⟩, ⟨%d1, H1⟩, ⟨%d2, H2⟩, ⟨%d3, H3⟩⟩
    iapply (run_A (F := F) c Set.univ (grid0.coords t) _ _ _ _ _ _ _ _ _ _ _ _ _ _ _ _ _ _ tb0 tb1 fullShare (iblk V c 0 t) (iblk V c 1 t) (iblk V c 2 t) 0#32 0#32 hw1 hw3 cond_00.1 cond_00.2.1 cond_00.2.2 _)
    isplitl [Ht0]; · iexact Ht0
    isplitl [Ht1]; · iexact Ht1
    isplitl [H0]; · iexact H0
    isplitl [H1]; · iexact H1
    isplitl [H2]; · iexact H2
    isplitl [H3]; · iexists _; iexact H3
    isplitl [H8]; · iexists _; iexact H8
    isplitl [H9]; · iexists _; iexact H9
    isplitl [H10]; · iexists _; iexact H10
    iintro ⟨Ht0, Ht1, H0, H1, H2, H3, H8, H9, H10⟩
    isplitl [Ht0 Ht1 Hg H8 H9 H10]
    · isplitl [Ht0 Ht1]
      · isplitl [Ht0]; · iexact Ht0
        iexact Ht1
      isplitl [Hg]; · iexact Hg
      iexists _
      isplitl [H8]; · iexact H8
      isplitl [H9]; · iexact H9
      isplitl [H10]; · iexact H10
      ipureintro
      intro h'; exfalso; rw [Fin.val_succ] at h'; omega
    isplitl [Ho]; · iexact Ho
    isplitl [H0]; · iexact H0
    isplitl [H1]; · iexact H1
    isplitl [H2]; · iexact H2
    iexact H3
  · obtain ⟨hw1, hw3⟩ := words1 (F := F) t h (Memref.whole main_c) (Memref.isWhole_whole _) (Memref.whole main_c_0) (Memref.isWhole_whole _)
    rw [leaves_3_idle V c t h]
    iintro ⟨⟨⟨Ht0, Ht1⟩, Hg, ⟨%s, H8, H9, H10, -⟩⟩, Ho, ⟨%d0, H0⟩, ⟨%d1, H1⟩, ⟨%d2, H2⟩, ⟨%d3, H3⟩⟩
    iapply (run_B (F := F) c Set.univ (grid0.coords t) _ _ _ _ _ _ _ _ _ _ _ _ _ _ _ _ _ _ tb0 tb1 fullShare (iblk V c 0 t) (iblk V c 1 t) (iblk V c 2 t) ((dat V c).before 3 t d3) 1#32 0#32 hw1 hw3 cond_10.1 cond_10.2.1 cond_10.2.2 _)
    isplitl [Ht0]; · iexact Ht0
    isplitl [Ht1]; · iexact Ht1
    isplitl [H0]; · iexact H0
    isplitl [H1]; · iexact H1
    isplitl [H2]; · iexact H2
    isplitl [H3]; · iexact H3
    isplitl [H8]; · iexists _; iexact H8
    isplitl [H9]; · iexists _; iexact H9
    isplitl [H10]; · iexists _; iexact H10
    iintro ⟨Ht0, Ht1, H0, H1, H2, H3, H8, H9, H10⟩
    isplitl [Ht0 Ht1 Hg H8 H9 H10]
    · isplitl [Ht0 Ht1]
      · isplitl [Ht0]; · iexact Ht0
        iexact Ht1
      isplitl [Hg]; · iexact Hg
      iexists _
      isplitl [H8]; · iexact H8
      isplitl [H9]; · iexact H9
      isplitl [H10]; · iexact H10
      ipureintro
      intro _; rw [Fin.val_succ, Nat.add_sub_cancel, pt_val]
    isplitl [Ho]; · iexact Ho
    isplitl [H0]; · iexact H0
    isplitl [H1]; · iexact H1
    isplitl [H2]; · iexact H2
    iexists _; iexact H3
  · obtain ⟨hw1, hw3⟩ := words2 (F := F) t h (Memref.whole main_c) (Memref.isWhole_whole _) (Memref.whole main_c_0) (Memref.isWhole_whole _)
    rw [leaves_3_live V c t (by omega), out3_third V c t h]
    iintro ⟨⟨⟨Ht0, Ht1⟩, Hg, ⟨%s, H8, H9, H10, %hs⟩⟩, Ho, ⟨%d0, H0⟩, ⟨%d1, H1⟩, ⟨%d2, H2⟩, ⟨%d3, H3⟩⟩
    have hs' := hs (by rw [Fin.coe_castSucc]; exact h)
    rw [Fin.coe_castSucc, iblk0_prev V c t h] at hs'
    subst hs'
    iapply (run_C (F := F) c Set.univ (grid0.coords t) _ _ _ _ _ _ _ _ _ _ _ _ _ _ _ _ _ _ tb0 tb1 fullShare (iblk V c 0 t) (iblk V c 1 t) (iblk V c 2 t) _ 1#32 1#32 hw1 hw3 cond_11.1 cond_11.2.1 cond_11.2.2 _)
    isplitl [Ht0]; · iexact Ht0
    isplitl [Ht1]; · iexact Ht1
    isplitl [H0]; · iexact H0
    isplitl [H1]; · iexact H1
    isplitl [H2]; · iexact H2
    isplitl [H3]; · iexists _; iexact H3
    isplitl [H8]; · iexact H8
    isplitl [H9]; · iexact H9
    isplitl [H10]; · iexact H10
    iintro ⟨Ht0, Ht1, H0, H1, H2, H3, H8, H9, H10⟩
    isplitl [Ht0 Ht1 Hg H8 H9 H10]
    · isplitl [Ht0 Ht1]
      · isplitl [Ht0]; · iexact Ht0
        iexact Ht1
      isplitl [Hg]; · iexact Hg
      iexists _
      isplitl [H8]; · iexact H8
      isplitl [H9]; · iexact H9
      isplitl [H10]; · iexact H10
      ipureintro
      intro h'; exfalso; rw [Fin.val_succ] at h'; omega
    isplitl [Ho]; · iexact Ho
    isplitl [H0]; · iexact H0
    isplitl [H1]; · iexact H1
    isplitl [H2]; · iexact H2
    iexact H3

/-- The library's body obligation, at every point. -/
theorem body_obligation (c : Dev nD) : BodyObligation (dat (F := F) V c) (defs₀ (F := F)) Variants.none () Set.univ := fun t => by
  rw [bigSep_W0, bigSep_W0]
  exact sound_body V c t

end Body

end Cert.KernelIdeal.Hand

end
-- ==== Proof.KSteps.lean ====
/-
  For the program as printed: the same text as for the idealized program, over the printed program's names.
  The body's three branches as transitions of its scratch state, over the payload names of the generated skeleton:
  the reset (`scrInit`), the update by a block of keys wholly before the query block (`offStep`), the update by the
  query block's own keys under the causal mask (`diagStep`), and the output block computed from the state (`outOf`).
  With the literal (query block, key block) tables the grid meets three cases per head: reset and masked update
  (`outA`), reset and plain update (`scrB`), masked update from the state the plain update left (`outC`).
-/
import proofs.«141465_j40630390620348_2_alg».proof.Proof.Gen.Kernel.Skeleton

noncomputable section

namespace Cert.Kernel.Hand

open Idealize.ShloMosaic Idealize.SL.Sem
open Cert.Kernel Cert.Kernel.Gen

variable {F : FTy → Type} [FloatOps F]

/-- The scratch state: the running maximum and sum per query row, the running weighted sum per row and feature. -/
structure Scr (F : FTy → Type) where
  m : Vec F S1024x1 .f32
  l : Vec F S1024x1 .f32
  acc : Vec F S1024x128 .f32

/-- The reset: maxima `-∞`, sums zero. -/
def scrInit : Scr F := ⟨k0_pay1, k0_pay2, k0_pay3⟩

/-- A block of keys wholly before the query block: no mask. -/
def offStep (q k v : Vec F S1x1024x128 .f32) (s : Scr F) : Scr F :=
  ⟨k0_pay5 (k0_pay10 q k s.m), k0_pay13 q k s.m s.l, k0_pay4 (k0_pay14 q k s.m s.acc v)⟩

/-- The query block's own keys, masked to the keys at or before each query (`w1`, `w3` the block numbers the
    positions are computed from). -/
def diagStep (w1 w3 : Elt F .i32) (q k v : Vec F S1x1024x128 .f32) (s : Scr F) : Scr F :=
  ⟨k0_pay7 (k0_pay16 w1 w3 q k s.m), k0_pay19 w1 w3 q k s.m s.l,
    k0_pay6 (k0_pay17 w1 w3 q k s.m) (k0_pay18 w1 w3 q k s.m) s.acc v⟩

/-- The output block: the weighted sums over the sums. -/
def outOf (s : Scr F) : Vec F S1x1024x128 .f32 := k0_pay8 s.acc s.l

/-- Query block 0 (its only key block is its own). -/
def outA (q k v : Vec F S1x1024x128 .f32) : Vec F S1x1024x128 .f32 := outOf (diagStep 0#32 0#32 q k v scrInit)
/-- Query block 1 against key block 0: the state it leaves. -/
def scrB (q k v : Vec F S1x1024x128 .f32) : Scr F := offStep q k v scrInit
/-- Query block 1 against its own keys, from the state key block 0 (`k0`, `v0`) left. -/
def outC (q k0 v0 k1 v1 : Vec F S1x1024x128 .f32) : Vec F S1x1024x128 .f32 :=
  outOf (diagStep 1#32 1#32 q k1 v1 (scrB q k0 v0))

end Cert.Kernel.Hand

end
-- ==== Proof.KData.lean ====
/-
  For the program as printed: the same text as for the idealized program, over the printed program's names.
  The proof data of the one pipeline: the literal (query block, key block) tables the host writes, the pipeline at
  them, each window's block at a grid point, what each window's staging buffer holds after the body at each point,
  and the invariant the body keeps between points — the tables held, the generator register at some state, and the
  three scratch buffers at some state which, before the third point of each head, is the state the second point's
  plain update left.
-/
import proofs.«141465_j40630390620348_2_alg».proof.Proof.Gen.Kernel.Launch
import proofs.«141465_j40630390620348_2_alg».proof.Proof.KSteps
import Idealize.ShloMosaic.Lib.Pipeline.FrameBody
import Idealize.ShloMosaic.Lib.Pipeline.Regions
import Idealize.ShloMosaic.PureOps.Ideal

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (UR sig nD τ) ℕ

/-! ## The tables -/

/-- The two tables as the host's constants write them: the query block and the key block of each of the three
    steps of a head, (0,0), (1,0), (1,1). -/
def tbl : pre0.Contents (Elt F) := fun
  | ⟨0, _⟩ => fun i => lit0 (S3.rowMajor i)
  | ⟨1, _⟩ => fun i => lit1 (S3.rowMajor i)
  | ⟨_ + 2, h⟩ => absurd h (Nat.not_lt.2 (Nat.le_add_left _ _))

/-- Every block the tables name lies inside its array: decided at one instance (the tables hold integer words, the
    same at every instance), -/
theorem ok_tbl_at : ok0 (F := Ideal) tbl := by decide
/-- hence at any. -/
theorem ok_tbl : ok0 (F := F) tbl := ok_tbl_at

/-- The tables as admissible contents of the pipeline's tables. -/
def adm : (p : Fin 1) → (pcfgs (F := F) p).Adm := fun _ => ⟨tbl, ok_tbl⟩

/-- The pipeline at the literal tables. -/
abbrev cfgT : Pipeline.Cfg sig Λ₀ := Pipeline.pin (pcfgs (F := F)) adm 0

theorem cfgT_N : (cfgT (F := F)).N = 96 := N_0

/-- Point number `n` (read modulo the grid's 96 points). -/
def pt (n : Nat) : Fin (cfgT (F := F)).N := ⟨n % 96, by rw [cfgT_N]; exact Nat.mod_lt _ (by decide)⟩

section Blocks

variable (V : (c : Dev nD) → (b : Ref sig .tc) → Buf (Elt F) ((c : Thread nD τ).loc b))

/-- Window `w`'s block at point `t`, read off its array as the region finds it. -/
def iblk (c : Dev nD) (w : Fin (cfgT (F := F)).W) (t : Fin (cfgT (F := F)).N) :
    (((cfgT (F := F)).win w).xblock ((cfgT (F := F)).grid.coords t)).Idx → Elt F ((cfgT (F := F)).win w).elt :=
  (((cfgT (F := F)).win w).blk t).view.read (Elt F) (V c (Pipeline.arrRef spec0 w))

/-- The output window's buffer after the body at point `t`: at the third point of a head the masked update from the
    state the second point left, else (the first point; the second stores nothing there) the reset and masked update. -/
def out3 (c : Dev nD) (t : Fin (cfgT (F := F)).N) : Vec F S1x1024x128 .f32 :=
  if t.val % 3 = 2 then
    outC (iblk V c 0 t) (iblk V c 1 (pt (t.val - 1))) (iblk V c 2 (pt (t.val - 1))) (iblk V c 1 t) (iblk V c 2 t)
  else outA (iblk V c 0 t) (iblk V c 1 t) (iblk V c 2 t)

/-- The invariant before point `t`. -/
def Φs (c : Dev nD) (t : Fin ((cfgT (F := F)).N + 1)) : sProp 𝕄 :=
  iprop(Pipeline.prefHeld pre0 c (fun _ => fullShare) (tbl (F := F)) ∗ (∃ r, prngReg c r)
    ∗ ∃ s : Scr F,
        owns (c : Thread nD τ) (Memref.whole cc0_scratch0) fullShare s.m
        ∗ owns (c : Thread nD τ) (Memref.whole cc0_scratch1) fullShare s.l
        ∗ owns (c : Thread nD τ) (Memref.whole cc0_scratch2) fullShare s.acc
        ∗ ⌜t.val % 3 = 2 → s = scrB (iblk V c 0 (pt (t.val - 1))) (iblk V c 1 (pt (t.val - 1))) (iblk V c 2 (pt (t.val - 1)))⌝)

/-- The proof data on core `c`: the arrays as the region finds them; after the body each input's buffer at its
    block and the output's at `out3`; the invariant `Φs`; full shares; nothing owed. -/
def dat (c : Dev nD) : Dat τ (Elt F) Unit ℕ (UR sig nD τ) ℕ (cfgT (F := F)) c where
  A w := V c (Pipeline.arrRef spec0 w)
  after w t := match w with
    | ⟨0, _⟩ => iblk V c 0 t
    | ⟨1, _⟩ => iblk V c 1 t
    | ⟨2, _⟩ => iblk V c 2 t
    | ⟨3, _⟩ => out3 V c t
  Φ t := Φs V c t
  q _ := fullShare
  owed _ := 0

end Blocks

end Cert.Kernel.Hand

end
-- ==== Proof.KBodyRuns.lean ====
/-
  For the program as printed: the same text as for the idealized program, over the printed program's names.
  The kernel body run once per control case. The body branches three times on the two table words of its step — the key
  block number `w3` and the query block number `w1`: reset the scratch when `w3 = 0`; update it by a key block wholly
  before the query block when `w3 < w1`; update it under the causal mask and write the output block when `w3 = w1`. With
  each condition decided the body is a straight line of whole-buffer loads and stores; what each buffer ends with is the last
  value stored into it, a composition of the skeleton's payloads named in the transitions of the scratch state.
-/
import proofs.«141465_j40630390620348_2_alg».proof.Proof.KData
import Idealize.ShloMosaic.Lib.Ring
import Idealize.ShloMosaic.Lib.Pipeline.Value
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (UR sig nD τ) ℕ

/-- The word the body loads from a table at the point's step. -/
abbrev wordOf (i : grid0.Coords) (a : Memref sig .tc .smem S3 .i32) (ha : a.IsWhole) (T : Vec F S3 .i32) : Elt F .i32 :=
  a.view.readAt (Elt F) (Rect.unit (s := S3) (k0_off1 i) S1.size (Facts₀.k0_off1_inb i)).toLoadRect (ha.unread T) (Shape.Idx.first (Facts₀.numel1_S1.symm ▸ Nat.one_pos))

/-- The three branch conditions, of the key block number `w3` and the query block number `w1`: the key block is the first;
    it is before the query block; it is the query block. -/
abbrev condInit (w3 : BitVec 32) : Prop := (Scalar.cmpi .ne (Scalar.extui (Scalar.cmpi .eq w3 0#32)) 0#32) = 1#1
abbrev condOff (w1 w3 : BitVec 32) : Prop := (Scalar.cmpi .ne (Scalar.extui (Scalar.cmpi .slt w3 w1)) 0#32) = 1#1
abbrev condDiag (w1 w3 : BitVec 32) : Prop := k0_cond3 w1 w3 = 1#1

theorem hz2 : (![0, 0] : Fin 2 → Nat) = fun _ => 0 := by funext a; fin_cases a <;> rfl
theorem hz3 : (![0, 0, 0] : Fin 3 → Nat) = fun _ => 0 := by funext a; fin_cases a <;> rfl

/-- After a list of stores whose LAST one covers the whole buffer, the buffer holds that store's value. -/
theorem read_head_whole {sg : RefSig} {κ : Kind} {sp : Space} {S : Shape} {e : EltTy} {Val : EltTy → Type} [∀ e, Nonempty (Val e)]
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.Mem.head _, View.mem_set_unit_zero h inb y⟩), View.canon_cons_unit_zero h]

/-- A load of a whole buffer held at known contents reads those contents. -/
theorem readAt_whole {sg : RefSig} {κ : Kind} {sp : Space} {S : Shape} {e : EltTy} {Val : EltTy → Type}
    (a : Memref sg κ sp S e) (ha : a.IsWhole) {off : Fin S.rank → Nat} (h : off = fun _ => 0)
    (inb : ∀ a, off a + S.size a ≤ S.size a) (X : S.Idx → Val e) :
    a.view.readAt Val (Rect.unit off S.size inb).toLoadRect (ha.unread X) = X := by
  rw [View.readAt_eq_ld, ha.read_unread, View.ld_unit_zero h]

/-- A load of a whole buffer after stores whose LAST one covered it reads that store's value. -/
theorem readCov_head_whole {sg : RefSig} {κ : Kind} {sp : Space} {S : Shape} {e : EltTy} {Val : EltTy → Type} [∀ e, Nonempty (Val e)]
    (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld v _ _ (fun y => ⟨_, List.Mem.head _, View.mem_set_unit_zero h inb y⟩), View.canon_cons_unit_zero h, View.ld_unit_zero h]

set_option maxHeartbeats 1000000 in
/-- The first step of a head (key block = query block = the first): the reset, then the masked update, then the output
    block. From any scratch and output contents the body ends with the scratch at the updated state and the output buffer at
    the state's quotient; the tables and the input blocks are left as found. -/
theorem run_A (c : Dev nD) (E : Set ℕ) (i : grid0.Coords) (arg2 : Memref sig .tc .smem S3 .i32) (harg2 : arg2.IsWhole) (arg3 : Memref sig .tc .smem S3 .i32) (harg3 : arg3.IsWhole)
    (arg4 : Memref sig .tc .vmem S1x1024x128 .f32) (harg4 : arg4.IsWhole) (arg5 : Memref sig .tc .vmem S1x1024x128 .f32) (harg5 : arg5.IsWhole)
    (arg6 : Memref sig .tc .vmem S1x1024x128 .f32) (harg6 : arg6.IsWhole) (arg7 : Memref sig .tc .vmem S1x1024x128 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x128 .f32) (harg10 : arg10.IsWhole)
    (T0 T1 : Vec F S3 .i32) (sh : PosShare TreeShare)
    (q k v : Vec F S1x1024x128 .f32)
    (w1 w3 : BitVec 32) (hw1 : wordOf i arg2 harg2 T0 = w1) (hw3 : wordOf i arg3 harg3 T1 = w3)
    (hc1 : condInit w3) (hc2 : ¬ condOff w1 w3) (hc3 : condDiag w1 w3)
    (K : PUnit → sProp 𝕄) :
    iprop(owns (c : Thread nD τ) arg2 sh T0 ∗ owns (c : Thread nD τ) arg3 sh T1
        ∗ owns (c : Thread nD τ) arg4 fullShare q ∗ owns (c : Thread nD τ) arg5 fullShare k ∗ owns (c : Thread nD τ) arg6 fullShare v
        ∗ (∃ d, owns (c : Thread nD τ) arg7 fullShare d)
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 sh T0 ∗ owns (c : Thread nD τ) arg3 sh T1
            ∗ owns (c : Thread nD τ) arg4 fullShare q ∗ owns (c : Thread nD τ) arg5 fullShare k ∗ owns (c : Thread nD τ) arg6 fullShare v
            ∗ owns (c : Thread nD τ) arg7 fullShare (outOf (diagStep w1 w3 q k v scrInit))
            ∗ owns (c : Thread nD τ) arg8 fullShare (diagStep w1 w3 q k v scrInit).m ∗ owns (c : Thread nD τ) arg9 fullShare (diagStep w1 w3 q k v scrInit).l ∗ owns (c : Thread nD τ) arg10 fullShare (diagStep w1 w3 q k v scrInit).acc) -∗ K ⟨⟩))
      ⊢ wp frame (wpE (defs₀ (F := F)) Variants.none c none) E (cc0__flash_causal_kernel i arg2 harg2 arg3 harg3 arg4 harg4 arg5 harg5 arg6 harg6 arg7 harg7 arg8 harg8 arg9 harg9 arg10 harg10) K := by
  subst hw1; subst hw3
  simp only [cc0__flash_causal_kernel_eq_skeleton]; unfold cc0__flash_causal_kernel_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
  obtain rfl := harg2.eq_unread hf2; obtain rfl := harg3.eq_unread hf3
  obtain rfl := harg4.eq_unread hf4; obtain rfl := harg5.eq_unread hf5; obtain rfl := harg6.eq_unread hf6
  sl_exec (disch := first | sl_exact hc1 | sl_exact hc2 | sl_exact hc3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    refine (read_head_whole _ _ hz3 Facts₀.inb_S1x1024x128_S1x1024x128_0_0_0 _ _).trans ?_
    sl_unfold_run_names
    simp only [readAt_whole (S := S1x1024x128) arg4 harg4 hz3 Facts₀.inb_S1x1024x128_S1x1024x128_0_0_0,
      readAt_whole (S := S1x1024x128) arg5 harg5 hz3 Facts₀.inb_S1x1024x128_S1x1024x128_0_0_0,
      readAt_whole (S := S1x1024x128) arg6 harg6 hz3 Facts₀.inb_S1x1024x128_S1x1024x128_0_0_0,
      readAt_whole (S := S1024x1) arg8 harg8 hz2 Facts₀.inb_S1024x1_S1024x1_0_0,
      readAt_whole (S := S1024x1) arg9 harg9 hz2 Facts₀.inb_S1024x1_S1024x1_0_0,
      readAt_whole (S := S1024x128) arg10 harg10 hz2 Facts₀.inb_S1024x128_S1024x128_0_0,
      readCov_head_whole (S := S1024x1) arg8.view hz2 Facts₀.inb_S1024x1_S1024x1_0_0,
      readCov_head_whole (S := S1024x1) arg9.view hz2 Facts₀.inb_S1024x1_S1024x1_0_0,
      readCov_head_whole (S := S1024x128) arg10.view hz2 Facts₀.inb_S1024x128_S1024x128_0_0]
    rfl
  isplitl [H8]
  · iexists _; isplitr
    swap; · iexact H8
    ipureintro
    refine (read_head_whole _ _ hz2 Facts₀.inb_S1024x1_S1024x1_0_0 _ _).trans ?_
    sl_unfold_run_names
    simp only [readAt_whole (S := S1x1024x128) arg4 harg4 hz3 Facts₀.inb_S1x1024x128_S1x1024x128_0_0_0,
      readAt_whole (S := S1x1024x128) arg5 harg5 hz3 Facts₀.inb_S1x1024x128_S1x1024x128_0_0_0,
      readAt_whole (S := S1x1024x128) arg6 harg6 hz3 Facts₀.inb_S1x1024x128_S1x1024x128_0_0_0,
      readAt_whole (S := S1024x1) arg8 harg8 hz2 Facts₀.inb_S1024x1_S1024x1_0_0,
      readAt_whole (S := S1024x1) arg9 harg9 hz2 Facts₀.inb_S1024x1_S1024x1_0_0,
      readAt_whole (S := S1024x128) arg10 harg10 hz2 Facts₀.inb_S1024x128_S1024x128_0_0,
      readCov_head_whole (S := S1024x1) arg8.view hz2 Facts₀.inb_S1024x1_S1024x1_0_0,
      readCov_head_whole (S := S1024x1) arg9.view hz2 Facts₀.inb_S1024x1_S1024x1_0_0,
      readCov_head_whole (S := S1024x128) arg10.view hz2 Facts₀.inb_S1024x128_S1024x128_0_0]
    rfl
  isplitl [H9]
  · iexists _; isplitr
    swap; · iexact H9
    ipureintro
    refine (read_head_whole _ _ hz2 Facts₀.inb_S1024x1_S1024x1_0_0 _ _).trans ?_
    sl_unfold_run_names
    simp only [readAt_whole (S := S1x1024x128) arg4 harg4 hz3 Facts₀.inb_S1x1024x128_S1x1024x128_0_0_0,
      readAt_whole (S := S1x1024x128) arg5 harg5 hz3 Facts₀.inb_S1x1024x128_S1x1024x128_0_0_0,
      readAt_whole (S := S1x1024x128) arg6 harg6 hz3 Facts₀.inb_S1x1024x128_S1x1024x128_0_0_0,
      readAt_whole (S := S1024x1) arg8 harg8 hz2 Facts₀.inb_S1024x1_S1024x1_0_0,
      readAt_whole (S := S1024x1) arg9 harg9 hz2 Facts₀.inb_S1024x1_S1024x1_0_0,
      readAt_whole (S := S1024x128) arg10 harg10 hz2 Facts₀.inb_S1024x128_S1024x128_0_0,
      readCov_head_whole (S := S1024x1) arg8.view hz2 Facts₀.inb_S1024x1_S1024x1_0_0,
      readCov_head_whole (S := S1024x1) arg9.view hz2 Facts₀.inb_S1024x1_S1024x1_0_0,
      readCov_head_whole (S := S1024x128) arg10.view hz2 Facts₀.inb_S1024x128_S1024x128_0_0]
    rfl
  iexists _; isplitr
  swap; · iexact H10
  ipureintro
  refine (read_head_whole _ _ hz2 Facts₀.inb_S1024x128_S1024x128_0_0 _ _).trans ?_
  sl_unfold_run_names
  simp only [readAt_whole (S := S1x1024x128) arg4 harg4 hz3 Facts₀.inb_S1x1024x128_S1x1024x128_0_0_0,
    readAt_whole (S := S1x1024x128) arg5 harg5 hz3 Facts₀.inb_S1x1024x128_S1x1024x128_0_0_0,
    readAt_whole (S := S1x1024x128) arg6 harg6 hz3 Facts₀.inb_S1x1024x128_S1x1024x128_0_0_0,
    readAt_whole (S := S1024x1) arg8 harg8 hz2 Facts₀.inb_S1024x1_S1024x1_0_0,
    readAt_whole (S := S1024x1) arg9 harg9 hz2 Facts₀.inb_S1024x1_S1024x1_0_0,
    readAt_whole (S := S1024x128) arg10 harg10 hz2 Facts₀.inb_S1024x128_S1024x128_0_0,
    readCov_head_whole (S := S1024x1) arg8.view hz2 Facts₀.inb_S1024x1_S1024x1_0_0,
    readCov_head_whole (S := S1024x1) arg9.view hz2 Facts₀.inb_S1024x1_S1024x1_0_0,
    readCov_head_whole (S := S1024x128) arg10.view hz2 Facts₀.inb_S1024x128_S1024x128_0_0]
  rfl

set_option maxHeartbeats 1000000 in
/-- The second step of a head (the first key block, before the query block): the reset, then the plain update. The
    output buffer is not touched. -/
theorem run_B (c : Dev nD) (E : Set ℕ) (i : grid0.Coords) (arg2 : Memref sig .tc .smem S3 .i32) (harg2 : arg2.IsWhole) (arg3 : Memref sig .tc .smem S3 .i32) (harg3 : arg3.IsWhole)
    (arg4 : Memref sig .tc .vmem S1x1024x128 .f32) (harg4 : arg4.IsWhole) (arg5 : Memref sig .tc .vmem S1x1024x128 .f32) (harg5 : arg5.IsWhole)
    (arg6 : Memref sig .tc .vmem S1x1024x128 .f32) (harg6 : arg6.IsWhole) (arg7 : Memref sig .tc .vmem S1x1024x128 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x128 .f32) (harg10 : arg10.IsWhole)
    (T0 T1 : Vec F S3 .i32) (sh : PosShare TreeShare)
    (q k v : Vec F S1x1024x128 .f32) (x7 : Vec F S1x1024x128 .f32)
    (w1 w3 : BitVec 32) (hw1 : wordOf i arg2 harg2 T0 = w1) (hw3 : wordOf i arg3 harg3 T1 = w3)
    (hc1 : condInit w3) (hc2 : condOff w1 w3) (hc3 : ¬ condDiag w1 w3)
    (K : PUnit → sProp 𝕄) :
    iprop(owns (c : Thread nD τ) arg2 sh T0 ∗ owns (c : Thread nD τ) arg3 sh T1
        ∗ owns (c : Thread nD τ) arg4 fullShare q ∗ owns (c : Thread nD τ) arg5 fullShare k ∗ owns (c : Thread nD τ) arg6 fullShare v
        ∗ owns (c : Thread nD τ) arg7 fullShare x7
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 sh T0 ∗ owns (c : Thread nD τ) arg3 sh T1
            ∗ owns (c : Thread nD τ) arg4 fullShare q ∗ owns (c : Thread nD τ) arg5 fullShare k ∗ owns (c : Thread nD τ) arg6 fullShare v
            ∗ owns (c : Thread nD τ) arg7 fullShare x7
            ∗ owns (c : Thread nD τ) arg8 fullShare (scrB q k v).m ∗ owns (c : Thread nD τ) arg9 fullShare (scrB q k v).l ∗ owns (c : Thread nD τ) arg10 fullShare (scrB q k v).acc) -∗ K ⟨⟩))
      ⊢ wp frame (wpE (defs₀ (F := F)) Variants.none c none) E (cc0__flash_causal_kernel i arg2 harg2 arg3 harg3 arg4 harg4 arg5 harg5 arg6 harg6 arg7 harg7 arg8 harg8 arg9 harg9 arg10 harg10) K := by
  subst hw1; subst hw3
  simp only [cc0__flash_causal_kernel_eq_skeleton]; unfold cc0__flash_causal_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  obtain rfl := harg2.eq_unread hf2; obtain rfl := harg3.eq_unread hf3
  obtain rfl := harg4.eq_unread hf4; obtain rfl := harg5.eq_unread hf5; obtain rfl := harg6.eq_unread hf6
  obtain rfl := harg7.eq_unread hf7
  sl_exec (disch := first | sl_exact hc1 | sl_exact hc2 | sl_exact hc3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    exact harg7.read_unread _
  isplitl [H8]
  · iexists _; isplitr
    swap; · iexact H8
    ipureintro
    refine (read_head_whole _ _ hz2 Facts₀.inb_S1024x1_S1024x1_0_0 _ _).trans ?_
    sl_unfold_run_names
    simp only [readAt_whole (S := S1x1024x128) arg4 harg4 hz3 Facts₀.inb_S1x1024x128_S1x1024x128_0_0_0,
      readAt_whole (S := S1x1024x128) arg5 harg5 hz3 Facts₀.inb_S1x1024x128_S1x1024x128_0_0_0,
      readAt_whole (S := S1x1024x128) arg6 harg6 hz3 Facts₀.inb_S1x1024x128_S1x1024x128_0_0_0,
      readAt_whole (S := S1024x1) arg8 harg8 hz2 Facts₀.inb_S1024x1_S1024x1_0_0,
      readAt_whole (S := S1024x1) arg9 harg9 hz2 Facts₀.inb_S1024x1_S1024x1_0_0,
      readAt_whole (S := S1024x128) arg10 harg10 hz2 Facts₀.inb_S1024x128_S1024x128_0_0,
      readCov_head_whole (S := S1024x1) arg8.view hz2 Facts₀.inb_S1024x1_S1024x1_0_0,
      readCov_head_whole (S := S1024x1) arg9.view hz2 Facts₀.inb_S1024x1_S1024x1_0_0,
      readCov_head_whole (S := S1024x128) arg10.view hz2 Facts₀.inb_S1024x128_S1024x128_0_0]
    rfl
  isplitl [H9]
  · iexists _; isplitr
    swap; · iexact H9
    ipureintro
    refine (read_head_whole _ _ hz2 Facts₀.inb_S1024x1_S1024x1_0_0 _ _).trans ?_
    sl_unfold_run_names
    simp only [readAt_whole (S := S1x1024x128) arg4 harg4 hz3 Facts₀.inb_S1x1024x128_S1x1024x128_0_0_0,
      readAt_whole (S := S1x1024x128) arg5 harg5 hz3 Facts₀.inb_S1x1024x128_S1x1024x128_0_0_0,
      readAt_whole (S := S1x1024x128) arg6 harg6 hz3 Facts₀.inb_S1x1024x128_S1x1024x128_0_0_0,
      readAt_whole (S := S1024x1) arg8 harg8 hz2 Facts₀.inb_S1024x1_S1024x1_0_0,
      readAt_whole (S := S1024x1) arg9 harg9 hz2 Facts₀.inb_S1024x1_S1024x1_0_0,
      readAt_whole (S := S1024x128) arg10 harg10 hz2 Facts₀.inb_S1024x128_S1024x128_0_0,
      readCov_head_whole (S := S1024x1) arg8.view hz2 Facts₀.inb_S1024x1_S1024x1_0_0,
      readCov_head_whole (S := S1024x1) arg9.view hz2 Facts₀.inb_S1024x1_S1024x1_0_0,
      readCov_head_whole (S := S1024x128) arg10.view hz2 Facts₀.inb_S1024x128_S1024x128_0_0]
    rfl
  iexists _; isplitr
  swap; · iexact H10
  ipureintro
  refine (read_head_whole _ _ hz2 Facts₀.inb_S1024x128_S1024x128_0_0 _ _).trans ?_
  sl_unfold_run_names
  simp only [readAt_whole (S := S1x1024x128) arg4 harg4 hz3 Facts₀.inb_S1x1024x128_S1x1024x128_0_0_0,
    readAt_whole (S := S1x1024x128) arg5 harg5 hz3 Facts₀.inb_S1x1024x128_S1x1024x128_0_0_0,
    readAt_whole (S := S1x1024x128) arg6 harg6 hz3 Facts₀.inb_S1x1024x128_S1x1024x128_0_0_0,
    readAt_whole (S := S1024x1) arg8 harg8 hz2 Facts₀.inb_S1024x1_S1024x1_0_0,
    readAt_whole (S := S1024x1) arg9 harg9 hz2 Facts₀.inb_S1024x1_S1024x1_0_0,
    readAt_whole (S := S1024x128) arg10 harg10 hz2 Facts₀.inb_S1024x128_S1024x128_0_0,
    readCov_head_whole (S := S1024x1) arg8.view hz2 Facts₀.inb_S1024x1_S1024x1_0_0,
    readCov_head_whole (S := S1024x1) arg9.view hz2 Facts₀.inb_S1024x1_S1024x1_0_0,
    readCov_head_whole (S := S1024x128) arg10.view hz2 Facts₀.inb_S1024x128_S1024x128_0_0]
  rfl

set_option maxHeartbeats 1000000 in
/-- The third step of a head (key block = query block, not the first): no reset; the masked update from the state found
    in the scratch, then the output block. -/
theorem run_C (c : Dev nD) (E : Set ℕ) (i : grid0.Coords) (arg2 : Memref sig .tc .smem S3 .i32) (harg2 : arg2.IsWhole) (arg3 : Memref sig .tc .smem S3 .i32) (harg3 : arg3.IsWhole)
    (arg4 : Memref sig .tc .vmem S1x1024x128 .f32) (harg4 : arg4.IsWhole) (arg5 : Memref sig .tc .vmem S1x1024x128 .f32) (harg5 : arg5.IsWhole)
    (arg6 : Memref sig .tc .vmem S1x1024x128 .f32) (harg6 : arg6.IsWhole) (arg7 : Memref sig .tc .vmem S1x1024x128 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x128 .f32) (harg10 : arg10.IsWhole)
    (T0 T1 : Vec F S3 .i32) (sh : PosShare TreeShare)
    (q k v : Vec F S1x1024x128 .f32)  (s : Scr F)
    (w1 w3 : BitVec 32) (hw1 : wordOf i arg2 harg2 T0 = w1) (hw3 : wordOf i arg3 harg3 T1 = w3)
    (hc1 : ¬ condInit w3) (hc2 : ¬ condOff w1 w3) (hc3 : condDiag w1 w3)
    (K : PUnit → sProp 𝕄) :
    iprop(owns (c : Thread nD τ) arg2 sh T0 ∗ owns (c : Thread nD τ) arg3 sh T1
        ∗ owns (c : Thread nD τ) arg4 fullShare q ∗ owns (c : Thread nD τ) arg5 fullShare k ∗ owns (c : Thread nD τ) arg6 fullShare v
        ∗ (∃ d, owns (c : Thread nD τ) arg7 fullShare d)
        ∗ owns (c : Thread nD τ) arg8 fullShare s.m ∗ owns (c : Thread nD τ) arg9 fullShare s.l ∗ owns (c : Thread nD τ) arg10 fullShare s.acc
        ∗ (iprop(owns (c : Thread nD τ) arg2 sh T0 ∗ owns (c : Thread nD τ) arg3 sh T1
            ∗ owns (c : Thread nD τ) arg4 fullShare q ∗ owns (c : Thread nD τ) arg5 fullShare k ∗ owns (c : Thread nD τ) arg6 fullShare v
            ∗ owns (c : Thread nD τ) arg7 fullShare (outOf (diagStep w1 w3 q k v s))
            ∗ owns (c : Thread nD τ) arg8 fullShare (diagStep w1 w3 q k v s).m ∗ owns (c : Thread nD τ) arg9 fullShare (diagStep w1 w3 q k v s).l ∗ owns (c : Thread nD τ) arg10 fullShare (diagStep w1 w3 q k v s).acc) -∗ K ⟨⟩))
      ⊢ wp frame (wpE (defs₀ (F := F)) Variants.none c none) E (cc0__flash_causal_kernel i arg2 harg2 arg3 harg3 arg4 harg4 arg5 harg5 arg6 harg6 arg7 harg7 arg8 harg8 arg9 harg9 arg10 harg10) K := by
  subst hw1; subst hw3
  simp only [cc0__flash_causal_kernel_eq_skeleton]; unfold cc0__flash_causal_kernel_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, Hk⟩
  obtain rfl := harg2.eq_unread hf2; obtain rfl := harg3.eq_unread hf3
  obtain rfl := harg4.eq_unread hf4; obtain rfl := harg5.eq_unread hf5; obtain rfl := harg6.eq_unread hf6
  obtain rfl := harg8.eq_unread hf8; obtain rfl := harg9.eq_unread hf9; obtain rfl := harg10.eq_unread hf10
  sl_exec (disch := first | sl_exact hc1 | sl_exact hc2 | sl_exact hc3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    refine (read_head_whole _ _ hz3 Facts₀.inb_S1x1024x128_S1x1024x128_0_0_0 _ _).trans ?_
    sl_unfold_run_names
    simp only [readAt_whole (S := S1x1024x128) arg4 harg4 hz3 Facts₀.inb_S1x1024x128_S1x1024x128_0_0_0,
      readAt_whole (S := S1x1024x128) arg5 harg5 hz3 Facts₀.inb_S1x1024x128_S1x1024x128_0_0_0,
      readAt_whole (S := S1x1024x128) arg6 harg6 hz3 Facts₀.inb_S1x1024x128_S1x1024x128_0_0_0,
      readAt_whole (S := S1024x1) arg8 harg8 hz2 Facts₀.inb_S1024x1_S1024x1_0_0,
      readAt_whole (S := S1024x1) arg9 harg9 hz2 Facts₀.inb_S1024x1_S1024x1_0_0,
      readAt_whole (S := S1024x128) arg10 harg10 hz2 Facts₀.inb_S1024x128_S1024x128_0_0,
      readCov_head_whole (S := S1024x1) arg8.view hz2 Facts₀.inb_S1024x1_S1024x1_0_0,
      readCov_head_whole (S := S1024x1) arg9.view hz2 Facts₀.inb_S1024x1_S1024x1_0_0,
      readCov_head_whole (S := S1024x128) arg10.view hz2 Facts₀.inb_S1024x128_S1024x128_0_0]
    rfl
  isplitl [H8]
  · iexists _; isplitr
    swap; · iexact H8
    ipureintro
    refine (read_head_whole _ _ hz2 Facts₀.inb_S1024x1_S1024x1_0_0 _ _).trans ?_
    sl_unfold_run_names
    simp only [readAt_whole (S := S1x1024x128) arg4 harg4 hz3 Facts₀.inb_S1x1024x128_S1x1024x128_0_0_0,
      readAt_whole (S := S1x1024x128) arg5 harg5 hz3 Facts₀.inb_S1x1024x128_S1x1024x128_0_0_0,
      readAt_whole (S := S1x1024x128) arg6 harg6 hz3 Facts₀.inb_S1x1024x128_S1x1024x128_0_0_0,
      readAt_whole (S := S1024x1) arg8 harg8 hz2 Facts₀.inb_S1024x1_S1024x1_0_0,
      readAt_whole (S := S1024x1) arg9 harg9 hz2 Facts₀.inb_S1024x1_S1024x1_0_0,
      readAt_whole (S := S1024x128) arg10 harg10 hz2 Facts₀.inb_S1024x128_S1024x128_0_0,
      readCov_head_whole (S := S1024x1) arg8.view hz2 Facts₀.inb_S1024x1_S1024x1_0_0,
      readCov_head_whole (S := S1024x1) arg9.view hz2 Facts₀.inb_S1024x1_S1024x1_0_0,
      readCov_head_whole (S := S1024x128) arg10.view hz2 Facts₀.inb_S1024x128_S1024x128_0_0]
    rfl
  isplitl [H9]
  · iexists _; isplitr
    swap; · iexact H9
    ipureintro
    refine (read_head_whole _ _ hz2 Facts₀.inb_S1024x1_S1024x1_0_0 _ _).trans ?_
    sl_unfold_run_names
    simp only [readAt_whole (S := S1x1024x128) arg4 harg4 hz3 Facts₀.inb_S1x1024x128_S1x1024x128_0_0_0,
      readAt_whole (S := S1x1024x128) arg5 harg5 hz3 Facts₀.inb_S1x1024x128_S1x1024x128_0_0_0,
      readAt_whole (S := S1x1024x128) arg6 harg6 hz3 Facts₀.inb_S1x1024x128_S1x1024x128_0_0_0,
      readAt_whole (S := S1024x1) arg8 harg8 hz2 Facts₀.inb_S1024x1_S1024x1_0_0,
      readAt_whole (S := S1024x1) arg9 harg9 hz2 Facts₀.inb_S1024x1_S1024x1_0_0,
      readAt_whole (S := S1024x128) arg10 harg10 hz2 Facts₀.inb_S1024x128_S1024x128_0_0,
      readCov_head_whole (S := S1024x1) arg8.view hz2 Facts₀.inb_S1024x1_S1024x1_0_0,
      readCov_head_whole (S := S1024x1) arg9.view hz2 Facts₀.inb_S1024x1_S1024x1_0_0,
      readCov_head_whole (S := S1024x128) arg10.view hz2 Facts₀.inb_S1024x128_S1024x128_0_0]
    rfl
  iexists _; isplitr
  swap; · iexact H10
  ipureintro
  refine (read_head_whole _ _ hz2 Facts₀.inb_S1024x128_S1024x128_0_0 _ _).trans ?_
  sl_unfold_run_names
  simp only [readAt_whole (S := S1x1024x128) arg4 harg4 hz3 Facts₀.inb_S1x1024x128_S1x1024x128_0_0_0,
    readAt_whole (S := S1x1024x128) arg5 harg5 hz3 Facts₀.inb_S1x1024x128_S1x1024x128_0_0_0,
    readAt_whole (S := S1x1024x128) arg6 harg6 hz3 Facts₀.inb_S1x1024x128_S1x1024x128_0_0_0,
    readAt_whole (S := S1024x1) arg8 harg8 hz2 Facts₀.inb_S1024x1_S1024x1_0_0,
    readAt_whole (S := S1024x1) arg9 harg9 hz2 Facts₀.inb_S1024x1_S1024x1_0_0,
    readAt_whole (S := S1024x128) arg10 harg10 hz2 Facts₀.inb_S1024x128_S1024x128_0_0,
    readCov_head_whole (S := S1024x1) arg8.view hz2 Facts₀.inb_S1024x1_S1024x1_0_0,
    readCov_head_whole (S := S1024x1) arg9.view hz2 Facts₀.inb_S1024x1_S1024x1_0_0,
    readCov_head_whole (S := S1024x128) arg10.view hz2 Facts₀.inb_S1024x128_S1024x128_0_0]
  rfl

end Cert.Kernel.Hand

end
-- ==== Proof.KBlocks.lean ====
/-
  For the program as printed: the same text as for the idealized program, over the printed program's names.
  From blocks to the array: the output array after the region as ONE function `G3` of the query, key and value arrays.

  The grid has 32 heads × 3 steps; at the literal tables a head's three steps read (query block, key block) =
  (0,0), (1,0), (1,1). A window's block at a point is the block of its array at the point's block index (an element
  of a block sits in the array, on each axis, at the block index times the block's size plus its own coordinate), so
  each input block is a block `blkOf X bh j` of its array. The output window is written back at a head's first
  point — rows below 1024, `outA` of the head's first query, key and value blocks — and at its third — rows from 1024,
  `outC` of the second query block, the first key and value blocks (which the second point read) and the second ones.
  Those two blocks per head cover the array, so it ends holding `G3`.
-/
import proofs.«141465_j40630390620348_2_alg».proof.Proof.KData
import Idealize.ShloMosaic.Lib.Pipeline.Value
import Idealize.ShloMosaic.Lib.ValueIdx

noncomputable section

namespace Cert.Kernel.Hand

open Idealize.ShloMosaic Idealize.ShloMosaic.TcCoe Idealize.SL.Sem
open Idealize.ShloMosaic.Pipeline (Dat)
open Cert.Kernel Cert.Kernel.Gen

variable {F : FTy → Type} [FloatOps F]

/-- Block `j` (rows `j*1024 … j*1024+1023`) of head `bh` of a [32,2048,128] array, as a [1,1024,128] block. -/
def blkOf (X : Vec F S32x2048x128 .f32) (bh : Fin 32) (j : Fin 2) : Vec F S1x1024x128 .f32 :=
  fun y => X (ValueIdx.ix3 bh
    ⟨j.val * 1024 + (y 1).val, by have h1 : (y 1).val < 1024 := (y 1).isLt; have := j.isLt; omega⟩
    ⟨(y 2).val, (y 2).isLt⟩)

/-- The output array as a function of the query, key and value arrays: rows below 1024 of a head by `outA` of the
    head's first blocks, rows from 1024 by `outC`. -/
def G3 (Q K V : Vec F S32x2048x128 .f32) : Vec F S32x2048x128 .f32 := fun i =>
  if (i 1).val < 1024 then
    outA (blkOf Q ⟨(i 0).val, (i 0).isLt⟩ 0) (blkOf K ⟨(i 0).val, (i 0).isLt⟩ 0) (blkOf V ⟨(i 0).val, (i 0).isLt⟩ 0)
      (ValueIdx.ix3 0 ⟨(i 1).val % 1024, Nat.mod_lt _ (by decide)⟩ ⟨(i 2).val, (i 2).isLt⟩)
  else
    outC (blkOf Q ⟨(i 0).val, (i 0).isLt⟩ 1) (blkOf K ⟨(i 0).val, (i 0).isLt⟩ 0) (blkOf V ⟨(i 0).val, (i 0).isLt⟩ 0)
      (blkOf K ⟨(i 0).val, (i 0).isLt⟩ 1) (blkOf V ⟨(i 0).val, (i 0).isLt⟩ 1)
      (ValueIdx.ix3 0 ⟨(i 1).val % 1024, Nat.mod_lt _ (by decide)⟩ ⟨(i 2).val, (i 2).isLt⟩)

/-! ## The block indices along the grid -/

/-- The four windows' block indices and the output's write-backs at every point of the grid, at the literal tables:
    the head is the point over 3 on every window; the query block (and the output block) is 0 at a head's first
    point and 1 after; the key block (and the value block) is 1 at a head's third point and 0 before; the feature
    block is 0; the output is written back everywhere but at a head's second point. Decided at one instance: the
    tables hold integer words, the same at every instance. -/
theorem idx_facts_at : ∀ t : Fin (cfgT (F := Ideal)).N,
    (((cfgT (F := Ideal)).win 0).index t (0 : Fin 3) = t.val / 3
      ∧ ((cfgT (F := Ideal)).win 0).index t (1 : Fin 3) = (if t.val % 3 = 0 then 0 else 1)
      ∧ ((cfgT (F := Ideal)).win 0).index t (2 : Fin 3) = 0)
    ∧ (((cfgT (F := Ideal)).win 1).index t (0 : Fin 3) = t.val / 3
      ∧ ((cfgT (F := Ideal)).win 1).index t (1 : Fin 3) = (if t.val % 3 = 2 then 1 else 0)
      ∧ ((cfgT (F := Ideal)).win 1).index t (2 : Fin 3) = 0)
    ∧ (((cfgT (F := Ideal)).win 2).index t (0 : Fin 3) = t.val / 3
      ∧ ((cfgT (F := Ideal)).win 2).index t (1 : Fin 3) = (if t.val % 3 = 2 then 1 else 0)
      ∧ ((cfgT (F := Ideal)).win 2).index t (2 : Fin 3) = 0)
    ∧ (((cfgT (F := Ideal)).win 3).index t (0 : Fin 3) = t.val / 3
      ∧ ((cfgT (F := Ideal)).win 3).index t (1 : Fin 3) = (if t.val % 3 = 0 then 0 else 1)
      ∧ ((cfgT (F := Ideal)).win 3).index t (2 : Fin 3) = 0)
    ∧ (((cfgT (F := Ideal)).win 3).flush t = true ↔ t.val % 3 ≠ 1) := by decide

/-- Hence the same facts at any instance. -/
theorem idx_facts (t : Fin (cfgT (F := F)).N) :
    (((cfgT (F := F)).win 0).index t (0 : Fin 3) = t.val / 3
      ∧ ((cfgT (F := F)).win 0).index t (1 : Fin 3) = (if t.val % 3 = 0 then 0 else 1)
      ∧ ((cfgT (F := F)).win 0).index t (2 : Fin 3) = 0)
    ∧ (((cfgT (F := F)).win 1).index t (0 : Fin 3) = t.val / 3
      ∧ ((cfgT (F := F)).win 1).index t (1 : Fin 3) = (if t.val % 3 = 2 then 1 else 0)
      ∧ ((cfgT (F := F)).win 1).index t (2 : Fin 3) = 0)
    ∧ (((cfgT (F := F)).win 2).index t (0 : Fin 3) = t.val / 3
      ∧ ((cfgT (F := F)).win 2).index t (1 : Fin 3) = (if t.val % 3 = 2 then 1 else 0)
      ∧ ((cfgT (F := F)).win 2).index t (2 : Fin 3) = 0)
    ∧ (((cfgT (F := F)).win 3).index t (0 : Fin 3) = t.val / 3
      ∧ ((cfgT (F := F)).win 3).index t (1 : Fin 3) = (if t.val % 3 = 0 then 0 else 1)
      ∧ ((cfgT (F := F)).win 3).index t (2 : Fin 3) = 0)
    ∧ (((cfgT (F := F)).win 3).flush t = true ↔ t.val % 3 ≠ 1) := idx_facts_at t

/-- Where the output window is idle and where each input window is fetched, at every point of the grid at the literal
    tables: the body stores the output block only where the query block is the key block, so the output is idle at a
    head's second point and nowhere else; the query block is fetched at a head's first and second points, the key
    and value blocks at its first and third. Decided at one instance. -/
theorem idle_fetch_facts_at : ∀ t : Fin (cfgT (F := Ideal)).N,
    (cfgT (F := Ideal)).idle 3 ((cfgT (F := Ideal)).grid.coords t) = decide (t.val % 3 = 1)
    ∧ (((cfgT (F := Ideal)).win 0).fetch t = true ↔ t.val % 3 ≠ 2)
    ∧ (((cfgT (F := Ideal)).win 1).fetch t = true ↔ t.val % 3 ≠ 1)
    ∧ (((cfgT (F := Ideal)).win 2).fetch t = true ↔ t.val % 3 ≠ 1) := by decide

/-- Hence the same facts at any instance. -/
theorem idle_fetch_facts (t : Fin (cfgT (F := F)).N) :
    (cfgT (F := F)).idle 3 ((cfgT (F := F)).grid.coords t) = decide (t.val % 3 = 1)
    ∧ (((cfgT (F := F)).win 0).fetch t = true ↔ t.val % 3 ≠ 2)
    ∧ (((cfgT (F := F)).win 1).fetch t = true ↔ t.val % 3 ≠ 1)
    ∧ (((cfgT (F := F)).win 2).fetch t = true ↔ t.val % 3 ≠ 1) := idle_fetch_facts_at t

/-- The output window is idle exactly at a head's second point. -/
theorem idle3_eq (t : Fin (cfgT (F := F)).N) :
    (cfgT (F := F)).idle 3 ((cfgT (F := F)).grid.coords t) = decide (t.val % 3 = 1) := (idle_fetch_facts t).1

/-- The output block is not written back at a head's second point. -/
theorem flush3_false (t : Fin (cfgT (F := F)).N) (h : t.val % 3 = 1) : ((cfgT (F := F)).win 3).flush t = false :=
  Bool.eq_false_iff.mpr fun hf => ((idx_facts (F := F) t).2.2.2.2.mp hf) h

/-- It is written back at a head's first and third points. -/
theorem flush3_true (t : Fin (cfgT (F := F)).N) (h : t.val % 3 ≠ 1) : ((cfgT (F := F)).win 3).flush t = true :=
  (idx_facts (F := F) t).2.2.2.2.mpr h

/-! ## The array function at an index -/

/-- At row `r < 1024` of head `bh`: `outA` of the head's first blocks, at row `r`. -/
theorem G3_lo (Q K W : Vec F S32x2048x128 .f32) (i : S32x2048x128.Idx) (bh : Fin 32) (y : S1x1024x128.Idx)
    (h0 : (i 0).val = bh.val) (h1 : (i 1).val = (y 1).val) (h2 : (i 2).val = (y 2).val) :
    G3 Q K W i = outA (blkOf Q bh 0) (blkOf K bh 0) (blkOf W bh 0) y := by
  have hy0 : (y 0).val < 1 := (y 0).isLt
  have hy1 : (y 1).val < 1024 := (y 1).isLt
  have eb : (⟨(i 0).val, (i 0).isLt⟩ : Fin 32) = bh := Fin.ext h0
  have ey : (ValueIdx.ix3 (0 : Fin 1) (⟨(i 1).val % 1024, Nat.mod_lt _ (by decide)⟩ : Fin 1024)
      (⟨(i 2).val, (i 2).isLt⟩ : Fin 128) : S1x1024x128.Idx) = y := by
    funext a
    apply Fin.ext
    match a with
    | ⟨0, _⟩ => show (0 : Nat) = (y 0).val; omega
    | ⟨1, _⟩ => show (i 1).val % 1024 = (y 1).val; omega
    | ⟨2, _⟩ => show (i 2).val = (y 2).val; omega
  unfold G3
  rw [if_pos (by omega : (i 1).val < 1024), eb, ey]

/-- At row `1024 + r` of head `bh`: `outC` of the head's second query block and its two key and value blocks, at row `r`. -/
theorem G3_hi (Q K W : Vec F S32x2048x128 .f32) (i : S32x2048x128.Idx) (bh : Fin 32) (y : S1x1024x128.Idx)
    (h0 : (i 0).val = bh.val) (h1 : (i 1).val = 1024 + (y 1).val) (h2 : (i 2).val = (y 2).val) :
    G3 Q K W i = outC (blkOf Q bh 1) (blkOf K bh 0) (blkOf W bh 0) (blkOf K bh 1) (blkOf W bh 1) y := by
  have hy0 : (y 0).val < 1 := (y 0).isLt
  have hy1 : (y 1).val < 1024 := (y 1).isLt
  have eb : (⟨(i 0).val, (i 0).isLt⟩ : Fin 32) = bh := Fin.ext h0
  have ey : (ValueIdx.ix3 (0 : Fin 1) (⟨(i 1).val % 1024, Nat.mod_lt _ (by decide)⟩ : Fin 1024)
      (⟨(i 2).val, (i 2).isLt⟩ : Fin 128) : S1x1024x128.Idx) = y := by
    funext a
    apply Fin.ext
    match a with
    | ⟨0, _⟩ => show (0 : Nat) = (y 0).val; omega
    | ⟨1, _⟩ => show (i 1).val % 1024 = (y 1).val; omega
    | ⟨2, _⟩ => show (i 2).val = (y 2).val; omega
  unfold G3
  rw [if_neg (by omega : ¬ (i 1).val < 1024), eb, ey]

/-! ## Each input block as a block of its array -/

section Arrays

variable (V : (c : Dev nD) → (b : Ref sig .tc) → Buf (Elt F) ((c : Thread nD τ).loc b))

/-- The query window's block at a point whose block index is `(bh, j, 0)` is block `j` of head `bh` of the query array: an
    element of a block sits in the array, on each axis, at the block index times the block's size plus its own coordinate. -/
theorem iblk0_eq (c : Dev nD) (t : Fin (cfgT (F := F)).N) (bh : Fin 32) (j : Fin 2)
    (h0 : ((cfgT (F := F)).win 0).index t (0 : Fin 3) = bh.val)
    (h1 : ((cfgT (F := F)).win 0).index t (1 : Fin 3) = j.val)
    (h2 : ((cfgT (F := F)).win 0).index t (2 : Fin 3) = 0) :
    (iblk V c 0 t : Vec F S1x1024x128 .f32) = blkOf (V c main_v0 : Vec F S32x2048x128 .f32) bh j := by
  refine funext fun (y : S1x1024x128.Idx) => ?_
  show (V c main_v0 : Vec F S32x2048x128 .f32) ((((cfgT (F := F)).win 0).blk t).view.emb y)
    = (V c main_v0 : Vec F S32x2048x128 .f32) _
  refine congrArg _ ?_
  funext a
  apply Fin.ext
  match a with
  | ⟨0, _⟩ =>
    show ((cfgT (F := F)).win 0).index t (0 : Fin 3) * 1 + 1 * (y 0).val = bh.val
    have hy : (y 0).val < 1 := (y 0).isLt
    omega
  | ⟨1, _⟩ =>
    show ((cfgT (F := F)).win 0).index t (1 : Fin 3) * 1024 + 1 * (y 1).val = j.val * 1024 + (y 1).val
    omega
  | ⟨2, _⟩ =>
    show ((cfgT (F := F)).win 0).index t (2 : Fin 3) * 128 + 1 * (y 2).val = (y 2).val
    omega

/-- The same for the key window and the key array, -/
theorem iblk1_eq (c : Dev nD) (t : Fin (cfgT (F := F)).N) (bh : Fin 32) (j : Fin 2)
    (h0 : ((cfgT (F := F)).win 1).index t (0 : Fin 3) = bh.val)
    (h1 : ((cfgT (F := F)).win 1).index t (1 : Fin 3) = j.val)
    (h2 : ((cfgT (F := F)).win 1).index t (2 : Fin 3) = 0) :
    (iblk V c 1 t : Vec F S1x1024x128 .f32) = blkOf (V c main_v1 : Vec F S32x2048x128 .f32) bh j := by
  refine funext fun (y : S1x1024x128.Idx) => ?_
  show (V c main_v1 : Vec F S32x2048x128 .f32) ((((cfgT (F := F)).win 1).blk t).view.emb y)
    = (V c main_v1 : Vec F S32x2048x128 .f32) _
  refine congrArg _ ?_
  funext a
  apply Fin.ext
  match a with
  | ⟨0, _⟩ =>
    show ((cfgT (F := F)).win 1).index t (0 : Fin 3) * 1 + 1 * (y 0).val = bh.val
    have hy : (y 0).val < 1 := (y 0).isLt
    omega
  | ⟨1, _⟩ =>
    show ((cfgT (F := F)).win 1).index t (1 : Fin 3) * 1024 + 1 * (y 1).val = j.val * 1024 + (y 1).val
    omega
  | ⟨2, _⟩ =>
    show ((cfgT (F := F)).win 1).index t (2 : Fin 3) * 128 + 1 * (y 2).val = (y 2).val
    omega

/-- and for the value window and the value array. -/
theorem iblk2_eq (c : Dev nD) (t : Fin (cfgT (F := F)).N) (bh : Fin 32) (j : Fin 2)
    (h0 : ((cfgT (F := F)).win 2).index t (0 : Fin 3) = bh.val)
    (h1 : ((cfgT (F := F)).win 2).index t (1 : Fin 3) = j.val)
    (h2 : ((cfgT (F := F)).win 2).index t (2 : Fin 3) = 0) :
    (iblk V c 2 t : Vec F S1x1024x128 .f32) = blkOf (V c main_v2 : Vec F S32x2048x128 .f32) bh j := by
  refine funext fun (y : S1x1024x128.Idx) => ?_
  show (V c main_v2 : Vec F S32x2048x128 .f32) ((((cfgT (F := F)).win 2).blk t).view.emb y)
    = (V c main_v2 : Vec F S32x2048x128 .f32) _
  refine congrArg _ ?_
  funext a
  apply Fin.ext
  match a with
  | ⟨0, _⟩ =>
    show ((cfgT (F := F)).win 2).index t (0 : Fin 3) * 1 + 1 * (y 0).val = bh.val
    have hy : (y 0).val < 1 := (y 0).isLt
    omega
  | ⟨1, _⟩ =>
    show ((cfgT (F := F)).win 2).index t (1 : Fin 3) * 1024 + 1 * (y 1).val = j.val * 1024 + (y 1).val
    omega
  | ⟨2, _⟩ =>
    show ((cfgT (F := F)).win 2).index t (2 : Fin 3) * 128 + 1 * (y 2).val = (y 2).val
    omega

/-- The query block at a head's third point is the one at its second: both are block 1 of the head. -/
theorem iblk0_prev (c : Dev nD) (t : Fin (cfgT (F := F)).N) (h : t.val % 3 = 2) :
    iblk V c 0 (pt (t.val - 1)) = iblk V c 0 t := by
  have hN : t.val < 96 := Nat.lt_of_lt_of_eq t.isLt cfgT_N
  have hbh : t.val / 3 < 32 := by omega
  obtain ⟨⟨a0, a1, a2⟩, _⟩ := idx_facts (F := F) t
  obtain ⟨⟨p0, p1, p2⟩, _⟩ := idx_facts (F := F) (pt (t.val - 1))
  have hp : (pt (F := F) (t.val - 1)).val = (t.val - 1) % 96 := rfl
  exact (iblk0_eq V c (pt (t.val - 1)) ⟨t.val / 3, hbh⟩ 1 (by rw [p0, hp]; show _ = t.val / 3; omega)
      (by rw [p1, hp, if_neg (by omega)]; rfl) p2).trans
    (iblk0_eq V c t ⟨t.val / 3, hbh⟩ 1 (by rw [a0]) (by rw [a1, if_neg (by omega)]; rfl) a2).symm

/-! ## What a point writes back, the cover, the array -/

/-- WHAT POINT `t` WRITES BACK, when it writes back, is block `t` of `G3` of the three arrays as the region finds
    them: a head's first point writes rows below 1024 (`outA` of the blocks it read), its third point rows from 1024
    (`outC` of the blocks it read and of the key and value blocks the second point read, which are the head's first). -/
theorem flushed3_eq (c : Dev nD) (t : Fin (cfgT (F := F)).N) (hf : ((cfgT (F := F)).win 3).flush t = true) :
    (dat V c).flushed 3 t
      = (((cfgT (F := F)).win 3).blk t).view.read (Elt F)
          (G3 (V c main_v0 : Vec F S32x2048x128 .f32) (V c main_v1 : Vec F S32x2048x128 .f32)
            (V c main_v2 : Vec F S32x2048x128 .f32)) := by
  have hN : t.val < 96 := Nat.lt_of_lt_of_eq t.isLt cfgT_N
  obtain ⟨⟨a0, a1, a2⟩, ⟨b0, b1, b2⟩, ⟨c0, c1, c2⟩, ⟨d0, d1, d2⟩, hfl⟩ := idx_facts (F := F) t
  have hm : t.val % 3 ≠ 1 := hfl.mp hf
  have hbh : t.val / 3 < 32 := by omega
  refine funext fun (y : S1x1024x128.Idx) => ?_
  have hy0 : (y 0).val < 1 := (y 0).isLt
  have hy1 : (y 1).val < 1024 := (y 1).isLt
  show out3 V c t y
    = G3 (V c main_v0 : Vec F S32x2048x128 .f32) (V c main_v1 : Vec F S32x2048x128 .f32)
        (V c main_v2 : Vec F S32x2048x128 .f32) ((((cfgT (F := F)).win 3).blk t).view.emb y)
  unfold out3
  by_cases h : t.val % 3 = 2
  · -- the head's third point: rows from 1024
    obtain ⟨⟨_, _, _⟩, ⟨p0, p1, p2⟩, ⟨q0, q1, q2⟩, _, _⟩ := idx_facts (F := F) (pt (t.val - 1))
    have hp : (pt (F := F) (t.val - 1)).val = (t.val - 1) % 96 := rfl
    rw [if_pos h,
      G3_hi (V c main_v0 : Vec F S32x2048x128 .f32) (V c main_v1 : Vec F S32x2048x128 .f32)
        (V c main_v2 : Vec F S32x2048x128 .f32) ((((cfgT (F := F)).win 3).blk t).view.emb y) ⟨t.val / 3, hbh⟩ y
        (by show ((cfgT (F := F)).win 3).index t (0 : Fin 3) * 1 + 1 * (y 0).val = t.val / 3; rw [d0]; omega)
        (by show ((cfgT (F := F)).win 3).index t (1 : Fin 3) * 1024 + 1 * (y 1).val = 1024 + (y 1).val
            rw [d1, if_neg (by omega)]; omega)
        (by show ((cfgT (F := F)).win 3).index t (2 : Fin 3) * 128 + 1 * (y 2).val = (y 2).val; rw [d2]; omega),
      iblk0_eq V c t ⟨t.val / 3, hbh⟩ 1 (by rw [a0]) (by rw [a1, if_neg (by omega)]; rfl) a2,
      iblk1_eq V c t ⟨t.val / 3, hbh⟩ 1 (by rw [b0]) (by rw [b1, if_pos h]; rfl) b2,
      iblk2_eq V c t ⟨t.val / 3, hbh⟩ 1 (by rw [c0]) (by rw [c1, if_pos h]; rfl) c2,
      iblk1_eq V c (pt (t.val - 1)) ⟨t.val / 3, hbh⟩ 0 (by rw [p0, hp]; show _ = t.val / 3; omega)
        (by rw [p1, hp, if_neg (by omega)]; rfl) p2,
      iblk2_eq V c (pt (t.val - 1)) ⟨t.val / 3, hbh⟩ 0 (by rw [q0, hp]; show _ = t.val / 3; omega)
        (by rw [q1, hp, if_neg (by omega)]; rfl) q2]
  · -- the head's first point: rows below 1024
    have h3 : t.val % 3 = 0 := by omega
    rw [if_neg h,
      G3_lo (V c main_v0 : Vec F S32x2048x128 .f32) (V c main_v1 : Vec F S32x2048x128 .f32)
        (V c main_v2 : Vec F S32x2048x128 .f32) ((((cfgT (F := F)).win 3).blk t).view.emb y) ⟨t.val / 3, hbh⟩ y
        (by show ((cfgT (F := F)).win 3).index t (0 : Fin 3) * 1 + 1 * (y 0).val = t.val / 3; rw [d0]; omega)
        (by show ((cfgT (F := F)).win 3).index t (1 : Fin 3) * 1024 + 1 * (y 1).val = (y 1).val
            rw [d1, if_pos h3]; omega)
        (by show ((cfgT (F := F)).win 3).index t (2 : Fin 3) * 128 + 1 * (y 2).val = (y 2).val; rw [d2]; omega),
      iblk0_eq V c t ⟨t.val / 3, hbh⟩ 0 (by rw [a0]) (by rw [a1, if_pos h3]; rfl) a2,
      iblk1_eq V c t ⟨t.val / 3, hbh⟩ 0 (by rw [b0]) (by rw [b1, if_neg h]; rfl) b2,
      iblk2_eq V c t ⟨t.val / 3, hbh⟩ 0 (by rw [c0]) (by rw [c1, if_neg h]; rfl) c2]

/-- An index of the array is in point `t`'s output block iff each coordinate is in the block's range on its axis. -/
theorem mem_blk3 (t : Fin (cfgT (F := F)).N) (i : S32x2048x128.Idx) :
    i ∈ (((cfgT (F := F)).win 3).blk t).view.set
      ↔ ∀ a : Fin 3, ((cfgT (F := F)).win 3).index t a * S1x1024x128.size a ≤ (i a).val
          ∧ (i a).val < ((cfgT (F := F)).win 3).index t a * S1x1024x128.size a + S1x1024x128.size a := by
  show i ∈ ((View.whole main_v3).slice (((cfgT (F := F)).win 3).rect t)).set ↔ _
  refine Iff.trans (Eq.to_iff (congrArg (fun s => i ∈ s)
    (View.set_slice_whole main_v3 (((cfgT (F := F)).win 3).rect t)))) ?_
  exact Rect.mem_set_unit

/-- THE COVER: row `s` of head `bh` is in the block the head's first point writes back (`s < 1024`) or in the one its
    third point does. -/
theorem cover3 (i : S32x2048x128.Idx) :
    ∃ t : Fin (cfgT (F := F)).N, ((cfgT (F := F)).win 3).flush t = true ∧ i ∈ (((cfgT (F := F)).win 3).blk t).view.set := by
  have hi0 : (i 0).val < 32 := (i 0).isLt
  have hi1 : (i 1).val < 2048 := (i 1).isLt
  have hi2 : (i 2).val < 128 := (i 2).isLt
  obtain ⟨_, _, _, ⟨d0, d1, d2⟩, hfl⟩ :=
    idx_facts (F := F) (pt (3 * (i 0).val + (if (i 1).val < 1024 then 0 else 2)))
  have hp : (pt (F := F) (3 * (i 0).val + (if (i 1).val < 1024 then 0 else 2))).val
      = (3 * (i 0).val + (if (i 1).val < 1024 then 0 else 2)) % 96 := rfl
  refine ⟨pt (3 * (i 0).val + (if (i 1).val < 1024 then 0 else 2)), hfl.mpr ?_, ?_⟩
  · rw [hp]; split_ifs <;> omega
  · rw [mem_blk3]
    intro a
    match a with
    | ⟨0, _⟩ =>
      show ((cfgT (F := F)).win 3).index _ (0 : Fin 3) * 1 ≤ (i 0).val
        ∧ (i 0).val < ((cfgT (F := F)).win 3).index _ (0 : Fin 3) * 1 + 1
      rw [d0, hp]; split_ifs <;> omega
    | ⟨1, _⟩ =>
      show ((cfgT (F := F)).win 3).index _ (1 : Fin 3) * 1024 ≤ (i 1).val
        ∧ (i 1).val < ((cfgT (F := F)).win 3).index _ (1 : Fin 3) * 1024 + 1024
      rw [d1, hp]; split_ifs <;> omega
    | ⟨2, _⟩ =>
      show ((cfgT (F := F)).win 3).index _ (2 : Fin 3) * 128 ≤ (i 2).val
        ∧ (i 2).val < ((cfgT (F := F)).win 3).index _ (2 : Fin 3) * 128 + 128
      rw [d2]; omega

/-- THE OUTPUT ARRAY after the region is `G3` of the query, key and value arrays as the region finds them. -/
theorem final3 (c : Dev nD) :
    (dat V c).arrAt 3 (cfgT (F := F)).N
      = G3 (V c main_v0 : Vec F S32x2048x128 .f32) (V c main_v1 : Vec F S32x2048x128 .f32)
          (V c main_v2 : Vec F S32x2048x128 .f32) :=
  (dat V c).arrAt_eq_of_cover 3 _ (fun t hf => flushed3_eq V c t hf) (fun i => cover3 i)

end Arrays

end Cert.Kernel.Hand

end
-- ==== Proof.KBody.lean ====
/-
  For the program as printed: the same text as for the idealized program, over the printed program's names.
  The body obligation of the pipeline at the literal tables: at every grid point the body, called on the windows'
  current staging buffers, the tables and the scratch, keeps the invariant and leaves each window's buffer at what the
  proof data names. Point t is step t % 3 of head t / 3; the tables give the steps the block pairs (0,0), (1,0), (1,1), which
  decide the body's three branches: step 0 resets and does the masked update and the output; step 1 resets and does the
  plain update, leaving the output buffer alone; step 2 does the masked update from the state step 1 left, and the output.
-/
import proofs.«141465_j40630390620348_2_alg».proof.Proof.KBodyRuns
import proofs.«141465_j40630390620348_2_alg».proof.Proof.KBlocks

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (UR sig nD τ) ℕ

/-! ## The table words of a step -/

/-- The table position the body reads at point `t` is its step, `t % 3`. -/
theorem step_idx : ∀ t : Fin grid0.N,
    (S3.rowMajor ((Rect.unit (s := S3) (k0_off1 (grid0.coords t)) S1.size (Facts₀.k0_off1_inb (grid0.coords t))).idx
      (Shape.Idx.first (Facts₀.numel1_S1.symm ▸ Nat.one_pos)))).val = t.val % 3 := by decide

/-- The word the body loads from a table whose entries are the literals `lit`: the literal at the step. -/
theorem wordOf_lit (t : Fin grid0.N) (a : Memref sig .tc .smem S3 .i32) (ha : a.IsWhole) (T : Vec F S3 .i32)
    (lit : Fin 3 → BitVec 32) (hT : ∀ x, T x = lit (S3.rowMajor x)) :
    wordOf (F := F) (grid0.coords t) a ha T = lit ⟨t.val % 3, Nat.mod_lt _ (by decide)⟩ := by
  unfold wordOf
  rw [View.readAt_eq_ld, ha.read_unread]
  exact (hT _).trans (congrArg lit (Fin.ext (step_idx t)))

/-- The two tables at the types the body's table buffers have. -/
abbrev tb0 : Vec F S3 .i32 := fun x => lit0 (S3.rowMajor x)
abbrev tb1 : Vec F S3 .i32 := fun x => lit1 (S3.rowMajor x)

theorem fin3_eq {n : Nat} (h3 : n % 3 < 3) {j : Nat} (hj : j < 3) (h : n % 3 = j) : (⟨n % 3, h3⟩ : Fin 3) = ⟨j, hj⟩ := Fin.ext h

/-- Step 0: blocks (0, 0). -/
theorem words0 (t : Fin grid0.N) (h : t.val % 3 = 0) (a2 : Memref sig .tc .smem S3 .i32) (h2 : a2.IsWhole) (a3 : Memref sig .tc .smem S3 .i32) (h3 : a3.IsWhole) :
    wordOf (F := F) (grid0.coords t) a2 h2 tb0 = 0#32 ∧ wordOf (F := F) (grid0.coords t) a3 h3 tb1 = 0#32 := by
  rw [wordOf_lit t a2 h2 tb0 lit0 (fun _ => rfl), wordOf_lit t a3 h3 tb1 lit1 (fun _ => rfl), fin3_eq _ (by decide : 0 < 3) h]; exact ⟨rfl, rfl⟩
/-- Step 1: blocks (1, 0). -/
theorem words1 (t : Fin grid0.N) (h : t.val % 3 = 1) (a2 : Memref sig .tc .smem S3 .i32) (h2 : a2.IsWhole) (a3 : Memref sig .tc .smem S3 .i32) (h3 : a3.IsWhole) :
    wordOf (F := F) (grid0.coords t) a2 h2 tb0 = 1#32 ∧ wordOf (F := F) (grid0.coords t) a3 h3 tb1 = 0#32 := by
  rw [wordOf_lit t a2 h2 tb0 lit0 (fun _ => rfl), wordOf_lit t a3 h3 tb1 lit1 (fun _ => rfl), fin3_eq _ (by decide : 1 < 3) h]; exact ⟨rfl, rfl⟩
/-- Step 2: blocks (1, 1). -/
theorem words2 (t : Fin grid0.N) (h : t.val % 3 = 2) (a2 : Memref sig .tc .smem S3 .i32) (h2 : a2.IsWhole) (a3 : Memref sig .tc .smem S3 .i32) (h3 : a3.IsWhole) :
    wordOf (F := F) (grid0.coords t) a2 h2 tb0 = 1#32 ∧ wordOf (F := F) (grid0.coords t) a3 h3 tb1 = 1#32 := by
  rw [wordOf_lit t a2 h2 tb0 lit0 (fun _ => rfl), wordOf_lit t a3 h3 tb1 lit1 (fun _ => rfl), fin3_eq _ (by decide : 2 < 3) h]; exact ⟨rfl, rfl⟩

/-- The branch conditions at the three block pairs. -/
theorem cond_00 : condInit 0#32 ∧ ¬ condOff 0#32 0#32 ∧ condDiag 0#32 0#32 := by decide
theorem cond_10 : condInit 0#32 ∧ condOff 1#32 0#32 ∧ ¬ condDiag 1#32 0#32 := by decide
theorem cond_11 : ¬ condInit 1#32 ∧ ¬ condOff 1#32 1#32 ∧ condDiag 1#32 1#32 := by decide

/-- The tables as the invariant holds them are the two table buffers the body is called with. -/
theorem tables_eq (c : Dev nD) :
    (Pipeline.prefHeld pre0 c (fun _ => fullShare) (tbl (F := F)) : sProp 𝕄)
      = iprop(owns (c : Thread nD τ) (Memref.whole main_c) fullShare (tb0 (F := F))
          ∗ owns (c : Thread nD τ) (Memref.whole main_c_0) fullShare (tb1 (F := F))) :=
  (bigSep_univ_eq_bigSepL [(0 : Fin 2), (1 : Fin 2)] (by decide) (by decide) _).trans
    (congrArg₂ (fun a b : sProp 𝕄 => iprop(a ∗ b))
      (owns_whole (c : Thread nD τ) (pre0.ref 0) fullShare (tbl (F := F) 0)).symm
      (owns_whole (c : Thread nD τ) (pre0.ref 1) fullShare (tbl (F := F) 1)).symm)

section Body

variable (V : (c : Dev nD) → (b : Ref sig .tc) → Buf (Elt F) ((c : Thread nD τ).loc b))

theorem A_eq (c : Dev nD) (w : Fin (cfgT (F := F)).W) : (dat V c).A w = V c (Pipeline.arrRef spec0 w) := rfl
theorem after_0 (c : Dev nD) (t : Fin (cfgT (F := F)).N) : (dat V c).after 0 t = iblk V c 0 t := by dsimp only [dat]; rfl
theorem after_1 (c : Dev nD) (t : Fin (cfgT (F := F)).N) : (dat V c).after 1 t = iblk V c 1 t := by dsimp only [dat]; rfl
theorem after_2 (c : Dev nD) (t : Fin (cfgT (F := F)).N) : (dat V c).after 2 t = iblk V c 2 t := by dsimp only [dat]; rfl
theorem after_3 (c : Dev nD) (t : Fin (cfgT (F := F)).N) : (dat V c).after 3 t = out3 V c t := by dsimp only [dat]; rfl

/-- Each input window's current staging buffer holds its block at every point, fetched there or not. -/
theorem before_0 (c : Dev nD) (t : Fin (cfgT (F := F)).N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cfgT (F := F)).N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin (cfgT (F := F)).N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-- Each window's current staging buffer at point `t`. -/
abbrev st (w : Fin (cfgT (F := F)).W) (t : Fin (cfgT (F := F)).N) := ((cfgT (F := F)).win w).stage ((cfgT (F := F)).slots t w)

/-- The body at point `t`, on what the pipeline calls it with. -/
abbrev bodyAt (t : Fin (cfgT (F := F)).N) : Prog (TpuEff nD τ sig (Elt F) Λ₀ .tc) PUnit :=
  cc0__flash_causal_kernel (grid0.coords t) (Memref.whole main_c) (Memref.isWhole_whole _) (Memref.whole main_c_0) (Memref.isWhole_whole _)
    (spec0_0.stage ((cfgT (F := F)).slots t 0)) (Facts₀.hstage0_0 (((cfgT (F := F)).slots t 0).cast Facts₀.nbuf0_0))
    (spec0_1.stage ((cfgT (F := F)).slots t 1)) (Facts₀.hstage0_1 (((cfgT (F := F)).slots t 1).cast Facts₀.nbuf0_1))
    (spec0_2.stage ((cfgT (F := F)).slots t 2)) (Facts₀.hstage0_2 (((cfgT (F := F)).slots t 2).cast Facts₀.nbuf0_2))
    (spec0_3.stage ((cfgT (F := F)).slots t 3)) (Facts₀.hstage0_3 (((cfgT (F := F)).slots t 3).cast Facts₀.nbuf0_3))
    (Memref.whole cc0_scratch0) (Memref.isWhole_whole _) (Memref.whole cc0_scratch1) (Memref.isWhole_whole _) (Memref.whole cc0_scratch2) (Memref.isWhole_whole _)

/-- What the body is called with at point `t`, -/
def bodyPre (c : Dev nD) (t : Fin (cfgT (F := F)).N) : sProp 𝕄 :=
  iprop((dat V c).Φ t.castSucc ∗ (dat V c).owesAt () t.castSucc
    ∗ (∃ d, owns (c : Thread nD τ) (st 0 t) fullShare ((dat V c).before 0 t d))
    ∗ (∃ d, owns (c : Thread nD τ) (st 1 t) fullShare ((dat V c).before 1 t d))
    ∗ (∃ d, owns (c : Thread nD τ) (st 2 t) fullShare ((dat V c).before 2 t d))
    ∗ (∃ d, owns (c : Thread nD τ) (st 3 t) fullShare ((dat V c).before 3 t d)))

/-- and what it returns. -/
def bodyPost (c : Dev nD) (t : Fin (cfgT (F := F)).N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

theorem leaves_0 (c : Dev nD) (t : Fin (cfgT (F := F)).N) :
    (dat V c).leavesExact 0 t = owns (c : Thread nD τ) (st 0 t) fullShare (iblk V c 0 t) := by
  unfold Dat.leavesExact; rw [show (cfgT (F := F)).idle 0 ((cfgT (F := F)).grid.coords t) = false from rfl, after_0]
theorem leaves_1 (c : Dev nD) (t : Fin (cfgT (F := F)).N) :
    (dat V c).leavesExact 1 t = owns (c : Thread nD τ) (st 1 t) fullShare (iblk V c 1 t) := by
  unfold Dat.leavesExact; rw [show (cfgT (F := F)).idle 1 ((cfgT (F := F)).grid.coords t) = false from rfl, after_1]
theorem leaves_2 (c : Dev nD) (t : Fin (cfgT (F := F)).N) :
    (dat V c).leavesExact 2 t = owns (c : Thread nD τ) (st 2 t) fullShare (iblk V c 2 t) := by
  unfold Dat.leavesExact; rw [show (cfgT (F := F)).idle 2 ((cfgT (F := F)).grid.coords t) = false from rfl, after_2]
/-- The output window at a step that stores it: the buffer at the proof data's value. -/
theorem leaves_3_live (c : Dev nD) (t : Fin (cfgT (F := F)).N) (h : t.val % 3 ≠ 1) :
    (dat V c).leavesExact 3 t = owns (c : Thread nD τ) (st 3 t) fullShare (out3 V c t) := by
  unfold Dat.leavesExact; rw [idle3_eq t, decide_eq_false h, after_3]
/-- The output window at the step that leaves it alone (and does not write it back): the buffer as found. -/
theorem leaves_3_idle (c : Dev nD) (t : Fin (cfgT (F := F)).N) (h : t.val % 3 = 1) :
    (dat V c).leavesExact 3 t = iprop(∃ d, owns (c : Thread nD τ) (st 3 t) fullShare ((dat V c).before 3 t d)) :=
  (dat V c).leavesExact_idle 3 t (by rw [idle3_eq t, decide_eq_true h]) (flush3_false t h)

theorem pt_val (t : Fin (cfgT (F := F)).N) : pt (F := F) t.val = t :=
  Fin.ext (Nat.mod_eq_of_lt (lt_of_lt_of_eq t.isLt cfgT_N))

theorem out3_first (c : Dev nD) (t : Fin (cfgT (F := F)).N) (h : t.val % 3 ≠ 2) :
    out3 V c t = outA (iblk V c 0 t) (iblk V c 1 t) (iblk V c 2 t) := by unfold out3; rw [if_neg h]
theorem out3_third (c : Dev nD) (t : Fin (cfgT (F := F)).N) (h : t.val % 3 = 2) :
    out3 V c t = outC (iblk V c 0 t) (iblk V c 1 (pt (t.val - 1))) (iblk V c 2 (pt (t.val - 1))) (iblk V c 1 t) (iblk V c 2 t) := by
  unfold out3; rw [if_pos h]

set_option maxHeartbeats 1000000 in
/-- The body at any point, by its step. -/
theorem sound_body (c : Dev nD) (t : Fin (cfgT (F := F)).N) :
    bodyPre V c t ⊢ wp frame (wpE (defs₀ (F := F)) Variants.none c none) Set.univ (bodyAt (F := F) t) (fun _ => bodyPost V c t) := by
  unfold bodyPre bodyPost bodyAt
  simp only [before_0, before_1, before_2]
  rw [show (dat V c).owesAt () t.succ = (dat V c).owesAt () t.castSucc from rfl,
    show (dat V c).Φ t.succ = Φs V c t.succ from rfl, show (dat V c).Φ t.castSucc = Φs V c t.castSucc from rfl,
    leaves_0, leaves_1, leaves_2]
  unfold Φs
  rw [tables_eq]
  have hlt := Nat.mod_lt t.val (by decide : 0 < 3)
  rcases (by omega : t.val % 3 = 0 ∨ t.val % 3 = 1 ∨ t.val % 3 = 2) with h | h | h
  · obtain ⟨hw1, hw3⟩ := words0 (F := F) t h (Memref.whole main_c) (Memref.isWhole_whole _) (Memref.whole main_c_0) (Memref.isWhole_whole _)
    rw [leaves_3_live V c t (by omega), out3_first V c t (by omega)]
    iintro ⟨⟨⟨Ht0, Ht1⟩, Hg, ⟨%s, H8, H9, H10, -⟩⟩, Ho, ⟨%d0, H0⟩, ⟨%d1, H1⟩, ⟨%d2, H2⟩, ⟨%d3, H3⟩⟩
    iapply (run_A (F := F) c Set.univ (grid0.coords t) _ _ _ _ _ _ _ _ _ _ _ _ _ _ _ _ _ _ tb0 tb1 fullShare (iblk V c 0 t) (iblk V c 1 t) (iblk V c 2 t) 0#32 0#32 hw1 hw3 cond_00.1 cond_00.2.1 cond_00.2.2 _)
    isplitl [Ht0]; · iexact Ht0
    isplitl [Ht1]; · iexact Ht1
    isplitl [H0]; · iexact H0
    isplitl [H1]; · iexact H1
    isplitl [H2]; · iexact H2
    isplitl [H3]; · iexists _; iexact H3
    isplitl [H8]; · iexists _; iexact H8
    isplitl [H9]; · iexists _; iexact H9
    isplitl [H10]; · iexists _; iexact H10
    iintro ⟨Ht0, Ht1, H0, H1, H2, H3, H8, H9, H10⟩
    isplitl [Ht0 Ht1 Hg H8 H9 H10]
    · isplitl [Ht0 Ht1]
      · isplitl [Ht0]; · iexact Ht0
        iexact Ht1
      isplitl [Hg]; · iexact Hg
      iexists _
      isplitl [H8]; · iexact H8
      isplitl [H9]; · iexact H9
      isplitl [H10]; · iexact H10
      ipureintro
      intro h'; exfalso; rw [Fin.val_succ] at h'; omega
    isplitl [Ho]; · iexact Ho
    isplitl [H0]; · iexact H0
    isplitl [H1]; · iexact H1
    isplitl [H2]; · iexact H2
    iexact H3
  · obtain ⟨hw1, hw3⟩ := words1 (F := F) t h (Memref.whole main_c) (Memref.isWhole_whole _) (Memref.whole main_c_0) (Memref.isWhole_whole _)
    rw [leaves_3_idle V c t h]
    iintro ⟨⟨⟨Ht0, Ht1⟩, Hg, ⟨%s, H8, H9, H10, -⟩⟩, Ho, ⟨%d0, H0⟩, ⟨%d1, H1⟩, ⟨%d2, H2⟩, ⟨%d3, H3⟩⟩
    iapply (run_B (F := F) c Set.univ (grid0.coords t) _ _ _ _ _ _ _ _ _ _ _ _ _ _ _ _ _ _ tb0 tb1 fullShare (iblk V c 0 t) (iblk V c 1 t) (iblk V c 2 t) ((dat V c).before 3 t d3) 1#32 0#32 hw1 hw3 cond_10.1 cond_10.2.1 cond_10.2.2 _)
    isplitl [Ht0]; · iexact Ht0
    isplitl [Ht1]; · iexact Ht1
    isplitl [H0]; · iexact H0
    isplitl [H1]; · iexact H1
    isplitl [H2]; · iexact H2
    isplitl [H3]; · iexact H3
    isplitl [H8]; · iexists _; iexact H8
    isplitl [H9]; · iexists _; iexact H9
    isplitl [H10]; · iexists _; iexact H10
    iintro ⟨Ht0, Ht1, H0, H1, H2, H3, H8, H9, H10⟩
    isplitl [Ht0 Ht1 Hg H8 H9 H10]
    · isplitl [Ht0 Ht1]
      · isplitl [Ht0]; · iexact Ht0
        iexact Ht1
      isplitl [Hg]; · iexact Hg
      iexists _
      isplitl [H8]; · iexact H8
      isplitl [H9]; · iexact H9
      isplitl [H10]; · iexact H10
      ipureintro
      intro _; rw [Fin.val_succ, Nat.add_sub_cancel, pt_val]
    isplitl [Ho]; · iexact Ho
    isplitl [H0]; · iexact H0
    isplitl [H1]; · iexact H1
    isplitl [H2]; · iexact H2
    iexists _; iexact H3
  · obtain ⟨hw1, hw3⟩ := words2 (F := F) t h (Memref.whole main_c) (Memref.isWhole_whole _) (Memref.whole main_c_0) (Memref.isWhole_whole _)
    rw [leaves_3_live V c t (by omega), out3_third V c t h]
    iintro ⟨⟨⟨Ht0, Ht1⟩, Hg, ⟨%s, H8, H9, H10, %hs⟩⟩, Ho, ⟨%d0, H0⟩, ⟨%d1, H1⟩, ⟨%d2, H2⟩, ⟨%d3, H3⟩⟩
    have hs' := hs (by rw [Fin.coe_castSucc]; exact h)
    rw [Fin.coe_castSucc, iblk0_prev V c t h] at hs'
    subst hs'
    iapply (run_C (F := F) c Set.univ (grid0.coords t) _ _ _ _ _ _ _ _ _ _ _ _ _ _ _ _ _ _ tb0 tb1 fullShare (iblk V c 0 t) (iblk V c 1 t) (iblk V c 2 t) _ 1#32 1#32 hw1 hw3 cond_11.1 cond_11.2.1 cond_11.2.2 _)
    isplitl [Ht0]; · iexact Ht0
    isplitl [Ht1]; · iexact Ht1
    isplitl [H0]; · iexact H0
    isplitl [H1]; · iexact H1
    isplitl [H2]; · iexact H2
    isplitl [H3]; · iexists _; iexact H3
    isplitl [H8]; · iexact H8
    isplitl [H9]; · iexact H9
    isplitl [H10]; · iexact H10
    iintro ⟨Ht0, Ht1, H0, H1, H2, H3, H8, H9, H10⟩
    isplitl [Ht0 Ht1 Hg H8 H9 H10]
    · isplitl [Ht0 Ht1]
      · isplitl [Ht0]; · iexact Ht0
        iexact Ht1
      isplitl [Hg]; · iexact Hg
      iexists _
      isplitl [H8]; · iexact H8
      isplitl [H9]; · iexact H9
      isplitl [H10]; · iexact H10
      ipureintro
      intro h'; exfalso; rw [Fin.val_succ] at h'; omega
    isplitl [Ho]; · iexact Ho
    isplitl [H0]; · iexact H0
    isplitl [H1]; · iexact H1
    isplitl [H2]; · iexact H2
    iexact H3

/-- The library's body obligation, at every point. -/
theorem body_obligation (c : Dev nD) : BodyObligation (dat (F := F) V c) (defs₀ (F := F)) Variants.none () Set.univ := fun t => by
  rw [bigSep_W0, bigSep_W0]
  exact sound_body V c t

end Body

end Cert.Kernel.Hand

end
-- ==== Proof.KRun.lean ====
/-
  For the program as printed: the same text as for the idealized program, over the printed program's names.
  The launch. @main is three segments: five host operations (the two literal tables, the three arguments reshaped
  into the windows' arrays), the one pipelined region, three host operations (the output array reshaped, transposed
  and reshaped into the result). The buffer contents at each boundary are a fold from the launch memory: a host
  stretch's `StableHlo.after`, and at the region's exit the windows' arrays at what the pipeline leaves with every
  other buffer as entered. The thread state between segments is every unscoped buffer at the boundary's contents, the
  generator register at some state, and nothing owed. At the region's entry the two tables are split out of the
  unscoped buffers at the literal contents the host wrote and enter the invariant with the generator register and
  the three scratch buffers (the invariant's pure conjunct is vacuous before point 0); at the last point they come
  back (96 is no third point of a head) and rejoin the unscoped buffers. The body obligation is a hypothesis.
  The conclusion: every weakly fair execution terminates, nothing faulting; the result buffer ends at the last
  boundary's contents `W3`, and the three arguments as launched (no operation and no window writes one).
-/
import proofs.«141465_j40630390620348_2_alg».proof.Proof.KData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main -/

/-- Core `c`'s buffers at launch. -/
abbrev W0 : Dev nD → Valuation τ sig (Elt F) := fun c b => (s₀ m ρ).mem ((c : Dev nD), b)
/-- After the first five host operations (the region's entry). -/
abbrev W1 : Dev nD → Valuation τ sig (Elt F) := fun c => StableHlo.after hostOps0 (W0 m ρ c)
/-- The same read at the TensorCore's references (what the region's proof data take). -/
abbrev V1 : (c : Dev nD) → (b : Ref sig .tc) → Buf (Elt F) ((c : Thread nD τ).loc b) := fun c b => W1 m ρ c b
/-- At the region's exit: its arrays at what the pipeline leaves (the inputs as entered, the output's write-backs
    folded), every other buffer as entered. -/
def W2 (c : Dev nD) : Valuation τ sig (Elt F) :=
  Pipeline.withArrays spec0 c (W1 m ρ c) fun w => (dat (F := F) (V1 m ρ) c).arrAt w (cfgT (F := F)).N
theorem W2_arr (c : Dev nD) (w : Fin (cfgT (F := F)).W) :
    W2 m ρ c (Proc.devRef .tc (Pipeline.arrRef spec0 w)) = (dat (F := F) (V1 m ρ) c).arrAt w (cfgT (F := F)).N := by
  unfold W2; exact Pipeline.withArrays_arr spec0 (launch0 (F := F)).win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (the region's exit contents). -/
abbrev runV2 : (c : Dev nD) → (b : Ref sig .tc) → Buf (Elt F) ((c : Thread nD τ).loc b) := fun c b => W2 m ρ c b
theorem run_hF (c : Dev nD) (w : Fin (cfgT (F := F)).W) :
    (dat (F := F) (V1 m ρ) c).arrAt w (cfgT (F := F)).N = runV2 m ρ c (Pipeline.arrRef spec0 w) :=
  (W2_arr m ρ c w).symm
theorem run_hrest (c : Dev nD) : ∀ b, b ∉ Finset.univ.image (Pipeline.arrRef spec0) → runV2 m ρ c b = V1 m ρ c b :=
  fun b hb => W2_of_ne m ρ c b fun w e => hb (Finset.mem_image.mpr ⟨w, Finset.mem_univ _, e⟩)
/-- After the last three host operations (what the launch reads at the end). -/
abbrev W3 : Dev nD → Valuation τ sig (Elt F) := fun c => StableHlo.after hostOps1 (W2 m ρ c)

/-! ### The tables at the region's entry are the literal ones -/

theorem W1_main_c (c : Dev nD) : W1 m ρ c (Proc.devRef .tc main_c) = tbl (F := F) 0 := by
  show StableHlo.after hostOps0 (W0 m ρ c) (Proc.devRef .tc main_c) = _
  after_results
  rfl
theorem W1_main_c_0 (c : Dev nD) : W1 m ρ c (Proc.devRef .tc main_c_0) = tbl (F := F) 1 := by
  show StableHlo.after hostOps0 (W0 m ρ c) (Proc.devRef .tc main_c_0) = _
  after_results
  rfl
theorem V1_tbl (c : Dev nD) : (fun k => V1 m ρ c (pre0.ref k)) = tbl (F := F) := by
  funext k
  match k with
  | ⟨0, _⟩ => exact W1_main_c m ρ c
  | ⟨1, _⟩ => exact W1_main_c_0 m ρ c

/-! ### The arguments end as launched: no host operation writes one, and none is a window's array -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.reshape_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.reshape_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.reshape_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.reshape_writes, Finset.mem_singleton]
          repeat' apply And.intro
          all_goals exact StableHlo.devRef_ne_of_ne (by decide)))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.reshape_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.reshape_writes, Finset.mem_singleton]
          repeat' apply And.intro
          all_goals exact StableHlo.devRef_ne_of_ne (by decide)))
    _ = m ((c : Thread nD τ).loc main_arg2) := rfl

/-! ## The proof data family and the thread state -/

/-- The one pipeline's proof data, at the region's entry contents — a literal `match`, so that the pipeline pinned at
    the literal tables at a numeral reduces to `cfgT`. -/
def runPdats : (p : Fin 1) → (c : Dev nD) → Dat τ (Elt F) Unit ℕ (UR sig nD τ) ℕ (Pipeline.pin (pcfgs (F := F)) adm p) c
  | ⟨0, _⟩ => fun c => dat (F := F) (V1 m ρ) c
abbrev run𝒱 : Variants := Variants.none
/-- No core owes another anything: no level is assigned. -/
abbrev runL : GSem nD τ sig → Finset Unit := fun _ => ∅
abbrev runLv : GSem nD τ sig → Unit → ℕ := fun _ _ => 0
/-- What rides beside the buffers through every segment: the core's generator register at some state and its
    `owes`, at nothing. -/
abbrev runR (c : Dev nD) : sProp 𝕄 := iprop((∃ r, prngReg c r) ∗ ∃ W, owes (c : Thread nD τ) (0 : CellTallies nD τ sig Unit) W)
/-- A host stretch as a segment: over the unscoped references from the contents `W`, `runR` riding along; it ends with
    those references at `StableHlo.after ops (W c)`. -/
abbrev runHseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ run𝒱 runL runLv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W runR

/-- No operation of the first stretch allocates a buffer. -/
theorem run_hostOps0_fresh : (hostOps0 : List (HloOp τ sig (Elt F))).Forall fun op => op.fresh = ∅ := by
  simp only [List.Forall]; repeat' constructor
/-- No operation of the last stretch allocates a buffer. -/
theorem run_hostOps1_fresh : (hostOps1 : List (HloOp τ sig (Elt F))).Forall fun op => op.fresh = ∅ := by
  simp only [List.Forall]; repeat' constructor
/-- An unscoped TensorCore reference is among those the thread state holds. -/
theorem run_mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W3`, the
    generator register at some state. -/
abbrev runTₙ (c : Dev nD) : sProp 𝕄 := iprop(StableHlo.held (c : Thread nD τ) (Pipeline.ucRefs τ sig) (W3 m ρ c) ∗ ∃ r, prngReg c r)

/-! ## The region as a segment -/

variable (hbody : ∀ c, BodyObligationLoose (dat (F := F) (V1 m ρ) c) (defs₀ (F := F)) Variants.none () Set.univ)

set_option backward.isDefEq.respectTransparency.types false in
/-- The region over the thread state: entered from every unscoped buffer at `W1`, left at `W2`. Its arrays and the two
    tables split out of the unscoped buffers — the tables at the literal contents the host wrote — and put back at the
    exit contents; the generator register, the tables and the three scratch buffers into the invariant and out; nothing
    owed; no semaphore of the kernel's own. -/
def runReg : Pipeline.RegionSeg (pcfgs (F := F)) adm (runPdats m ρ) () defs₀ run𝒱 runL runLv 0 where
  win := (launch0 (F := F)).win.to₀
  block_pos := (launch0 (F := F)).block_pos
  stage_whole := (launch0 (F := F)).stage_whole
  K := PEmpty
  osem k := k.elim
  ho := Pipeline.OwnSemFacts.none _
  hbody c := hbody c
  hwaits := Pipeline.hwaits_of_owed_zero _ _ _ _ runL runLv 0 fun _ _ => rfl
  pre c := iprop(StableHlo.held (c : Thread nD τ) (Pipeline.ucRefs τ sig) (W1 m ρ c) ∗ runR c)
  post c := iprop(StableHlo.held (c : Thread nD τ) (Pipeline.ucRefs τ sig) (W2 m ρ c) ∗ runR c)
  X c := iprop(∃ r, prngReg c r)
  Y c := iprop(Pipeline.prefHeld pre0 c (fun _ => fullShare) (tbl (F := F)) ∗ ∃ r, prngReg c r)
  Z c := Pipeline.unscopedRestP (Ix := Unit) (Name := ℕ) (U := UR sig nD τ) (Lvl := ℕ) pre0 spec0 c (V1 m ρ c)
  hentry c := by
    rw [Pipeline.ownSems0_none]
    have hsplit := Pipeline.arrays_of_unscopedBufs (p := 0) (pcfgs (F := F)) adm (runPdats m ρ) (launch0 (F := F)).win (launch0 (F := F)).arr_whole c
      ((runPdats m ρ 0 c).share_full fun _ => rfl) (V1 m ρ c) fun _ => rfl
    rw [Pipeline.unscopedBufs_held, Pipeline.unscopedRest_split (launch0 (F := F)).pre, V1_tbl] at hsplit
    iintro ⟨⟨Hub, Hp, HO⟩, -, -⟩
    ihave H := hsplit $$ Hub
    icases H with ⟨Ha, Htb, Hrest⟩
    imodintro
    isplitl [Ha]; · iexact Ha
    isplitl [Htb]; · iexact Htb
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (runPdats m ρ 0 c).Φ 0 = Φs (F := F) (V1 m ρ) c 0 from rfl]
    unfold Φs
    rw [scopedRest0_eq]
    simp only [owns_whole]
    iintro ⟨Hp, Htb, ⟨%f0, H0⟩, ⟨%f1, H1⟩, ⟨%f2, H2⟩⟩
    isplitl [Htb]; · iexact Htb
    isplitl [Hp]; · iexact Hp
    iexists (⟨f0, f1, f2⟩ : Scr F)
    isplitl [H0]; · iexact H0
    isplitl [H1]; · iexact H1
    isplitl [H2]; · iexact H2
    ipureintro
    intro h
    rw [Fin.val_zero] at h
    exact absurd h (by decide)
  hout c := by
    rw [Pipeline.ownSems0_none, show (runPdats m ρ 0 c).Φ (Fin.last _) = Φs (F := F) (V1 m ρ) c (Fin.last _) from rfl]
    unfold Φs
    rw [scopedRest0_eq]
    simp only [owns_whole]
    iintro ⟨Htb, Hp, ⟨%s, H0, H1, H2, -⟩⟩
    isplitl [Htb Hp]
    · isplitl [Htb]; · iexact Htb
      iexact Hp
    isplitr; · iempintro
    isplitl [H0]; · iexists _; iexact H0
    isplitl [H1]; · iexists _; iexact H1
    iexists _; iexact H2
  hexit c := by
    have hjoin := Pipeline.unscopedBufs_of_arrays (p := 0) (pcfgs (F := F)) adm (Ix := Unit) (Name := ℕ) (U := UR sig nD τ) (Lvl := ℕ)
      (launch0 (F := F)).win (launch0 (F := F)).arr_whole c (runPdats m ρ) ((runPdats m ρ 0 c).share_full fun _ => rfl)
      (V1 m ρ c) (runV2 m ρ c) ((runPdats m ρ 0 c).arrAt · (cfgT (F := F)).N) (run_hF m ρ c) (run_hrest m ρ c)
    rw [Pipeline.unscopedBufs_held, Pipeline.unscopedRest_split (launch0 (F := F)).pre, V1_tbl] at hjoin
    iintro ⟨Ha, HO, ⟨Htb, Hp⟩, Hrest⟩
    imodintro
    isplitl [Ha Htb Hrest]
    · iapply hjoin
      isplitl [Ha]; · iexact Ha
      isplitl [Htb]; · iexact Htb
      iexact Hrest
    isplitl [Hp]; · iexact Hp
    unfold Pipeline.Dat.owesAt Pipeline.owesWithin
    icases HO with ⟨%W, -, HO⟩; iexists W; iexact HO

/-! ## @main as segments, and the launch -/

/-- @main's three segments in order: the first host stretch from the launch contents, the region, the last host
    stretch from the region's exit contents. -/
abbrev runSegs : List (Pipeline.Seg (pcfgs (F := F)) adm (runPdats m ρ) () defs₀ run𝒱 runL runLv) :=
  [ .host (runHseg hostOps0 hostOps0_sub run_hostOps0_fresh (W0 m ρ)),
    .region (runReg m ρ hbody),
    .host (runHseg hostOps1 hostOps1_sub run_hostOps1_fresh (W2 m ρ)) ]
/-- @main is the run of the segments. -/
theorem run_main (c : Dev nD) : main (F := F) c = Pipeline.Seg.run (runSegs m ρ hbody) := (main_chain c).trans (by chain_rfl)

/-- The last link of the chain: the last host stretch ends with every unscoped buffer at `W3` beside the generator
    register and the `owes`, which is the last thread state beside the core owing nothing. -/
theorem run_last_link (c : Dev nD) :
    iprop(StableHlo.held (c : Thread nD τ) (Pipeline.ucRefs τ sig) (W3 m ρ c) ∗ runR (F := F) c)
      ⊢ iprop(runTₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

set_option backward.isDefEq.respectTransparency.types false in
/-- The launch, given the body obligation: at the compiled mesh, from any memory with zero counters, every weakly fair
    execution of @main on the TensorCores terminates, nothing faulting, and every final state holds the result at the
    last boundary's contents and the three arguments as launched. -/
theorem run_of_body (hbody : ∀ c, BodyObligationLoose (dat (F := F) (V1 m ρ) c) (defs₀ (F := F)) Variants.none () Set.univ) :
    θ_run defs (onTc (τ := τ) (main (F := F))) ⟨m, fun _ => 0, ρ⟩ (fun r => ∀ c : Dev nD,
      r.2.mem ((c.tc : Thread nD τ).loc main_v6) = W3 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (runPdats m ρ) () (cellOf_inj adm) emb₁ defs₀ run𝒱 runL runLv m ρ main (runSegs m ρ hbody)
    (fun c Q => by rw [run_main m ρ hbody c])
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) adm) (cellOf_inj adm)) (Pipeline.launchToks (Pipeline.pin (pcfgs (F := F)) adm) (cellOf_inj adm)))
    (hu₀ := by
      iintro Hu; imodintro
      isplitl [Hu]
      · iapply (show (ownU (initOf (Pipeline.cells (Pipeline.pin (pcfgs (F := F)) adm) (cellOf_inj adm)) (Pipeline.launchToks (Pipeline.pin (pcfgs (F := F)) adm) (cellOf_inj adm))) : sProp 𝕄)
            ⊢ BI.own (emb₁ (initOf (Pipeline.cells (Pipeline.pin (pcfgs (F := F)) adm) (cellOf_inj adm)) (Pipeline.launchToks (Pipeline.pin (pcfgs (F := F)) adm) (cellOf_inj adm)))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ runR c)) (Tₙ := runTₙ m ρ)
    (hch := ⟨fun _ => .rfl, fun _ => .rfl, fun _ => .rfl, fun c => run_last_link m ρ c⟩)
    (hinit := by
      refine Pipeline.initEach runL runLv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (run_mem_uc main_v6 (by decide)),
       (h c _ (run_mem_uc main_arg0 (by decide))).trans (W3_main_arg0 m ρ c),
       (h c _ (run_mem_uc main_arg1 (by decide))).trans (W3_main_arg1 m ρ c),
       (h c _ (run_mem_uc main_arg2 (by decide))).trans (W3_main_arg2 m ρ c)⟩)

end Cert.Kernel.Hand

end
-- ==== Proof.Spec.lean ====
/-
  Causal attention on one head, row by row, on the extended reals: the two arrangements of the same
  computation that the certificate compares.

  A query row `x` meets key rows `K k` in scaled scores; a row's scores are masked to the keys at or before it,
  exponentiated against their maximum, normalised by their sum and used as weights of the value rows.
  `ref` does this over all 2048 keys at once (scores divided by `dR` and doubled). `kerA` / `kerC` do it block by
  block of 1024 keys with a running maximum `m`, a running sum `l` and a running weighted sum `acc`, each
  rescaled by `exp (m - m')` when the maximum moves (`step`), scores scaled by `cK`, and divide at the end (`fin`).
-/
import Idealize.ShloMosaic.PureOps.Ideal

noncomputable section

namespace Cert.Spec

open Idealize.ShloMosaic

/-- The blockwise side's scale, the rational 2^20 / 11863283. -/
def cK : EReal := ((1048576 / 11863283 : ℝ) : EReal)
/-- The whole-row side's divisor 11863283 / 2^19 and its factor 2: together the same scale, `2 / dR = cK`. -/
def dR : EReal := ((11863283 / 524288 : ℝ) : EReal)
def two : EReal := ((2 : ℝ) : EReal)

/-- The inner product of a query row and a key row over the 128 features. -/
def dot128 (x y : Fin 128 → EReal) : EReal := ∑ d : Fin 128, x d * y d

/-- A row's running state: the maximum so far, the sum of exponentials against it, the weighted sum of value rows. -/
structure St where
  m : EReal
  l : EReal
  acc : Fin 128 → EReal

/-- Before any key: maximum `-∞`, sums zero. -/
def init : St := ⟨⊥, 0, fun _ => 0⟩

variable {ι : Type} [Fintype ι]

/-- One block of keys: scores `z`, value rows `v`. The maximum moves to `m'`; what was accumulated against the old
    maximum is rescaled by `exp (m - m')`, and the block's exponentials against `m'` are added. -/
def step (z : ι → EReal) (v : ι → Fin 128 → EReal) (s : St) : St :=
  let m' := max s.m (Finset.univ.fold max ⊥ z)
  let a := Ideal.exp (s.m - m')
  ⟨m', a * s.l + ∑ k, Ideal.exp (z k - m'), fun d => a * s.acc d + ∑ k, Ideal.exp (z k - m') * v k d⟩

/-- The row's result: the weighted sum over the sum of weights. -/
def fin (s : St) (d : Fin 128) : EReal := Ideal.div (s.acc d) s.l

/-- Key `k` of the first block of 1024 as a key of the row of 2048, and of the second. -/
def lo (k : Fin 1024) : Fin 2048 := ⟨k.val, by omega⟩
def hi (k : Fin 1024) : Fin 2048 := ⟨1024 + k.val, by omega⟩

/-- A query row of the FIRST 1024 (row `r`): one block, the keys at or before `r`. -/
def kerA (x : Fin 128 → EReal) (K0 V0 : Fin 1024 → Fin 128 → EReal) (r : Fin 1024) (d : Fin 128) : EReal :=
  fin (step (fun k : Fin 1024 => if k ≤ r then dot128 x (K0 k) * cK else ⊥) V0 init) d

/-- A query row of the SECOND 1024 (row `1024 + r`): the whole first block of keys, then the second block's keys at or
    before it. -/
def kerC (x : Fin 128 → EReal) (K0 V0 K1 V1 : Fin 1024 → Fin 128 → EReal) (r : Fin 1024) (d : Fin 128) : EReal :=
  fin (step (fun k : Fin 1024 => if k ≤ r then dot128 x (K1 k) * cK else ⊥) V1
    (step (fun k : Fin 1024 => dot128 x (K0 k) * cK) V0 init)) d

/-- Query row `s` against all 2048 keys at once: masked scores, their maximum, the exponentials, their sum, the
    normalised weights against the value rows. -/
def ref (x : Fin 128 → EReal) (K V : Fin 2048 → Fin 128 → EReal) (s : Fin 2048) (d : Fin 128) : EReal :=
  let z : Fin 2048 → EReal := fun k => if k ≤ s then Ideal.div (dot128 x (K k)) dR * two else ⊥
  let M := max ⊥ (Finset.univ.fold max ⊥ z)
  let e : Fin 2048 → EReal := fun k => Ideal.exp (z k - M)
  ∑ k, Ideal.div (e k) (∑ k', e k') * V k d

end Cert.Spec

end
-- ==== Proof.RefValue.lean ====
/-
  The reference's result, read at one index.

  The reference computes, for every head `(b, h)` and query row `s`, the scores of row `s` against all 2048 key
  rows (an inner product over the 128 features, divided by `11863283 / 2^19` and doubled), replaces the scores of
  the keys after `s` by `-∞` (the lower-triangular mask: key `k` is kept exactly when `k ≤ s`), subtracts the
  row's maximum, exponentiates, divides by the row's sum and takes the weighted sum of the value rows; the
  `[2, 16, 2048, 128]` result is then transposed to `[2, 2048, 16, 128]` and its last two axes are merged.
  This module follows that computation operation by operation at the index `(b, h, s, ·)` and concludes that
  the final array at `(b, s, h * 128 + d)` is `Cert.Spec.ref` of row `s`, the keys and the values of head `(b, h)`,
  at feature `d` (`ref_at`).
-/
import proofs.«141465_j40630390620348_2_alg».proof.Proof.Gen.ReferenceIdeal.Read
import proofs.«141465_j40630390620348_2_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-! ## The three float constants -/

/-- The divisor's word denotes `11863283 / 2^19`. -/
theorem ofBits_dR : Ideal.ofBits .f32 0x41B504F3#32 = Cert.Spec.dR := by
  unfold Cert.Spec.dR
  simp [Ideal.ofBits, Ideal.ieee, -EReal.coe_mul]; norm_num

/-- The factor's word denotes `2`. -/
theorem ofBits_two : Ideal.ofBits .f32 0x40000000#32 = Cert.Spec.two := by
  unfold Cert.Spec.two
  simp [Ideal.ofBits, Ideal.ieee, -EReal.coe_mul]; norm_num

/-- The mask's fill word denotes `-∞`. -/
theorem ofBits_ninf : Ideal.ofBits .f32 0xFF800000#32 = (⊥ : EReal) := by
  simp [Ideal.ofBits, Ideal.ieee]

/-! ## Indices

The composed index functions of the reference's layout operations, at an index given by its coordinates. -/

/-- The input arrays, as functions of a rank-4 index. -/
abbrev Arr : Type := (⟨S2x16x2048x128, .f32⟩ : BufTy).Contents (Elt Ideal)

theorem lidx0_at (b : Fin 2) (h : Fin 16) (s k : Fin 2048) (i : Fin 128) :
    lidx_main_v0 (ix4 b h s k) i = ix4 b h s i :=
  funext fun a => Fin.ext (by match a with | ⟨0, _⟩ => rfl | ⟨1, _⟩ => rfl | ⟨2, _⟩ => rfl | ⟨3, _⟩ => rfl)

theorem ridx0_at (b : Fin 2) (h : Fin 16) (s k : Fin 2048) (i : Fin 128) :
    ridx_main_v0 (ix4 b h s k) i = ix4 b h k i :=
  funext fun a => Fin.ext (by match a with | ⟨0, _⟩ => rfl | ⟨1, _⟩ => rfl | ⟨2, _⟩ => rfl | ⟨3, _⟩ => rfl)

theorem idxMask_at (b : Fin 2) (h : Fin 16) (s k : Fin 2048) :
    idx_main_call1_v0 (ix4 b h s k) = ix2 s k :=
  funext fun a => Fin.ext (by match a with | ⟨0, _⟩ => rfl | ⟨1, _⟩ => rfl)

theorem idxRow12_at (b : Fin 2) (h : Fin 16) (s k : Fin 2048) :
    idx_main_v11 (idx_main_v12 (ix4 b h s k)) = ix3 b h s :=
  funext fun a => Fin.ext (by match a with | ⟨0, _⟩ => rfl | ⟨1, _⟩ => rfl | ⟨2, _⟩ => rfl)

theorem idxRow17_at (b : Fin 2) (h : Fin 16) (s k : Fin 2048) :
    idx_main_v16 (idx_main_v17 (ix4 b h s k)) = ix3 b h s :=
  funext fun a => Fin.ext (by match a with | ⟨0, _⟩ => rfl | ⟨1, _⟩ => rfl | ⟨2, _⟩ => rfl)

theorem idx15_at (b : Fin 2) (h : Fin 16) (s k : Fin 2048) :
    idx_main_v15 (ix3 b h s) k = ix4 b h s k :=
  funext fun a => Fin.ext (by match a with | ⟨0, _⟩ => rfl | ⟨1, _⟩ => rfl | ⟨2, _⟩ => rfl | ⟨3, _⟩ => rfl)

theorem lidx19_at (b : Fin 2) (h : Fin 16) (s : Fin 2048) (d : Fin 128) (k : Fin 2048) :
    lidx_main_v19 (ix4 b h s d) k = ix4 b h s k :=
  funext fun a => Fin.ext (by match a with | ⟨0, _⟩ => rfl | ⟨1, _⟩ => rfl | ⟨2, _⟩ => rfl | ⟨3, _⟩ => rfl)

theorem ridx19_at (b : Fin 2) (h : Fin 16) (s : Fin 2048) (d : Fin 128) (k : Fin 2048) :
    ridx_main_v19 (ix4 b h s d) k = ix4 b h k d :=
  funext fun a => Fin.ext (by match a with | ⟨0, _⟩ => rfl | ⟨1, _⟩ => rfl | ⟨2, _⟩ => rfl | ⟨3, _⟩ => rfl)

theorem idx20_at (b : Fin 2) (s : Fin 2048) (h : Fin 16) (d : Fin 128) :
    idx_main_v20 (ix4 b s h d) = ix4 b h s d :=
  funext fun a => Fin.ext (by match a with | ⟨0, _⟩ => rfl | ⟨1, _⟩ => rfl | ⟨2, _⟩ => rfl | ⟨3, _⟩ => rfl)

/-- Column `h * 128 + d` of row `(b, s)` of the result is element `(b, s, h, d)` before the reshape:
    the row-major position `(b * 2048 + s) * 2048 + (h * 128 + d)` splits back into those four coordinates. -/
theorem idx21_at (b : Fin 2) (h : Fin 16) (s : Fin 2048) (d : Fin 128) :
    idx_main_v21 (ix3 b s (⟨h.val * 128 + d.val, by omega⟩ : Fin 2048)) = ix4 b s h d :=
  funext fun a => Fin.ext (by
    have hb := b.isLt; have hh := h.isLt; have hs := s.isLt; have hd := d.isLt
    match a with
    | ⟨0, _⟩ => show ((b.val * 2048 + s.val) * 2048 + (h.val * 128 + d.val)) / 4194304 = b.val; omega
    | ⟨1, _⟩ => show ((b.val * 2048 + s.val) * 2048 + (h.val * 128 + d.val)) / 2048 % 2048 = s.val; omega
    | ⟨2, _⟩ => show ((b.val * 2048 + s.val) * 2048 + (h.val * 128 + d.val)) / 128 % 16 = h.val; omega
    | ⟨3, _⟩ => show ((b.val * 2048 + s.val) * 2048 + (h.val * 128 + d.val)) % 128 = d.val; omega)

/-! ## The row of masked scores -/

/-- Query row `x` against the key rows `K`: the scaled scores of the keys at or before `s`, `-∞` after. -/
def zrow (x : Fin 128 → EReal) (K : Fin 2048 → Fin 128 → EReal) (s : Fin 2048) : Fin 2048 → EReal :=
  fun k => if k ≤ s then Ideal.div (Cert.Spec.dot128 x (K k)) Cert.Spec.dR * Cert.Spec.two else ⊥

/-- The first contraction at `(b, h, s, k)`: query row `s` against key row `k` of head `(b, h)`. -/
theorem v0_at (a0 a1 : Arr) (b : Fin 2) (h : Fin 16) (s k : Fin 2048) :
    val_main_v0 (F := Ideal) a0 a1 (ix4 b h s k)
      = Cert.Spec.dot128 (fun i => a0 (ix4 b h s i)) (fun i => a1 (ix4 b h k i)) := by
  rw [val_main_v0_apply]
  show _ = ∑ i : Fin 128, a0 (ix4 b h s i) * a1 (ix4 b h k i)
  exact Finset.sum_congr rfl fun i _ => by rw [lidx0_at, ridx0_at]

/-- A signed comparison of two small naturals' words is the comparison of the naturals. -/
theorem sge_ofNat (m n : Nat) (hm : m < 2048) (hn : n < 2048) :
    IntOp.cmpi .sge (IntOp.addi (BitVec.ofNat 32 m) 0#32) (BitVec.ofNat 32 n) = 1#1 ↔ n ≤ m := by
  rw [IntOp.cmpi_sge]
  unfold IntOp.addi
  rw [BitVec.add_zero]
  have e1 : (BitVec.ofNat 32 m).toInt = (m : Int) := by
    rw [BitVec.toInt_eq_toNat_of_lt (by rw [BitVec.toNat_ofNat]; omega), BitVec.toNat_ofNat]
    exact congrArg Int.ofNat (Nat.mod_eq_of_lt (by omega))
  have e2 : (BitVec.ofNat 32 n).toInt = (n : Int) := by
    rw [BitVec.toInt_eq_toNat_of_lt (by rw [BitVec.toNat_ofNat]; omega), BitVec.toNat_ofNat]
    exact congrArg Int.ofNat (Nat.mod_eq_of_lt (by omega))
  rw [e1, e2]; omega

/-- The lower-triangular mask, broadcast over the heads, at `(b, h, s, k)`: set exactly when `k ≤ s`. -/
theorem mask_at (b : Fin 2) (h : Fin 16) (s k : Fin 2048) :
    val_main_call1_v0 (F := Ideal) (ix4 b h s k) = if k ≤ s then 1#1 else 0#1 := by
  rw [val_main_call1_v0_apply, idxMask_at, val_main_v6_apply, val_main_call0_v4_apply, val_main_call0_v2_apply,
    val_main_call0_v0_apply, val_main_call0_v1_apply, val_main_call0_c_apply, val_main_call0_v3_apply,
    val_main_v5_apply, val_main_c_apply, val_main_call0_v5_apply, val_main_call0_c_0_apply]
  show Scalar.select (IntOp.cmpi .sge (IntOp.addi (BitVec.ofNat 32 s.val) 0#32) (BitVec.ofNat 32 k.val)) (1#1 : BitVec 1) 0#1 = _
  unfold Scalar.select
  exact if_congr ((sge_ofNat s.val k.val s.isLt k.isLt).trans Fin.le_def.symm) rfl rfl

/-- The masked, scaled score at `(b, h, s, k)`. -/
theorem v7_at (a0 a1 : Arr) (b : Fin 2) (h : Fin 16) (s k : Fin 2048) :
    val_main_v7 (F := Ideal) a0 a1 (ix4 b h s k)
      = zrow (fun i => a0 (ix4 b h s i)) (fun k i => a1 (ix4 b h k i)) s k := by
  rw [val_main_v7_apply, mask_at, val_main_v4_apply, val_main_v2_apply, v0_at, val_main_v1_apply, val_main_cst_apply,
    val_main_v3_apply, val_main_cst_0_apply, val_main_call1_v1_apply, val_main_cst_1_apply]
  simp only [Ideal.ofBits_def, Ideal.hostDivf_def, Ideal.mulf_def, ofBits_dR, ofBits_two, ofBits_ninf]
  unfold zrow Scalar.select
  by_cases hk : k ≤ s
  · rw [if_pos hk, if_pos hk]; exact if_pos rfl
  · rw [if_neg hk, if_neg hk]; exact if_neg (by decide)

/-! ## The row maximum -/

/-- The reduced index `(b, h, s)` with key `k` put back on the dropped axis is `(b, h, s, k)`. -/
theorem lift_at (hR : S2x16x2048x2048.Reduces [3] S2x16x2048) (b : Fin 2) (h : Fin 16) (s : Fin 2048)
    (k : Fin (S2x16x2048x2048.size 3)) :
    hR.lift (ix3 b h s) k = ix4 b h s (⟨k.val, k.isLt⟩ : Fin 2048) := by
  funext c; apply Fin.ext
  match c with
  | ⟨0, _⟩ => rfl
  | ⟨1, _⟩ => rfl
  | ⟨2, _⟩ => rfl
  | ⟨3, _⟩ => rfl

/-- The reduction by maximum over the keys, from `-∞`, at `(b, h, s)`: the fold of the row of masked scores. -/
theorem v8_at (a0 a1 : Arr) (b : Fin 2) (h : Fin 16) (s : Fin 2048) :
    val_main_v8 (F := Ideal) a0 a1 (ix3 b h s)
      = Finset.univ.fold max ⊥ (zrow (fun i => a0 (ix4 b h s i)) (fun k i => a1 (ix4 b h k i)) s) := by
  unfold val_main_v8
  have hR : S2x16x2048x2048.Reduces [3] S2x16x2048 := by decide
  rw [Host.reduce_eq_fold_single FloatOps.maximumf _ _ reducesTo_S2x16x2048x2048_S2x16x2048_d3 hR h_S_,
    val_main_cst_2_apply, Ideal.ofBits_def, ofBits_ninf]
  have hf : (val_main_v7 (F := Ideal) a0 a1 ∘ hR.lift (ix3 b h s))
      = zrow (fun i => a0 (ix4 b h s i)) (fun k i => a1 (ix4 b h k i)) s :=
    funext fun k => by
      show val_main_v7 (F := Ideal) a0 a1 (hR.lift (ix3 b h s) k) = _
      rw [lift_at, v7_at]
      rfl
  exact congrArg (fun f => Finset.fold max (⊥ : EReal) f (Finset.univ : Finset (Fin 2048))) hf

/-- The row's maximum as the reference takes it: the larger of `-∞` and the fold. -/
def rowMax (x : Fin 128 → EReal) (K : Fin 2048 → Fin 128 → EReal) (s : Fin 2048) : EReal :=
  max ⊥ (Finset.univ.fold max ⊥ (zrow x K s))

theorem v10_at (a0 a1 : Arr) (b : Fin 2) (h : Fin 16) (s : Fin 2048) :
    val_main_v10 (F := Ideal) a0 a1 (ix3 b h s)
      = rowMax (fun i => a0 (ix4 b h s i)) (fun k i => a1 (ix4 b h k i)) s := by
  rw [val_main_v10_apply, val_main_v9_apply, val_main_cst_3_apply, v8_at]
  simp only [Ideal.ofBits_def, Ideal.maximumf_def, ofBits_ninf]
  rfl

/-! ## Exponentials, their sum, the weights -/

/-- The exponential of a masked score against the row's maximum. -/
def erow (x : Fin 128 → EReal) (K : Fin 2048 → Fin 128 → EReal) (s : Fin 2048) : Fin 2048 → EReal :=
  fun k => Ideal.exp (zrow x K s k - rowMax x K s)

theorem v14_at (a0 a1 : Arr) (b : Fin 2) (h : Fin 16) (s k : Fin 2048) :
    val_main_v14 (F := Ideal) a0 a1 (ix4 b h s k)
      = erow (fun i => a0 (ix4 b h s i)) (fun k i => a1 (ix4 b h k i)) s k := by
  rw [val_main_v14_apply, val_main_v13_apply, v7_at, val_main_v12_apply, val_main_v11_apply, idxRow12_at, v10_at]
  simp only [Ideal.hostUnary_exp_def, Ideal.subf_def]
  rfl

theorem v15_at (a0 a1 : Arr) (b : Fin 2) (h : Fin 16) (s : Fin 2048) :
    val_main_v15 (F := Ideal) a0 a1 (ix3 b h s)
      = ∑ k : Fin 2048, erow (fun i => a0 (ix4 b h s i)) (fun k i => a1 (ix4 b h k i)) s k := by
  rw [val_main_v15_apply, val_main_cst_4_apply, Ideal.ofBits_def, Ideal.ofBits_zero_f32, zero_add]
  exact Finset.sum_congr rfl fun k _ => by rw [idx15_at, v14_at]

theorem v18_at (a0 a1 : Arr) (b : Fin 2) (h : Fin 16) (s k : Fin 2048) :
    val_main_v18 (F := Ideal) a0 a1 (ix4 b h s k)
      = Ideal.div (erow (fun i => a0 (ix4 b h s i)) (fun k i => a1 (ix4 b h k i)) s k)
          (∑ k' : Fin 2048, erow (fun i => a0 (ix4 b h s i)) (fun k i => a1 (ix4 b h k i)) s k') := by
  rw [val_main_v18_apply, v14_at, val_main_v17_apply, val_main_v16_apply, idxRow17_at, v15_at]
  simp only [Ideal.hostDivf_def]

/-! ## The weighted sum of the value rows, and the layout of the result -/

theorem v19_at (a0 a1 a2 : Arr) (b : Fin 2) (h : Fin 16) (s : Fin 2048) (d : Fin 128) :
    val_main_v19 (F := Ideal) a0 a1 a2 (ix4 b h s d)
      = Cert.Spec.ref (fun i => a0 (ix4 b h s i)) (fun k i => a1 (ix4 b h k i)) (fun k i => a2 (ix4 b h k i)) s d := by
  rw [val_main_v19_apply]
  show _ = ∑ k : Fin 2048, Ideal.div (erow (fun i => a0 (ix4 b h s i)) (fun k i => a1 (ix4 b h k i)) s k)
      (∑ k' : Fin 2048, erow (fun i => a0 (ix4 b h s i)) (fun k i => a1 (ix4 b h k i)) s k') * a2 (ix4 b h k d)
  exact Finset.sum_congr rfl fun k _ => by rw [lidx19_at, ridx19_at, v18_at]

open Idealize.ShloMosaic ValueIdx in
/-- The reference's result at row `(b, s)`, column `h * 128 + d`: query row `s` of head `(b, h)` attended over that
    head's 2048 keys and values, feature `d`. The reshape reads element `(b, s, h, d)` of the transposed array,
    which is element `(b, h, s, d)` of the weighted sums. -/
theorem ref_at (a0 a1 a2 : (⟨Cert.ReferenceIdeal.S2x16x2048x128, .f32⟩ : BufTy).Contents (Elt Ideal))
    (b : Fin 2) (h : Fin 16) (s : Fin 2048) (d : Fin 128) :
    Cert.ReferenceIdeal.Read.val_main_v21 (F := Ideal) a0 a1 a2 (ValueIdx.ix3 b s ⟨h.val * 128 + d.val, by omega⟩)
      = Cert.Spec.ref (fun i => a0 (ValueIdx.ix4 b h s i)) (fun k i => a1 (ValueIdx.ix4 b h k i)) (fun k i => a2 (ValueIdx.ix4 b h k i)) s d := by
  rw [val_main_v21_apply, idx21_at, val_main_v20_apply, idx20_at, v19_at]

end Cert.ReferenceIdeal.RefValue

end
-- ==== Proof.Finite.lean ====
/-
  From the certificate's precondition to real entries.

  The precondition evaluates, on the three argument arrays, the conjunction over every entry `x` of the
  comparison `|x| < +∞` (the pattern `0x7F800000` denotes `+∞`), and says the result is the bit 1. A conjunction
  that is 1 has every conjunct 1, so each entry's absolute value `max x (-x)` lies strictly below `⊤`; an extended
  real with that property is neither `⊤` nor `⊥` (each has absolute value `⊤`), hence the image of a real number.
  Choosing that real entry by entry gives three real-valued arrays whose embeddings are the arguments.
-/
import proofs.«141465_j40630390620348_2_alg».proof.Defs
import proofs.«141465_j40630390620348_2_alg».proof.Proof.Gen.Pre_finite_inputs
import Idealize.ShloMosaic.Lib.ReduceAll
import Idealize.ShloMosaic.Lib.ValueIdx

noncomputable section

namespace Cert.KernelIdeal.Hand

open Idealize.ShloMosaic Idealize.SL.Sem

/-- The scalar shape has exactly one index. -/
instance fin_subsingleton_scalarIdx : Subsingleton Cert.Pre_finite_inputs.S_.Idx :=
  ⟨fun a b => funext fun d => d.elim0⟩

/-- The pattern `0x7F800000` (sign 0, exponent all ones, significand 0) denotes `+∞`. -/
theorem fin_inf_pattern : Ideal.ofBits .f32 0x7F800000#32 = (⊤ : EReal) := by
  simp [Ideal.ofBits, Ideal.ieee]

/-- An extended real whose absolute value `max x (-x)` is strictly below `+∞` is a real: at `⊥` and at `⊤` the
    absolute value is `⊤`. -/
theorem fin_real_of_abs_lt (x : EReal)
    (h : Ideal.cmp .olt (max x (-x)) (Ideal.ofBits .f32 0x7F800000#32) = 1#1) : ∃ r : ℝ, x = (r : EReal) := by
  rw [fin_inf_pattern] at h
  induction x using EReal.rec with
  | bot => simp [Ideal.cmp] at h
  | coe r => exact ⟨r, rfl⟩
  | top => simp [Ideal.cmp] at h

/-- One array: if the conjunction over all entries of `|x| < +∞` is 1, every entry is a real. -/
theorem fin_all_real [hP : Cert.Pre_finite_inputs.Facts]
    (X : FVec Ideal Cert.Pre_finite_inputs.S2x16x2048x128 .f32)
    (h : Host.reduce IntOp.andi
        (cmpf .olt (Host.absf X)
          (broadcastInDim Cert.Pre_finite_inputs.S2x16x2048x128 ![] hP.bcast_S_S2x16x2048x128
            (constant Cert.Pre_finite_inputs.S_ .f32 0x7F800000#32)))
        (constantI Cert.Pre_finite_inputs.S_ 1 1#1) hP.reducesTo_S2x16x2048x128_S_d0_1_2_3 hP.h_S_ ValueIdx.ix0 = 1#1)
    (i : Cert.Pre_finite_inputs.S2x16x2048x128.Idx) : ∃ r : ℝ, X i = (r : EReal) :=
  fin_real_of_abs_lt (X i) (Host.reduce_andi_all _ _ _ _ _ h i)

/-- Under the precondition the three arguments are embeddings of real-valued arrays. -/
theorem finite_of_pre [hP : Cert.Pre_finite_inputs.Facts] (m : (ℓ : Loc Cert.KernelIdeal.nD Cert.KernelIdeal.τ Cert.KernelIdeal.sig) → Buf (Elt Ideal) ℓ)
    (hpre : Cert.Pre_KernelIdeal m) (c : Dev Cert.KernelIdeal.nD) :
    ∃ (q k v : Cert.KernelIdeal.S2x16x2048x128.Idx → ℝ),
      m ((c.tc : Thread Cert.KernelIdeal.nD Cert.KernelIdeal.τ).loc Cert.KernelIdeal.main_arg0) = (fun i => ((q i : ℝ) : EReal))
      ∧ m ((c.tc : Thread Cert.KernelIdeal.nD Cert.KernelIdeal.τ).loc Cert.KernelIdeal.main_arg1) = (fun i => ((k i : ℝ) : EReal))
      ∧ m ((c.tc : Thread Cert.KernelIdeal.nD Cert.KernelIdeal.τ).loc Cert.KernelIdeal.main_arg2) = (fun i => ((v i : ℝ) : EReal)) := by
  have h := congrFun (hpre c) ValueIdx.ix0
  dsimp only [Cert.Pre_finite_inputs.fn] at h
  obtain ⟨h01, h2⟩ := IntOp.andi_eq_one.1 h
  obtain ⟨h0, h1⟩ := IntOp.andi_eq_one.1 h01
  choose q hq using fin_all_real _ h0
  choose k hk using fin_all_real _ h1
  choose v hv using fin_all_real _ h2
  exact ⟨q, k, v, funext hq, funext hk, funext hv⟩

end Cert.KernelIdeal.Hand
-- ==== Proof.Run.lean ====
/-
  The launch. @main is three segments: five host operations (the two literal tables, the three arguments reshaped
  into the windows' arrays), the one pipelined region, three host operations (the output array reshaped, transposed
  and reshaped into the result). The buffer contents at each boundary are a fold from the launch memory: a host
  stretch's `StableHlo.after`, and at the region's exit the windows' arrays at what the pipeline leaves with every
  other buffer as entered. The thread state between segments is every unscoped buffer at the boundary's contents, the
  generator register at some state, and nothing owed. At the region's entry the two tables are split out of the
  unscoped buffers at the literal contents the host wrote and enter the invariant with the generator register and
  the three scratch buffers (the invariant's pure conjunct is vacuous before point 0); at the last point they come
  back (96 is no third point of a head) and rejoin the unscoped buffers. The body obligation is a hypothesis.
  The conclusion: every weakly fair execution terminates, nothing faulting; the result buffer ends at the last
  boundary's contents `W3`, and the three arguments as launched (no operation and no window writes one).
-/
import proofs.«141465_j40630390620348_2_alg».proof.Proof.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main -/

/-- Core `c`'s buffers at launch. -/
abbrev W0 : Dev nD → Valuation τ sig (Elt F) := fun c b => (s₀ m ρ).mem ((c : Dev nD), b)
/-- After the first five host operations (the region's entry). -/
abbrev W1 : Dev nD → Valuation τ sig (Elt F) := fun c => StableHlo.after hostOps0 (W0 m ρ c)
/-- The same read at the TensorCore's references (what the region's proof data take). -/
abbrev V1 : (c : Dev nD) → (b : Ref sig .tc) → Buf (Elt F) ((c : Thread nD τ).loc b) := fun c b => W1 m ρ c b
/-- At the region's exit: its arrays at what the pipeline leaves (the inputs as entered, the output's write-backs
    folded), every other buffer as entered. -/
def W2 (c : Dev nD) : Valuation τ sig (Elt F) :=
  Pipeline.withArrays spec0 c (W1 m ρ c) fun w => (dat (F := F) (V1 m ρ) c).arrAt w (cfgT (F := F)).N
theorem W2_arr (c : Dev nD) (w : Fin (cfgT (F := F)).W) :
    W2 m ρ c (Proc.devRef .tc (Pipeline.arrRef spec0 w)) = (dat (F := F) (V1 m ρ) c).arrAt w (cfgT (F := F)).N := by
  unfold W2; exact Pipeline.withArrays_arr spec0 (launch0 (F := F)).win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (the region's exit contents). -/
abbrev runV2 : (c : Dev nD) → (b : Ref sig .tc) → Buf (Elt F) ((c : Thread nD τ).loc b) := fun c b => W2 m ρ c b
theorem run_hF (c : Dev nD) (w : Fin (cfgT (F := F)).W) :
    (dat (F := F) (V1 m ρ) c).arrAt w (cfgT (F := F)).N = runV2 m ρ c (Pipeline.arrRef spec0 w) :=
  (W2_arr m ρ c w).symm
theorem run_hrest (c : Dev nD) : ∀ b, b ∉ Finset.univ.image (Pipeline.arrRef spec0) → runV2 m ρ c b = V1 m ρ c b :=
  fun b hb => W2_of_ne m ρ c b fun w e => hb (Finset.mem_image.mpr ⟨w, Finset.mem_univ _, e⟩)
/-- After the last three host operations (what the launch reads at the end). -/
abbrev W3 : Dev nD → Valuation τ sig (Elt F) := fun c => StableHlo.after hostOps1 (W2 m ρ c)

/-! ### The tables at the region's entry are the literal ones -/

theorem W1_main_c (c : Dev nD) : W1 m ρ c (Proc.devRef .tc main_c) = tbl (F := F) 0 := by
  show StableHlo.after hostOps0 (W0 m ρ c) (Proc.devRef .tc main_c) = _
  after_results
  rfl
theorem W1_main_c_0 (c : Dev nD) : W1 m ρ c (Proc.devRef .tc main_c_0) = tbl (F := F) 1 := by
  show StableHlo.after hostOps0 (W0 m ρ c) (Proc.devRef .tc main_c_0) = _
  after_results
  rfl
theorem V1_tbl (c : Dev nD) : (fun k => V1 m ρ c (pre0.ref k)) = tbl (F := F) := by
  funext k
  match k with
  | ⟨0, _⟩ => exact W1_main_c m ρ c
  | ⟨1, _⟩ => exact W1_main_c_0 m ρ c

/-! ### The arguments end as launched: no host operation writes one, and none is a window's array -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.reshape_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.reshape_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.reshape_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.reshape_writes, Finset.mem_singleton]
          repeat' apply And.intro
          all_goals exact StableHlo.devRef_ne_of_ne (by decide)))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.reshape_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.reshape_writes, Finset.mem_singleton]
          repeat' apply And.intro
          all_goals exact StableHlo.devRef_ne_of_ne (by decide)))
    _ = m ((c : Thread nD τ).loc main_arg2) := rfl

/-! ## The proof data family and the thread state -/

/-- The one pipeline's proof data, at the region's entry contents — a literal `match`, so that the pipeline pinned at
    the literal tables at a numeral reduces to `cfgT`. -/
def runPdats : (p : Fin 1) → (c : Dev nD) → Dat τ (Elt F) Unit ℕ (UR sig nD τ) ℕ (Pipeline.pin (pcfgs (F := F)) adm p) c
  | ⟨0, _⟩ => fun c => dat (F := F) (V1 m ρ) c
abbrev run𝒱 : Variants := Variants.none
/-- No core owes another anything: no level is assigned. -/
abbrev runL : GSem nD τ sig → Finset Unit := fun _ => ∅
abbrev runLv : GSem nD τ sig → Unit → ℕ := fun _ _ => 0
/-- What rides beside the buffers through every segment: the core's generator register at some state and its
    `owes`, at nothing. -/
abbrev runR (c : Dev nD) : sProp 𝕄 := iprop((∃ r, prngReg c r) ∗ ∃ W, owes (c : Thread nD τ) (0 : CellTallies nD τ sig Unit) W)
/-- A host stretch as a segment: over the unscoped references from the contents `W`, `runR` riding along; it ends with
    those references at `StableHlo.after ops (W c)`. -/
abbrev runHseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ run𝒱 runL runLv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W runR

/-- No operation of the first stretch allocates a buffer. -/
theorem run_hostOps0_fresh : (hostOps0 : List (HloOp τ sig (Elt F))).Forall fun op => op.fresh = ∅ := by
  simp only [List.Forall]; repeat' constructor
/-- No operation of the last stretch allocates a buffer. -/
theorem run_hostOps1_fresh : (hostOps1 : List (HloOp τ sig (Elt F))).Forall fun op => op.fresh = ∅ := by
  simp only [List.Forall]; repeat' constructor
/-- An unscoped TensorCore reference is among those the thread state holds. -/
theorem run_mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W3`, the
    generator register at some state. -/
abbrev runTₙ (c : Dev nD) : sProp 𝕄 := iprop(StableHlo.held (c : Thread nD τ) (Pipeline.ucRefs τ sig) (W3 m ρ c) ∗ ∃ r, prngReg c r)

/-! ## The region as a segment -/

variable (hbody : ∀ c, BodyObligationLoose (dat (F := F) (V1 m ρ) c) (defs₀ (F := F)) Variants.none () Set.univ)

set_option backward.isDefEq.respectTransparency.types false in
/-- The region over the thread state: entered from every unscoped buffer at `W1`, left at `W2`. Its arrays and the two
    tables split out of the unscoped buffers — the tables at the literal contents the host wrote — and put back at the
    exit contents; the generator register, the tables and the three scratch buffers into the invariant and out; nothing
    owed; no semaphore of the kernel's own. -/
def runReg : Pipeline.RegionSeg (pcfgs (F := F)) adm (runPdats m ρ) () defs₀ run𝒱 runL runLv 0 where
  win := (launch0 (F := F)).win.to₀
  block_pos := (launch0 (F := F)).block_pos
  stage_whole := (launch0 (F := F)).stage_whole
  K := PEmpty
  osem k := k.elim
  ho := Pipeline.OwnSemFacts.none _
  hbody c := hbody c
  hwaits := Pipeline.hwaits_of_owed_zero _ _ _ _ runL runLv 0 fun _ _ => rfl
  pre c := iprop(StableHlo.held (c : Thread nD τ) (Pipeline.ucRefs τ sig) (W1 m ρ c) ∗ runR c)
  post c := iprop(StableHlo.held (c : Thread nD τ) (Pipeline.ucRefs τ sig) (W2 m ρ c) ∗ runR c)
  X c := iprop(∃ r, prngReg c r)
  Y c := iprop(Pipeline.prefHeld pre0 c (fun _ => fullShare) (tbl (F := F)) ∗ ∃ r, prngReg c r)
  Z c := Pipeline.unscopedRestP (Ix := Unit) (Name := ℕ) (U := UR sig nD τ) (Lvl := ℕ) pre0 spec0 c (V1 m ρ c)
  hentry c := by
    rw [Pipeline.ownSems0_none]
    have hsplit := Pipeline.arrays_of_unscopedBufs (p := 0) (pcfgs (F := F)) adm (runPdats m ρ) (launch0 (F := F)).win (launch0 (F := F)).arr_whole c
      ((runPdats m ρ 0 c).share_full fun _ => rfl) (V1 m ρ c) fun _ => rfl
    rw [Pipeline.unscopedBufs_held, Pipeline.unscopedRest_split (launch0 (F := F)).pre, V1_tbl] at hsplit
    iintro ⟨⟨Hub, Hp, HO⟩, -, -⟩
    ihave H := hsplit $$ Hub
    icases H with ⟨Ha, Htb, Hrest⟩
    imodintro
    isplitl [Ha]; · iexact Ha
    isplitl [Htb]; · iexact Htb
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (runPdats m ρ 0 c).Φ 0 = Φs (F := F) (V1 m ρ) c 0 from rfl]
    unfold Φs
    rw [scopedRest0_eq]
    simp only [owns_whole]
    iintro ⟨Hp, Htb, ⟨%f0, H0⟩, ⟨%f1, H1⟩, ⟨%f2, H2⟩⟩
    isplitl [Htb]; · iexact Htb
    isplitl [Hp]; · iexact Hp
    iexists (⟨f0, f1, f2⟩ : Scr F)
    isplitl [H0]; · iexact H0
    isplitl [H1]; · iexact H1
    isplitl [H2]; · iexact H2
    ipureintro
    intro h
    rw [Fin.val_zero] at h
    exact absurd h (by decide)
  hout c := by
    rw [Pipeline.ownSems0_none, show (runPdats m ρ 0 c).Φ (Fin.last _) = Φs (F := F) (V1 m ρ) c (Fin.last _) from rfl]
    unfold Φs
    rw [scopedRest0_eq]
    simp only [owns_whole]
    iintro ⟨Htb, Hp, ⟨%s, H0, H1, H2, -⟩⟩
    isplitl [Htb Hp]
    · isplitl [Htb]; · iexact Htb
      iexact Hp
    isplitr; · iempintro
    isplitl [H0]; · iexists _; iexact H0
    isplitl [H1]; · iexists _; iexact H1
    iexists _; iexact H2
  hexit c := by
    have hjoin := Pipeline.unscopedBufs_of_arrays (p := 0) (pcfgs (F := F)) adm (Ix := Unit) (Name := ℕ) (U := UR sig nD τ) (Lvl := ℕ)
      (launch0 (F := F)).win (launch0 (F := F)).arr_whole c (runPdats m ρ) ((runPdats m ρ 0 c).share_full fun _ => rfl)
      (V1 m ρ c) (runV2 m ρ c) ((runPdats m ρ 0 c).arrAt · (cfgT (F := F)).N) (run_hF m ρ c) (run_hrest m ρ c)
    rw [Pipeline.unscopedBufs_held, Pipeline.unscopedRest_split (launch0 (F := F)).pre, V1_tbl] at hjoin
    iintro ⟨Ha, HO, ⟨Htb, Hp⟩, Hrest⟩
    imodintro
    isplitl [Ha Htb Hrest]
    · iapply hjoin
      isplitl [Ha]; · iexact Ha
      isplitl [Htb]; · iexact Htb
      iexact Hrest
    isplitl [Hp]; · iexact Hp
    unfold Pipeline.Dat.owesAt Pipeline.owesWithin
    icases HO with ⟨%W, -, HO⟩; iexists W; iexact HO

/-! ## @main as segments, and the launch -/

/-- @main's three segments in order: the first host stretch from the launch contents, the region, the last host
    stretch from the region's exit contents. -/
abbrev runSegs : List (Pipeline.Seg (pcfgs (F := F)) adm (runPdats m ρ) () defs₀ run𝒱 runL runLv) :=
  [ .host (runHseg hostOps0 hostOps0_sub run_hostOps0_fresh (W0 m ρ)),
    .region (runReg m ρ hbody),
    .host (runHseg hostOps1 hostOps1_sub run_hostOps1_fresh (W2 m ρ)) ]
/-- @main is the run of the segments. -/
theorem run_main (c : Dev nD) : main (F := F) c = Pipeline.Seg.run (runSegs m ρ hbody) := (main_chain c).trans (by chain_rfl)

/-- The last link of the chain: the last host stretch ends with every unscoped buffer at `W3` beside the generator
    register and the `owes`, which is the last thread state beside the core owing nothing. -/
theorem run_last_link (c : Dev nD) :
    iprop(StableHlo.held (c : Thread nD τ) (Pipeline.ucRefs τ sig) (W3 m ρ c) ∗ runR (F := F) c)
      ⊢ iprop(runTₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

set_option backward.isDefEq.respectTransparency.types false in
/-- The launch, given the body obligation: at the compiled mesh, from any memory with zero counters, every weakly fair
    execution of @main on the TensorCores terminates, nothing faulting, and every final state holds the result at the
    last boundary's contents and the three arguments as launched. -/
theorem run_of_body (hbody : ∀ c, BodyObligationLoose (dat (F := F) (V1 m ρ) c) (defs₀ (F := F)) Variants.none () Set.univ) :
    θ_run defs (onTc (τ := τ) (main (F := F))) ⟨m, fun _ => 0, ρ⟩ (fun r => ∀ c : Dev nD,
      r.2.mem ((c.tc : Thread nD τ).loc main_v6) = W3 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (runPdats m ρ) () (cellOf_inj adm) emb₁ defs₀ run𝒱 runL runLv m ρ main (runSegs m ρ hbody)
    (fun c Q => by rw [run_main m ρ hbody c])
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) adm) (cellOf_inj adm)) (Pipeline.launchToks (Pipeline.pin (pcfgs (F := F)) adm) (cellOf_inj adm)))
    (hu₀ := by
      iintro Hu; imodintro
      isplitl [Hu]
      · iapply (show (ownU (initOf (Pipeline.cells (Pipeline.pin (pcfgs (F := F)) adm) (cellOf_inj adm)) (Pipeline.launchToks (Pipeline.pin (pcfgs (F := F)) adm) (cellOf_inj adm))) : sProp 𝕄)
            ⊢ BI.own (emb₁ (initOf (Pipeline.cells (Pipeline.pin (pcfgs (F := F)) adm) (cellOf_inj adm)) (Pipeline.launchToks (Pipeline.pin (pcfgs (F := F)) adm) (cellOf_inj adm)))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ runR c)) (Tₙ := runTₙ m ρ)
    (hch := ⟨fun _ => .rfl, fun _ => .rfl, fun _ => .rfl, fun c => run_last_link m ρ c⟩)
    (hinit := by
      refine Pipeline.initEach runL runLv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (run_mem_uc main_v6 (by decide)),
       (h c _ (run_mem_uc main_arg0 (by decide))).trans (W3_main_arg0 m ρ c),
       (h c _ (run_mem_uc main_arg1 (by decide))).trans (W3_main_arg1 m ρ c),
       (h c _ (run_mem_uc main_arg2 (by decide))).trans (W3_main_arg2 m ρ c)⟩)

end Cert.KernelIdeal.Hand

end
-- ==== Proof.RunValue.lean ====
/-
  The run's result read back. The result buffer at the last boundary is the last host stretch's three operations —
  reshape, transpose, reshape — applied to the output array as the region leaves it; that array is `G3` of the query,
  key and value arrays as the region finds them; and those are the first stretch's reshapes of the three arguments
  as launched. Composed: the result as one function of the launch memory.
-/
import proofs.«141465_j40630390620348_2_alg».proof.Proof.Run
import proofs.«141465_j40630390620348_2_alg».proof.Proof.Blocks

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen

variable {F : FTy → Type} [FloatOps F] [Named F]

variable (m : (ℓ : Loc nD τ sig) → Buf (Elt F) ℓ) (ρ : Dev nD → PrngReg)

/-! ## The windows' input arrays at the region's entry are the arguments reshaped -/

theorem V1_main_v0 (c : Dev nD) :
    (V1 m ρ c main_v0 : Vec F S32x2048x128 .f32)
      = shapeCast S32x2048x128 (m ((c : Thread nD τ).loc main_arg0)) Facts₀.shapeCasts_S2x16x2048x128_S32x2048x128 := by
  show StableHlo.after hostOps0 (W0 m ρ c) (Proc.devRef .tc main_v0) = _
  after_results
  rfl
theorem V1_main_v1 (c : Dev nD) :
    (V1 m ρ c main_v1 : Vec F S32x2048x128 .f32)
      = shapeCast S32x2048x128 (m ((c : Thread nD τ).loc main_arg1)) Facts₀.shapeCasts_S2x16x2048x128_S32x2048x128 := by
  show StableHlo.after hostOps0 (W0 m ρ c) (Proc.devRef .tc main_v1) = _
  after_results
  rfl
theorem V1_main_v2 (c : Dev nD) :
    (V1 m ρ c main_v2 : Vec F S32x2048x128 .f32)
      = shapeCast S32x2048x128 (m ((c : Thread nD τ).loc main_arg2)) Facts₀.shapeCasts_S2x16x2048x128_S32x2048x128 := by
  show StableHlo.after hostOps0 (W0 m ρ c) (Proc.devRef .tc main_v2) = _
  after_results
  rfl

/-! ## The output array at the region's exit -/

/-- The output array as the region leaves it: `G3` of the three arguments reshaped. -/
theorem W2_main_v3 (c : Dev nD) :
    (W2 m ρ c (Proc.devRef .tc main_v3) : Vec F S32x2048x128 .f32)
      = G3 (shapeCast S32x2048x128 (m ((c : Thread nD τ).loc main_arg0)) Facts₀.shapeCasts_S2x16x2048x128_S32x2048x128)
           (shapeCast S32x2048x128 (m ((c : Thread nD τ).loc main_arg1)) Facts₀.shapeCasts_S2x16x2048x128_S32x2048x128)
           (shapeCast S32x2048x128 (m ((c : Thread nD τ).loc main_arg2)) Facts₀.shapeCasts_S2x16x2048x128_S32x2048x128) :=
  (W2_arr m ρ c 3).trans ((final3 (V1 m ρ) c).trans (by
    rw [V1_main_v0 m ρ c, V1_main_v1 m ρ c, V1_main_v2 m ρ c]))

/-! ## The result -/

/-- The result buffer at the last boundary, from the output array at the region's exit. -/
theorem W3_main_v6 (c : Dev nD) :
    (W3 m ρ c (Proc.devRef .tc main_v6) : FVec F S2x2048x2048 .f32)
      = shapeCast S2x2048x2048 (transpose S2x2048x16x128 [0, 2, 1, 3] (shapeCast S2x16x2048x128
          (W2 m ρ c (Proc.devRef .tc main_v3) : Vec F S32x2048x128 .f32)
          Facts₀.shapeCasts_S32x2048x128_S2x16x2048x128) Facts₀.transposes_S2x16x2048x128_S2x2048x16x128_0_2_1_3) Facts₀.shapeCasts_S2x2048x16x128_S2x2048x2048 := by
  show StableHlo.after hostOps1 (W2 m ρ c) (Proc.devRef .tc main_v6) = _
  after_results
  rfl

/-- The result as a function of the launch memory. -/
theorem run_value (c : Dev nD) :
    (W3 m ρ c (Proc.devRef .tc main_v6) : FVec F S2x2048x2048 .f32)
      = shapeCast S2x2048x2048 (transpose S2x2048x16x128 [0, 2, 1, 3] (shapeCast S2x16x2048x128
          (G3 (shapeCast S32x2048x128 (m ((c : Thread nD τ).loc main_arg0)) Facts₀.shapeCasts_S2x16x2048x128_S32x2048x128)
              (shapeCast S32x2048x128 (m ((c : Thread nD τ).loc main_arg1)) Facts₀.shapeCasts_S2x16x2048x128_S32x2048x128)
              (shapeCast S32x2048x128 (m ((c : Thread nD τ).loc main_arg2)) Facts₀.shapeCasts_S2x16x2048x128_S32x2048x128))
          Facts₀.shapeCasts_S32x2048x128_S2x16x2048x128) Facts₀.transposes_S2x16x2048x128_S2x2048x16x128_0_2_1_3) Facts₀.shapeCasts_S2x2048x16x128_S2x2048x2048 :=
  (W3_main_v6 m ρ c).trans (congrArg
    (fun X : Vec F S32x2048x128 .f32 => shapeCast S2x2048x2048 (transpose S2x2048x16x128 [0, 2, 1, 3] (shapeCast S2x16x2048x128 X
      Facts₀.shapeCasts_S32x2048x128_S2x16x2048x128) Facts₀.transposes_S2x16x2048x128_S2x2048x16x128_0_2_1_3) Facts₀.shapeCasts_S2x2048x16x128_S2x2048x2048)
    (W2_main_v3 m ρ c))

end Cert.KernelIdeal.Hand

end
-- ==== Proof.Layout.lean ====
/-
  The layout operations around the kernel's region, read at an index.

  Before the region each argument, an array `[2, 16, 2048, 128]` (batch, head, row, feature), is recast to
  `[32, 2048, 128]`: batch and head fuse into one leading coordinate `b * 16 + h`, so the recast array at
  `(b * 16 + h, s, d)` is the argument at `(b, h, s, d)` — both sit at the row-major position
  `((b * 16 + h) * 2048 + s) * 128 + d`.

  After the region the result `[32, 2048, 128]` is recast back to `[2, 16, 2048, 128]`, its head and row axes
  are exchanged (`[2, 2048, 16, 128]`) and the head and feature axes fuse into one trailing coordinate
  `h * 128 + d` (`[2, 2048, 2048]`). Read at `(b, s, h * 128 + d)` the three steps undo one another down to the
  region's result at `(b * 16 + h, s, d)`.
-/
import proofs.«141465_j40630390620348_2_alg».proof.Proof.Gen.KernelIdeal
import Idealize.ShloMosaic.Lib.Pipeline.Value
import Idealize.ShloMosaic.Lib.ValueIdx
import Idealize.ShloMosaic.Lib.ValueLayout

noncomputable section

namespace Cert.KernelIdeal.Hand

open Cert.KernelIdeal Cert.KernelIdeal.Gen Idealize.ShloMosaic Idealize.SL.Sem

variable {F : FTy → Type} [FloatOps F] [Named F]

/-- The leading recast `[2, 16, 2048, 128] → [32, 2048, 128]` at `(b * 16 + h, s, d)` is the operand at
    `(b, h, s, d)`: the two indices have the same row-major position. -/
theorem prefix_at (X : FVec F S2x16x2048x128 .f32) (b : Fin 2) (h : Fin 16) (s : Fin 2048) (d : Fin 128) :
    shapeCast S32x2048x128 X Facts₀.shapeCasts_S2x16x2048x128_S32x2048x128
      (ValueIdx.ix3 ⟨b.val * 16 + h.val, by omega⟩ s d) = X (ValueIdx.ix4 b h s d) :=
  shapeCast_apply X Facts₀.shapeCasts_S2x16x2048x128_S32x2048x128 _ (ValueIdx.ix4 b h s d) (by
    rw [Shape.rowMajor_val_four, Shape.rowMajor_val_three]
    show ((b.val * 16 + h.val) * 2048 + s.val) * 128 + d.val = ((b.val * 16 + h.val) * 2048 + s.val) * 128 + d.val
    rfl)

/-- The trailing recast–transpose–recast chain `[32, 2048, 128] → [2, 16, 2048, 128] → [2, 2048, 16, 128] →
    [2, 2048, 2048]` at `(b, s, h * 128 + d)` is the operand at `(b * 16 + h, s, d)`. -/
theorem tail_at (Y : FVec F S32x2048x128 .f32) (b : Fin 2) (h : Fin 16) (s : Fin 2048) (d : Fin 128) :
    shapeCast S2x2048x2048
        (transpose S2x2048x16x128 [0, 2, 1, 3]
          (shapeCast S2x16x2048x128 Y Facts₀.shapeCasts_S32x2048x128_S2x16x2048x128)
          Facts₀.transposes_S2x16x2048x128_S2x2048x16x128_0_2_1_3)
        Facts₀.shapeCasts_S2x2048x16x128_S2x2048x2048
      (ValueIdx.ix3 b s ⟨h.val * 128 + d.val, by omega⟩) = Y (ValueIdx.ix3 ⟨b.val * 16 + h.val, by omega⟩ s d) := by
  -- the last recast: `(b, s, h * 128 + d)` and `(b, s, h, d)` share the position `((b * 2048 + s) * 16 + h) * 128 + d`
  rw [shapeCast_apply _ Facts₀.shapeCasts_S2x2048x16x128_S2x2048x2048 _ (ValueIdx.ix4 b s h d) (by
    rw [Shape.rowMajor_val_four, Shape.rowMajor_val_three]
    show ((b.val * 2048 + s.val) * 16 + h.val) * 128 + d.val = (b.val * 2048 + s.val) * 2048 + (h.val * 128 + d.val)
    omega)]
  -- the transpose exchanges the two middle coordinates
  rw [transpose_apply [0, 2, 1, 3] _ Facts₀.transposes_S2x16x2048x128_S2x2048x16x128_0_2_1_3 (ValueIdx.ix4 b s h d)
    (ValueIdx.ix4 b h s d) (fun a => match a with
      | ⟨0, _⟩ => rfl
      | ⟨1, _⟩ => rfl
      | ⟨2, _⟩ => rfl
      | ⟨3, _⟩ => rfl)]
  -- the first recast splits the fused leading coordinate `b * 16 + h` back into `(b, h)`
  exact shapeCast_apply Y Facts₀.shapeCasts_S32x2048x128_S2x16x2048x128 _ (ValueIdx.ix3 ⟨b.val * 16 + h.val, by omega⟩ s d) (by
    rw [Shape.rowMajor_val_four, Shape.rowMajor_val_three]
    show ((b.val * 16 + h.val) * 2048 + s.val) * 128 + d.val = ((b.val * 16 + h.val) * 2048 + s.val) * 128 + d.val
    rfl)

end Cert.KernelIdeal.Hand
-- ==== Proof.Algebra.lean ====
/-
  The two arrangements of causal attention agree on finite real data.

  Every score is then a real number and a masked score is the bottom element; a row always has an unmasked key, so
  every running maximum is a real number and every sum of exponentials is a positive real. Each side is brought to
  the same normal form in the reals: the weighted sum of the value rows with weights the exponentials of the scores
  (against the level zero), over the sum of those weights. The level against which the exponentials are taken
  cancels between numerator and denominator, which is why the blockwise rescaling does not change the result.
-/
import proofs.«141465_j40630390620348_2_alg».proof.Proof.Spec

noncomputable section

namespace Cert.Spec

open Idealize.ShloMosaic

namespace Alg

variable {ι : Type} [Fintype ι]

/-! ### Coercion of the reals into the extended reals and finite sums -/

/-- The coercion commutes with finite sums. -/
theorem coe_finsum {κ : Type} (s : Finset κ) (f : κ → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The inner product of two real rows is the coercion of the real inner product. -/
theorem dot128_coe (x y : Fin 128 → ℝ) :
    dot128 (fun i => ((x i : ℝ) : EReal)) (fun i => ((y i : ℝ) : EReal)) = ((∑ i, x i * y i : ℝ) : EReal) := by
  unfold dot128
  simp only [← EReal.coe_mul]
  exact coe_finsum _ _

/-! ### Masked real scores and their weights -/

/-- A row of scores: the real score of key k where p k holds, the bottom element elsewhere. -/
def msk (p : ι → Prop) [DecidablePred p] (σ : ι → ℝ) (k : ι) : EReal := if p k then ((σ k : ℝ) : EReal) else ⊥

/-- The weight of key k against the level M: the exponential of its score minus M where p k holds, zero elsewhere. -/
def wt (p : ι → Prop) [DecidablePred p] (σ : ι → ℝ) (M : ℝ) (k : ι) : ℝ := if p k then Real.exp (σ k - M) else 0

/-- The scaled score of a query row against key row k, in the reals. -/
def sc {κ : Type} (x : Fin 128 → ℝ) (K : κ → Fin 128 → ℝ) (k : κ) : ℝ := (∑ i, x i * K k i) * (1048576 / 11863283)

section
variable (p : ι → Prop) [DecidablePred p] (σ : ι → ℝ)

theorem msk_ne_top (k : ι) : msk p σ k ≠ ⊤ := by
  unfold msk; split_ifs
  · exact EReal.coe_ne_top _
  · exact bot_ne_top

theorem msk_ne_bot {k : ι} (h : p k) : msk p σ k ≠ ⊥ := by
  unfold msk; rw [if_pos h]; exact EReal.coe_ne_bot _

/-- The exponential of a masked score against a real level is the coercion of its weight. -/
theorem exp_msk (M : ℝ) (k : ι) : Ideal.exp (msk p σ k - (M : EReal)) = ((wt p σ M k : ℝ) : EReal) := by
  unfold msk wt; split_ifs
  · rw [← EReal.coe_sub, Ideal.exp_coe]
  · rw [EReal.bot_sub, Ideal.exp_bot, EReal.coe_zero]

theorem sum_exp_msk (M : ℝ) :
    ∑ k, Ideal.exp (msk p σ k - (M : EReal)) = ((∑ k, wt p σ M k : ℝ) : EReal) := by
  simp only [exp_msk]; exact coe_finsum _ _

theorem sum_exp_msk_mul (M : ℝ) (u : ι → ℝ) :
    ∑ k, Ideal.exp (msk p σ k - (M : EReal)) * ((u k : ℝ) : EReal) = ((∑ k, wt p σ M k * u k : ℝ) : EReal) := by
  simp only [exp_msk, ← EReal.coe_mul]; exact coe_finsum _ _

theorem wt_nonneg (M : ℝ) (k : ι) : 0 ≤ wt p σ M k := by
  unfold wt; split_ifs
  · exact (Real.exp_pos _).le
  · exact le_rfl

/-- A row with an unmasked key has a positive sum of weights. -/
theorem sum_wt_pos (M : ℝ) {k0 : ι} (h : p k0) : 0 < ∑ k, wt p σ M k := by
  refine Finset.sum_pos' (fun k _ => wt_nonneg p σ M k) ⟨k0, Finset.mem_univ _, ?_⟩
  unfold wt; rw [if_pos h]; exact Real.exp_pos _

/-- Moving the level from 0 to M multiplies every weight by exp (-M). -/
theorem wt_shift (M : ℝ) (k : ι) : wt p σ M k = wt p σ 0 k * Real.exp (-M) := by
  unfold wt; split_ifs
  · rw [sub_zero, ← Real.exp_add, sub_eq_add_neg]
  · rw [zero_mul]

theorem sum_wt_shift (M : ℝ) : ∑ k, wt p σ M k = (∑ k, wt p σ 0 k) * Real.exp (-M) := by
  rw [Finset.sum_mul]; exact Finset.sum_congr rfl (fun k _ => wt_shift p σ M k)

theorem sum_wt_mul_shift (M : ℝ) (u : ι → ℝ) :
    ∑ k, wt p σ M k * u k = (∑ k, wt p σ 0 k * u k) * Real.exp (-M) := by
  rw [Finset.sum_mul]
  refine Finset.sum_congr rfl (fun k _ => ?_)
  rw [wt_shift p σ M k]; ring

end

/-! ### The running maximum is a real number -/

/-- A maximum of extended reals none of which is the top element and one of which is not the bottom element is a
    real number. -/
theorem fold_max_real (m : EReal) (hm : m ≠ ⊤) (z : ι → EReal) (hz : ∀ k, z k ≠ ⊤)
    (h : m ≠ ⊥ ∨ ∃ k, z k ≠ ⊥) : ∃ M : ℝ, max m (Finset.univ.fold max ⊥ z) = (M : EReal) := by
  have h1 : max m (Finset.univ.fold max ⊥ z) ≠ ⊤ := by
    rw [← lt_top_iff_ne_top, max_lt_iff, Finset.fold_max_lt]
    exact ⟨lt_top_iff_ne_top.2 hm, bot_lt_top, fun k _ => lt_top_iff_ne_top.2 (hz k)⟩
  have h2 : max m (Finset.univ.fold max ⊥ z) ≠ ⊥ := by
    rw [← bot_lt_iff_ne_bot, lt_max_iff, Finset.lt_fold_max]
    rcases h with h | ⟨k, hk⟩
    · exact Or.inl (bot_lt_iff_ne_bot.2 h)
    · exact Or.inr (Or.inr ⟨k, Finset.mem_univ k, bot_lt_iff_ne_bot.2 hk⟩)
  exact ⟨(max m (Finset.univ.fold max ⊥ z)).toReal, (EReal.coe_toReal h1 h2).symm⟩

/-! ### One block of keys on real data -/

section
variable (p : ι → Prop) [DecidablePred p] (σ : ι → ℝ) (w : ι → Fin 128 → ℝ)

/-- The first block: from the empty state, against some real level M. -/
theorem step_init {k0 : ι} (hk0 : p k0) :
    ∃ M : ℝ, step (msk p σ) (fun k d => ((w k d : ℝ) : EReal)) init
      = ⟨(M : EReal), ((∑ k, wt p σ M k : ℝ) : EReal), fun d => ((∑ k, wt p σ M k * w k d : ℝ) : EReal)⟩ := by
  obtain ⟨M, hM⟩ := fold_max_real ⊥ bot_ne_top (msk p σ) (msk_ne_top p σ) (Or.inr ⟨k0, msk_ne_bot p σ hk0⟩)
  refine ⟨M, ?_⟩
  simp only [step, init, hM, EReal.bot_sub, Ideal.exp_bot, zero_mul, zero_add, sum_exp_msk, sum_exp_msk_mul]

/-- A later block: from a real state (m, l, a), against some real level M; what was accumulated is rescaled
    by exp (m - M). -/
theorem step_real (m l : ℝ) (a : Fin 128 → ℝ) :
    ∃ M : ℝ, step (msk p σ) (fun k d => ((w k d : ℝ) : EReal)) ⟨(m : EReal), (l : EReal), fun d => ((a d : ℝ) : EReal)⟩
      = ⟨(M : EReal), ((Real.exp (m - M) * l + ∑ k, wt p σ M k : ℝ) : EReal),
          fun d => ((Real.exp (m - M) * a d + ∑ k, wt p σ M k * w k d : ℝ) : EReal)⟩ := by
  obtain ⟨M, hM⟩ := fold_max_real (m : EReal) (EReal.coe_ne_top m) (msk p σ) (msk_ne_top p σ)
    (Or.inl (EReal.coe_ne_bot m))
  refine ⟨M, ?_⟩
  simp only [step, hM, ← EReal.coe_sub, Ideal.exp_coe, sum_exp_msk, sum_exp_msk_mul, ← EReal.coe_mul,
    ← EReal.coe_add]

end

/-- The result of a real state with a nonzero sum of weights. -/
theorem fin_real (M l : ℝ) (a : Fin 128 → ℝ) (hl : l ≠ 0) (d : Fin 128) :
    fin ⟨(M : EReal), (l : EReal), fun d => ((a d : ℝ) : EReal)⟩ d = ((a d * (1 / l) : ℝ) : EReal) := by
  simp only [fin]
  rw [Ideal.div_coe hl, ← EReal.coe_mul]

/-- The level cancels between a weighted sum and the sum of weights. -/
theorem ratio_cancel (A W c : ℝ) (hW : W ≠ 0) (hc : c ≠ 0) : (A * c) * (1 / (W * c)) = A / W := by
  field_simp

/-! ### The three computations on real data, in normal form -/

/-- The whole-row side's scaled score is the blockwise side's: dividing by 11863283 / 2^19 and doubling is
    multiplying by 2^20 / 11863283. -/
theorem ref_score (D : ℝ) : Ideal.div (D : EReal) dR * two = ((D * (1048576 / 11863283) : ℝ) : EReal) := by
  unfold dR two
  rw [Ideal.div_coe (by norm_num), ← EReal.coe_mul, ← EReal.coe_mul, EReal.coe_eq_coe_iff]
  ring

/-- Blockwise scores of real rows masked to the keys at or before r. -/
theorem masked_scores {n : ℕ} (x : Fin 128 → ℝ) (K : Fin n → Fin 128 → ℝ) (r : Fin n) :
    (fun k : Fin n => if k ≤ r then dot128 (fun i => ((x i : ℝ) : EReal)) (fun i => ((K k i : ℝ) : EReal)) * cK else ⊥)
      = msk (fun k => k ≤ r) (sc x K) := by
  funext k
  unfold msk sc cK
  by_cases h : k ≤ r
  · rw [if_pos h, if_pos h, dot128_coe, ← EReal.coe_mul]
  · rw [if_neg h, if_neg h]

/-- Blockwise scores of real rows with no mask. -/
theorem full_scores {n : ℕ} (x : Fin 128 → ℝ) (K : Fin n → Fin 128 → ℝ) :
    (fun k : Fin n => dot128 (fun i => ((x i : ℝ) : EReal)) (fun i => ((K k i : ℝ) : EReal)) * cK)
      = msk (fun _ => True) (sc x K) := by
  funext k
  unfold msk sc cK
  rw [if_pos trivial, dot128_coe, ← EReal.coe_mul]

/-- Whole-row scores of real rows masked to the keys at or before s. -/
theorem ref_scores (x : Fin 128 → ℝ) (K : Fin 2048 → Fin 128 → ℝ) (s : Fin 2048) :
    (fun k : Fin 2048 => if k ≤ s then
        Ideal.div (dot128 (fun i => ((x i : ℝ) : EReal)) (fun i => ((K k i : ℝ) : EReal))) dR * two else ⊥)
      = msk (fun k => k ≤ s) (sc x K) := by
  funext k
  unfold msk sc
  by_cases h : k ≤ s
  · rw [if_pos h, if_pos h, dot128_coe, ref_score]
  · rw [if_neg h, if_neg h]

theorem kerA_eq_of (x : Fin 128 → EReal) (K0 V0 : Fin 1024 → Fin 128 → EReal) (r : Fin 1024) (d : Fin 128)
    (z : Fin 1024 → EReal) (hz : (fun k : Fin 1024 => if k ≤ r then dot128 x (K0 k) * cK else ⊥) = z) :
    kerA x K0 V0 r d = fin (step z V0 init) d := by
  subst hz; rfl

theorem kerC_eq_of (x : Fin 128 → EReal) (K0 V0 K1 V1 : Fin 1024 → Fin 128 → EReal) (r : Fin 1024) (d : Fin 128)
    (z0 z1 : Fin 1024 → EReal) (hz0 : (fun k : Fin 1024 => dot128 x (K0 k) * cK) = z0)
    (hz1 : (fun k : Fin 1024 => if k ≤ r then dot128 x (K1 k) * cK else ⊥) = z1) :
    kerC x K0 V0 K1 V1 r d = fin (step z1 V1 (step z0 V0 init)) d := by
  subst hz0; subst hz1; rfl

theorem ref_eq_of (x : Fin 128 → EReal) (K V : Fin 2048 → Fin 128 → EReal) (s : Fin 2048) (d : Fin 128)
    (z : Fin 2048 → EReal)
    (hz : (fun k : Fin 2048 => if k ≤ s then Ideal.div (dot128 x (K k)) dR * two else ⊥) = z) :
    ref x K V s d = ∑ k, Ideal.div (Ideal.exp (z k - max ⊥ (Finset.univ.fold max ⊥ z)))
      (∑ k', Ideal.exp (z k' - max ⊥ (Finset.univ.fold max ⊥ z))) * V k d := by
  subst hz; rfl

/-- Normalising the weights against a real level by their sum, then weighting reals by them, gives the normal
    form: the level cancels. -/
theorem softmax_real (p : ι → Prop) [DecidablePred p] (σ : ι → ℝ) (u : ι → ℝ) {k0 : ι} (hk0 : p k0) (M : ℝ) :
    ∑ k, Ideal.div (Ideal.exp (msk p σ k - (M : EReal))) (∑ k', Ideal.exp (msk p σ k' - (M : EReal)))
        * ((u k : ℝ) : EReal)
      = (((∑ k, wt p σ 0 k * u k) / (∑ k, wt p σ 0 k) : ℝ) : EReal) := by
  have hZ : (∑ k, wt p σ M k) ≠ 0 := (sum_wt_pos p σ M hk0).ne'
  have h0 : (∑ k, wt p σ 0 k) ≠ 0 := (sum_wt_pos p σ 0 hk0).ne'
  rw [sum_exp_msk]
  simp only [exp_msk, Ideal.div_coe hZ, ← EReal.coe_mul]
  rw [coe_finsum, EReal.coe_eq_coe_iff, ← ratio_cancel _ _ _ h0 (Real.exp_pos (-M)).ne',
    ← sum_wt_shift p σ M, ← sum_wt_mul_shift p σ M, Finset.sum_mul]
  exact Finset.sum_congr rfl (fun k _ => by ring)

/-- The whole-row side on real data. -/
theorem ref_real (x : Fin 128 → ℝ) (K V : Fin 2048 → Fin 128 → ℝ) (s : Fin 2048) (d : Fin 128) :
    ref (fun i => ((x i : ℝ) : EReal)) (fun k i => ((K k i : ℝ) : EReal)) (fun k i => ((V k i : ℝ) : EReal)) s d
      = (((∑ k, wt (fun k => k ≤ s) (sc x K) 0 k * V k d) / (∑ k, wt (fun k => k ≤ s) (sc x K) 0 k) : ℝ) : EReal) := by
  obtain ⟨M, hM⟩ := fold_max_real ⊥ bot_ne_top (msk (fun k => k ≤ s) (sc x K)) (msk_ne_top _ _)
    (Or.inr ⟨s, msk_ne_bot _ _ (le_refl s)⟩)
  rw [ref_eq_of _ _ _ _ _ _ (ref_scores x K s), hM]
  exact softmax_real (fun k => k ≤ s) (sc x K) (fun k => V k d) (le_refl s) M

/-- A row of the first half, one block, on real data. -/
theorem kerA_real (x : Fin 128 → ℝ) (K0 V0 : Fin 1024 → Fin 128 → ℝ) (r : Fin 1024) (d : Fin 128) :
    kerA (fun i => ((x i : ℝ) : EReal)) (fun k i => ((K0 k i : ℝ) : EReal)) (fun k i => ((V0 k i : ℝ) : EReal)) r d
      = (((∑ k, wt (fun k => k ≤ r) (sc x K0) 0 k * V0 k d) / (∑ k, wt (fun k => k ≤ r) (sc x K0) 0 k) : ℝ) : EReal) := by
  obtain ⟨M, hM⟩ := step_init (fun k => k ≤ r) (sc x K0) V0 (le_refl r)
  have hl : (∑ k, wt (fun k => k ≤ r) (sc x K0) M k) ≠ 0 :=
    (sum_wt_pos (fun k => k ≤ r) (sc x K0) M (le_refl r)).ne'
  rw [kerA_eq_of _ _ _ _ _ _ (masked_scores x K0 r), hM, fin_real _ _ _ hl, EReal.coe_eq_coe_iff,
    sum_wt_shift _ _ M, sum_wt_mul_shift _ _ M]
  exact ratio_cancel _ _ _ (sum_wt_pos (fun k => k ≤ r) (sc x K0) 0 (le_refl r)).ne' (Real.exp_pos _).ne'

/-- A row of the second half, two blocks, on real data: the first block's sums, rescaled when the maximum moves,
    and the second block's are both taken against the final level, which cancels. -/
theorem kerC_real (x : Fin 128 → ℝ) (K0 V0 K1 V1 : Fin 1024 → Fin 128 → ℝ) (r : Fin 1024) (d : Fin 128) :
    kerC (fun i => ((x i : ℝ) : EReal)) (fun k i => ((K0 k i : ℝ) : EReal)) (fun k i => ((V0 k i : ℝ) : EReal))
        (fun k i => ((K1 k i : ℝ) : EReal)) (fun k i => ((V1 k i : ℝ) : EReal)) r d
      = (((∑ k, wt (fun _ : Fin 1024 => True) (sc x K0) 0 k * V0 k d + ∑ k, wt (fun k => k ≤ r) (sc x K1) 0 k * V1 k d)
          / (∑ k, wt (fun _ : Fin 1024 => True) (sc x K0) 0 k + ∑ k, wt (fun k => k ≤ r) (sc x K1) 0 k) : ℝ) : EReal) := by
  obtain ⟨M1, hM1⟩ := step_init (fun _ : Fin 1024 => True) (sc x K0) V0 (k0 := r) trivial
  obtain ⟨M2, hM2⟩ := step_real (fun k => k ≤ r) (sc x K1) V1 M1 (∑ k, wt (fun _ : Fin 1024 => True) (sc x K0) M1 k)
    (fun d => ∑ k, wt (fun _ : Fin 1024 => True) (sc x K0) M1 k * V0 k d)
  have hresc : ∀ X : ℝ, Real.exp (M1 - M2) * (X * Real.exp (-M1)) = X * Real.exp (-M2) := by
    intro X
    calc Real.exp (M1 - M2) * (X * Real.exp (-M1)) = X * (Real.exp (M1 - M2) * Real.exp (-M1)) := by ring
      _ = X * Real.exp (-M2) := by rw [← Real.exp_add]; congr 2; ring
  have hW : 0 < ∑ k, wt (fun _ : Fin 1024 => True) (sc x K0) 0 k + ∑ k, wt (fun k => k ≤ r) (sc x K1) 0 k :=
    add_pos (sum_wt_pos _ _ 0 (k0 := r) trivial) (sum_wt_pos _ _ 0 (le_refl r))
  have hl : Real.exp (M1 - M2) * (∑ k, wt (fun _ : Fin 1024 => True) (sc x K0) M1 k)
        + ∑ k, wt (fun k => k ≤ r) (sc x K1) M2 k
      = (∑ k, wt (fun _ : Fin 1024 => True) (sc x K0) 0 k + ∑ k, wt (fun k => k ≤ r) (sc x K1) 0 k)
          * Real.exp (-M2) := by
    rw [sum_wt_shift _ _ M1, sum_wt_shift _ _ M2, hresc, add_mul]
  have ha : Real.exp (M1 - M2) * (∑ k, wt (fun _ : Fin 1024 => True) (sc x K0) M1 k * V0 k d)
        + ∑ k, wt (fun k => k ≤ r) (sc x K1) M2 k * V1 k d
      = (∑ k, wt (fun _ : Fin 1024 => True) (sc x K0) 0 k * V0 k d + ∑ k, wt (fun k => k ≤ r) (sc x K1) 0 k * V1 k d)
          * Real.exp (-M2) := by
    rw [sum_wt_mul_shift _ _ M1, sum_wt_mul_shift _ _ M2, hresc, add_mul]
  have hl0 : Real.exp (M1 - M2) * (∑ k, wt (fun _ : Fin 1024 => True) (sc x K0) M1 k)
        + ∑ k, wt (fun k => k ≤ r) (sc x K1) M2 k ≠ 0 := by
    rw [hl]; exact (mul_pos hW (Real.exp_pos _)).ne'
  rw [kerC_eq_of _ _ _ _ _ _ _ _ _ (full_scores x K0) (masked_scores x K1 r), hM1, hM2, fin_real _ _ _ hl0,
    EReal.coe_eq_coe_iff, hl, ha]
  exact ratio_cancel _ _ _ hW.ne' (Real.exp_pos _).ne'

/-! ### The 2048 keys are the two blocks of 1024 -/

theorem sum_lo_hi (g : Fin 2048 → ℝ) : ∑ k, g k = ∑ k : Fin 1024, g (lo k) + ∑ k : Fin 1024, g (hi k) :=
  Fin.sum_univ_add (a := 1024) (b := 1024) g

theorem lo_le_lo (k r : Fin 1024) : lo k ≤ lo r ↔ k ≤ r := Iff.rfl

theorem hi_le_hi (k r : Fin 1024) : hi k ≤ hi r ↔ k ≤ r := by
  rw [Fin.le_def, Fin.le_def]
  show 1024 + k.val ≤ 1024 + r.val ↔ k.val ≤ r.val
  omega

theorem lo_le_hi (k r : Fin 1024) : lo k ≤ hi r := by
  rw [Fin.le_def]
  show k.val ≤ 1024 + r.val
  have := k.isLt
  omega

theorem not_hi_le_lo (k r : Fin 1024) : ¬ hi k ≤ lo r := by
  rw [Fin.le_def]
  show ¬ 1024 + k.val ≤ r.val
  have := r.isLt
  omega

end Alg

open Alg

/-- A row of the first half: its one block is the whole row, the second block's keys being all masked. -/
theorem kerA_eq_ref (x : Fin 128 → ℝ) (K V : Fin 2048 → Fin 128 → ℝ) (r : Fin 1024) (d : Fin 128) :
    kerA (fun i => ((x i : ℝ) : EReal)) (fun k i => ((K (lo k) i : ℝ) : EReal)) (fun k i => ((V (lo k) i : ℝ) : EReal)) r d
      = ref (fun i => ((x i : ℝ) : EReal)) (fun k i => ((K k i : ℝ) : EReal)) (fun k i => ((V k i : ℝ) : EReal)) (lo r) d := by
  have hlo : ∀ k : Fin 1024, wt (fun k => k ≤ lo r) (sc x K) 0 (lo k)
      = wt (fun k => k ≤ r) (sc x (fun k => K (lo k))) 0 k := by
    intro k
    unfold wt sc
    by_cases h : k ≤ r
    · rw [if_pos h, if_pos ((lo_le_lo k r).2 h)]
    · rw [if_neg h, if_neg (fun h' => h ((lo_le_lo k r).1 h'))]
  have hhi : ∀ k : Fin 1024, wt (fun k => k ≤ lo r) (sc x K) 0 (hi k) = 0 := by
    intro k
    unfold wt
    rw [if_neg (not_hi_le_lo k r)]
  rw [kerA_real x (fun k => K (lo k)) (fun k => V (lo k)) r d, ref_real x K V (lo r) d, EReal.coe_eq_coe_iff,
    sum_lo_hi (fun k => wt (fun k => k ≤ lo r) (sc x K) 0 k * V k d),
    sum_lo_hi (fun k => wt (fun k => k ≤ lo r) (sc x K) 0 k)]
  simp only [hlo, hhi, zero_mul, Finset.sum_const_zero, add_zero]

/-- A row of the second half: the first block's keys are all before it, the second block's are masked as the row's. -/
theorem kerC_eq_ref (x : Fin 128 → ℝ) (K V : Fin 2048 → Fin 128 → ℝ) (r : Fin 1024) (d : Fin 128) :
    kerC (fun i => ((x i : ℝ) : EReal)) (fun k i => ((K (lo k) i : ℝ) : EReal)) (fun k i => ((V (lo k) i : ℝ) : EReal))
        (fun k i => ((K (hi k) i : ℝ) : EReal)) (fun k i => ((V (hi k) i : ℝ) : EReal)) r d
      = ref (fun i => ((x i : ℝ) : EReal)) (fun k i => ((K k i : ℝ) : EReal)) (fun k i => ((V k i : ℝ) : EReal)) (hi r) d := by
  have hlo : ∀ k : Fin 1024, wt (fun k => k ≤ hi r) (sc x K) 0 (lo k)
      = wt (fun _ : Fin 1024 => True) (sc x (fun k => K (lo k))) 0 k := by
    intro k
    unfold wt sc
    rw [if_pos trivial, if_pos (lo_le_hi k r)]
  have hhi : ∀ k : Fin 1024, wt (fun k => k ≤ hi r) (sc x K) 0 (hi k)
      = wt (fun k => k ≤ r) (sc x (fun k => K (hi k))) 0 k := by
    intro k
    unfold wt sc
    by_cases h : k ≤ r
    · rw [if_pos h, if_pos ((hi_le_hi k r).2 h)]
    · rw [if_neg h, if_neg (fun h' => h ((hi_le_hi k r).1 h'))]
  rw [kerC_real x (fun k => K (lo k)) (fun k => V (lo k)) (fun k => K (hi k)) (fun k => V (hi k)) r d,
    ref_real x K V (hi r) d, EReal.coe_eq_coe_iff,
    sum_lo_hi (fun k => wt (fun k => k ≤ hi r) (sc x K) 0 k * V k d),
    sum_lo_hi (fun k => wt (fun k => k ≤ hi r) (sc x K) 0 k)]
  simp only [hlo, hhi]

end Cert.Spec

end
-- ==== Proof.PayValue.Basic.lean ====
/-
  The small facts the payloads' readings at an index rest on, each over variables: what the two named constants and
  the two reset words denote on the extended reals; a column [1024] viewed as [1024, 1] and a column [1024, 1] spread
  along a row, read at coordinates; the index a row reduction inserts its coordinate into; and the causal comparison of
  two positions of one block as the order of their offsets in the block.
-/
import proofs.«141465_j40630390620348_2_alg».proof.Proof.Steps
import proofs.«141465_j40630390620348_2_alg».proof.Proof.Spec
import Idealize.ShloMosaic.Lib.ValueLayout
import Idealize.ShloMosaic.PureOps.Ideal.Laws

noncomputable section

namespace Cert.KernelIdeal.PayValue

open Idealize.ShloMosaic Idealize.ShloMosaic.ValueIdx Idealize.SL.Sem
open Cert.KernelIdeal Cert.KernelIdeal.Gen

/-! ## Constants -/

/-- The named scale is the rational 2^20 / 11863283. -/
theorem cK_eq : Named.named (F := Ideal) κ "coeff_over_norm" (φ := .f32) 0x3DB504F3#32 = Cert.Spec.cK :=
  IdealRules.named_const.ideal_named_scalar _ _ _ _ rfl

/-- The named mask value is -∞. -/
theorem negBig_eq : Named.named (F := Ideal) κ "neg_big" (φ := .f32) 0xFF333332#32 = (⊥ : EReal) :=
  IdealRules.named_const.ideal_named_scalar _ _ _ _ rfl

/-- The word of -∞ denotes -∞. -/
theorem ofBits_negInf : Ideal.ofBits .f32 0xFF800000#32 = (⊥ : EReal) := by simp [Ideal.ofBits, Ideal.ieee]

/-! ## Layout at coordinates -/

section Layout
variable {α : Type}

/-- A column [1024] viewed as [1024, 1] reads, at (r, u), the column at r. -/
theorem col_cast (v : S1024.Idx → α) (r : Fin 1024) (u : Fin 1) :
    shapeCast S1024x1 v shapeCasts_S1024_S1024x1 (ix2 r u) = v (ix1 r) :=
  shapeCast_apply v shapeCasts_S1024_S1024x1 (ix2 r u) (ix1 r) (by
    have hu : u.val = 0 := by omega
    rw [Shape.rowMajor_val_one, Shape.rowMajor_val_two]
    show r.val = r.val * 1 + u.val
    omega)

/-- A column [1024, 1] spread over 1024 lanes reads, at (r, j), the column at (r, 0). -/
theorem bcast_col_1024 (v : S1024x1.Idx → α) (r : Fin 1024) (j : Fin 1024) :
    broadcastTo S1024x1024 v broadcasts_S1024x1_S1024x1024 (ix2 r j) = v (ix2 r (0 : Fin 1)) := by
  refine broadcastTo_apply v broadcasts_S1024x1_S1024x1024 (ix2 r j) (ix2 r (0 : Fin 1)) fun ax => ?_
  match ax with
  | ⟨0, _⟩ => rfl
  | ⟨1, _⟩ => rfl

/-- A column [1024, 1] spread over 128 lanes reads, at (r, d), the column at (r, 0). -/
theorem bcast_col_128 (v : S1024x1.Idx → α) (r : Fin 1024) (d : Fin 128) :
    broadcastTo S1024x128 v broadcasts_S1024x1_S1024x128 (ix2 r d) = v (ix2 r (0 : Fin 1)) := by
  refine broadcastTo_apply v broadcasts_S1024x1_S1024x128 (ix2 r d) (ix2 r (0 : Fin 1)) fun ax => ?_
  match ax with
  | ⟨0, _⟩ => rfl
  | ⟨1, _⟩ => rfl

/-- A block [1, 1024, 128] viewed as [1024, 128] reads, at (r, d), the block at (0, r, d). -/
theorem cast_in (x : S1x1024x128.Idx → α) (r : Fin 1024) (d : Fin 128) :
    shapeCast S1024x128 x shapeCasts_S1x1024x128_S1024x128 (ix2 r d) = x (ix3 (0 : Fin 1) r d) :=
  shapeCast_1ab_ab_apply x shapeCasts_S1x1024x128_S1024x128 r d

/-- A matrix [1024, 128] viewed as a block [1, 1024, 128] reads, at (u, r, d), the matrix at (r, d). -/
theorem cast_out (x : S1024x128.Idx → α) (u : Fin 1) (r : Fin 1024) (d : Fin 128) :
    shapeCast S1x1024x128 x shapeCasts_S1024x128_S1x1024x128 (ix3 u r d) = x (ix2 r d) :=
  shapeCast_ab_1ab_apply x shapeCasts_S1024x128_S1x1024x128 u r d

/-- The keys' matrix transposed reads, at (i, j), the matrix at (j, i). -/
theorem transp (x : S1024x128.Idx → α) (i : Fin 128) (j : Fin 1024) :
    transpose S128x1024 [1, 0] x transposes_S1024x128_p1_0_S128x1024 (ix2 i j) = x (ix2 j i) :=
  transpose_ix2_apply x transposes_S1024x128_p1_0_S128x1024 i j

end Layout

/-- The index a reduction over the lanes of row r visits at lane k is (r, k). -/
theorem lift_row (r k : Fin 1024) : reduces_S1024x1024_S1024.lift (ix1 r) k = ix2 r k :=
  funext fun a => Fin.ext (by
    match a with
    | ⟨0, _⟩ => rfl
    | ⟨1, _⟩ => rfl)

/-! ## The causal comparison -/

/-- Positions w·1024 + r and w·1024 + j of block w (w = 0 or 1) compare, signed, as r and j do. -/
theorem causal_bit (w : BitVec 32) (hw : w = 0#32 ∨ w = 1#32) (r j : Fin 1024) :
    IntOp.cmpi .sge (IntOp.addi (Scalar.muli w 1024#32) (BitVec.ofNat 32 r.val))
        (IntOp.addi (Scalar.muli w 1024#32) (BitVec.ofNat 32 j.val))
      = if j ≤ r then 1#1 else 0#1 := by
  have hr := r.isLt
  have hj := j.isLt
  have key : ∀ (b : BitVec 32) (n : Nat), b.toNat ≤ 1024 → n < 1024 → (b + BitVec.ofNat 32 n).toInt = (b.toNat + n : Int) := by
    intro b n hb hn
    rw [BitVec.toInt_eq_toNat_cond, BitVec.toNat_add, BitVec.toNat_ofNat]
    have : (b.toNat + n % 2 ^ 32) % 2 ^ 32 = b.toNat + n := by omega
    rw [this]
    split <;> omega
  have hb : (Scalar.muli w 1024#32).toNat ≤ 1024 := by
    rcases hw with rfl | rfl <;> decide
  show BitVec.ofBool (BitVec.sle _ _) = _
  unfold BitVec.sle
  show BitVec.ofBool (decide ((Scalar.muli w 1024#32 + BitVec.ofNat 32 j.val).toInt ≤ (Scalar.muli w 1024#32 + BitVec.ofNat 32 r.val).toInt)) = _
  rw [key _ _ hb hj, key _ _ hb hr]
  by_cases h : j ≤ r
  · have h' : ((Scalar.muli w 1024#32).toNat + j.val : Int) ≤ ((Scalar.muli w 1024#32).toNat + r.val : Int) := by
      have : j.val ≤ r.val := h
      omega
    rw [if_pos h, decide_eq_true h']; rfl
  · have h' : ¬ ((Scalar.muli w 1024#32).toNat + j.val : Int) ≤ ((Scalar.muli w 1024#32).toNat + r.val : Int) := by
      have : ¬ j.val ≤ r.val := h
      omega
    rw [if_neg h, decide_eq_false h']; rfl

end Cert.KernelIdeal.PayValue

end
-- ==== Proof.PayValue.Scores.lean ====
/-
  The two products of the body at an index. The scores: row r of the queries against row j of the keys over the 128
  features (the keys' matrix transposed first), scaled. The weighted values: row r of a weight matrix against column d
  of the values over the 1024 keys. Each is the product into a zero accumulator, read as the sum over its one
  contracted coordinate.
-/
import proofs.«141465_j40630390620348_2_alg».proof.Proof.PayValue.Basic

noncomputable section

namespace Cert.KernelIdeal.PayValue

open Idealize.ShloMosaic Idealize.ShloMosaic.ValueIdx Idealize.SL.Sem
open Cert.KernelIdeal Cert.KernelIdeal.Gen

/-! ## Queries times transposed keys: contraction over the 128 features -/

theorem qk_lhs0 (i : S1024x1024.Idx) (c : dot_S1024x128_S128x1024_S1024x1024_1_0_0_1_n_n.contr.Idx) :
    (dot_S1024x128_S128x1024_S1024x1024_1_0_0_1_n_n.lhsIdx i c 0).val = (i 0).val := by
  unfold DotDims.lhsIdx
  rw [dif_neg (show ¬(0 : Fin S1024x128.rank) ∈ dot_S1024x128_S128x1024_S1024x1024_1_0_0_1_n_n.lhsBatch by decide),
    dif_pos (show (0 : Fin S1024x128.rank) ∈ dot_S1024x128_S128x1024_S1024x1024_1_0_0_1_n_n.lhsNonContracting by decide)]
  rfl

theorem qk_lhs1 (i : S1024x1024.Idx) (c : dot_S1024x128_S128x1024_S1024x1024_1_0_0_1_n_n.contr.Idx) :
    (dot_S1024x128_S128x1024_S1024x1024_1_0_0_1_n_n.lhsIdx i c 1).val = (c ⟨0, by decide⟩).val :=
  dot_S1024x128_S128x1024_S1024x1024_1_0_0_1_n_n.lhsIdx_val_of_single rfl i c

theorem qk_rhs0 (i : S1024x1024.Idx) (c : dot_S1024x128_S128x1024_S1024x1024_1_0_0_1_n_n.contr.Idx) :
    (dot_S1024x128_S128x1024_S1024x1024_1_0_0_1_n_n.rhsIdx i c 0).val = (c ⟨0, by decide⟩).val :=
  dot_S1024x128_S128x1024_S1024x1024_1_0_0_1_n_n.rhsIdx_val_of_single rfl i c

theorem qk_rhs1 (i : S1024x1024.Idx) (c : dot_S1024x128_S128x1024_S1024x1024_1_0_0_1_n_n.contr.Idx) :
    (dot_S1024x128_S128x1024_S1024x1024_1_0_0_1_n_n.rhsIdx i c 1).val = (i 1).val := by
  unfold DotDims.rhsIdx
  rw [dif_neg (show ¬(1 : Fin S128x1024.rank) ∈ dot_S1024x128_S128x1024_S1024x1024_1_0_0_1_n_n.rhsBatch by decide),
    dif_pos (show (1 : Fin S128x1024.rank) ∈ dot_S1024x128_S128x1024_S1024x1024_1_0_0_1_n_n.rhsNonContracting by decide)]
  rfl

/-- The product [1024, 128] × [128, 1024] into zero, at (r, j): the sum over the 128 contracted coordinates. -/
theorem qk_at (a : FVec Ideal S1024x128 .bf16) (b : FVec Ideal S128x1024 .bf16) (r j : Fin 1024) :
    matmul dot_S1024x128_S128x1024_S1024x1024_1_0_0_1_n_n none a b (constant (F := Ideal) S1024x1024 .f32 0x00000000#32) (ix2 r j)
      = ∑ i : Fin 128, a (ix2 r i) * b (ix2 i j) := by
  simp only [matmul]
  rw [Ideal.matmul_constant_zero_apply,
    ← Equiv.sum_comp (contrEquiv1 dot_S1024x128_S128x1024_S1024x1024_1_0_0_1_n_n 128 rfl rfl).symm]
  refine Finset.sum_congr rfl fun i _ => ?_
  have hk := contrEquiv1_symm_val dot_S1024x128_S128x1024_S1024x1024_1_0_0_1_n_n 128 rfl rfl i
  have el : dot_S1024x128_S128x1024_S1024x1024_1_0_0_1_n_n.lhsIdx (ix2 r j)
      ((contrEquiv1 dot_S1024x128_S128x1024_S1024x1024_1_0_0_1_n_n 128 rfl rfl).symm i) = ix2 r i :=
    funext fun ax => Fin.ext (by
      match ax with
      | ⟨0, _⟩ => exact qk_lhs0 _ _
      | ⟨1, _⟩ => exact (qk_lhs1 _ _).trans hk)
  have er : dot_S1024x128_S128x1024_S1024x1024_1_0_0_1_n_n.rhsIdx (ix2 r j)
      ((contrEquiv1 dot_S1024x128_S128x1024_S1024x1024_1_0_0_1_n_n 128 rfl rfl).symm i) = ix2 i j :=
    funext fun ax => Fin.ext (by
      match ax with
      | ⟨0, _⟩ => exact (qk_rhs0 _ _).trans hk
      | ⟨1, _⟩ => exact qk_rhs1 _ _)
  rw [el, er]

/-! ## Weights times values: contraction over the 1024 keys -/

theorem pv_lhs0 (i : S1024x128.Idx) (c : dot_S1024x1024_S1024x128_S1024x128_1_0_0_1_n_n.contr.Idx) :
    (dot_S1024x1024_S1024x128_S1024x128_1_0_0_1_n_n.lhsIdx i c 0).val = (i 0).val := by
  unfold DotDims.lhsIdx
  rw [dif_neg (show ¬(0 : Fin S1024x1024.rank) ∈ dot_S1024x1024_S1024x128_S1024x128_1_0_0_1_n_n.lhsBatch by decide),
    dif_pos (show (0 : Fin S1024x1024.rank) ∈ dot_S1024x1024_S1024x128_S1024x128_1_0_0_1_n_n.lhsNonContracting by decide)]
  rfl

theorem pv_lhs1 (i : S1024x128.Idx) (c : dot_S1024x1024_S1024x128_S1024x128_1_0_0_1_n_n.contr.Idx) :
    (dot_S1024x1024_S1024x128_S1024x128_1_0_0_1_n_n.lhsIdx i c 1).val = (c ⟨0, by decide⟩).val :=
  dot_S1024x1024_S1024x128_S1024x128_1_0_0_1_n_n.lhsIdx_val_of_single rfl i c

theorem pv_rhs0 (i : S1024x128.Idx) (c : dot_S1024x1024_S1024x128_S1024x128_1_0_0_1_n_n.contr.Idx) :
    (dot_S1024x1024_S1024x128_S1024x128_1_0_0_1_n_n.rhsIdx i c 0).val = (c ⟨0, by decide⟩).val :=
  dot_S1024x1024_S1024x128_S1024x128_1_0_0_1_n_n.rhsIdx_val_of_single rfl i c

theorem pv_rhs1 (i : S1024x128.Idx) (c : dot_S1024x1024_S1024x128_S1024x128_1_0_0_1_n_n.contr.Idx) :
    (dot_S1024x1024_S1024x128_S1024x128_1_0_0_1_n_n.rhsIdx i c 1).val = (i 1).val := by
  unfold DotDims.rhsIdx
  rw [dif_neg (show ¬(1 : Fin S1024x128.rank) ∈ dot_S1024x1024_S1024x128_S1024x128_1_0_0_1_n_n.rhsBatch by decide),
    dif_pos (show (1 : Fin S1024x128.rank) ∈ dot_S1024x1024_S1024x128_S1024x128_1_0_0_1_n_n.rhsNonContracting by decide)]
  rfl

/-- The product [1024, 1024] × [1024, 128] into zero, at (r, d): the sum over the 1024 contracted coordinates. -/
theorem pv_at (a : FVec Ideal S1024x1024 .bf16) (b : FVec Ideal S1024x128 .bf16) (r : Fin 1024) (d : Fin 128) :
    matmul dot_S1024x1024_S1024x128_S1024x128_1_0_0_1_n_n none a b (constant (F := Ideal) S1024x128 .f32 0x00000000#32) (ix2 r d)
      = ∑ j : Fin 1024, a (ix2 r j) * b (ix2 j d) := by
  simp only [matmul]
  rw [Ideal.matmul_constant_zero_apply,
    ← Equiv.sum_comp (contrEquiv1 dot_S1024x1024_S1024x128_S1024x128_1_0_0_1_n_n 1024 rfl rfl).symm]
  refine Finset.sum_congr rfl fun j _ => ?_
  have hk := contrEquiv1_symm_val dot_S1024x1024_S1024x128_S1024x128_1_0_0_1_n_n 1024 rfl rfl j
  have el : dot_S1024x1024_S1024x128_S1024x128_1_0_0_1_n_n.lhsIdx (ix2 r d)
      ((contrEquiv1 dot_S1024x1024_S1024x128_S1024x128_1_0_0_1_n_n 1024 rfl rfl).symm j) = ix2 r j :=
    funext fun ax => Fin.ext (by
      match ax with
      | ⟨0, _⟩ => exact pv_lhs0 _ _
      | ⟨1, _⟩ => exact (pv_lhs1 _ _).trans hk)
  have er : dot_S1024x1024_S1024x128_S1024x128_1_0_0_1_n_n.rhsIdx (ix2 r d)
      ((contrEquiv1 dot_S1024x1024_S1024x128_S1024x128_1_0_0_1_n_n 1024 rfl rfl).symm j) = ix2 j d :=
    funext fun ax => Fin.ext (by
      match ax with
      | ⟨0, _⟩ => exact (pv_rhs0 _ _).trans hk
      | ⟨1, _⟩ => exact pv_rhs1 _ _)
  rw [el, er]

/-! ## The scores -/

/-- The scaled score of query row r against key row j. -/
theorem pay9_at (q k : Vec Ideal S1x1024x128 .f32) (r j : Fin 1024) :
    k0_pay9 (F := Ideal) q k (ix2 r j)
      = Cert.Spec.dot128 (fun i => q (ix3 (0 : Fin 1) r i)) (fun i => k (ix3 (0 : Fin 1) j i)) * Cert.Spec.cK := by
  unfold k0_pay9
  refine (congrArg₂ (fun x y : EReal => x * y) (qk_at _ _ r j) cK_eq).trans ?_
  refine congrArg (fun x : EReal => x * Cert.Spec.cK) ?_
  unfold Cert.Spec.dot128
  refine Finset.sum_congr rfl fun i _ => ?_
  exact congrArg₂ (fun x y : EReal => x * y) (cast_in q r i) ((transp _ i j).trans (cast_in k j i))

end Cert.KernelIdeal.PayValue

end
-- ==== Proof.PayValue.Rows.lean ====
/-
  Row r of the body's scratch state as the specification's running state. The masked scores of row r are the
  scores at the keys at or before r and -∞ after; a row's maximum and sum over the lanes are the fold and the sum
  over the 1024 keys; so one update of the scratch state by a block of keys, read at row r, is the specification's
  step on that row's scores (masked for the query block's own keys, plain for an earlier block), the reset is its
  initial state, and the output block at (r, d) is its final quotient.
-/
import proofs.«141465_j40630390620348_2_alg».proof.Proof.PayValue.Scores

noncomputable section

namespace Cert.KernelIdeal.PayValue

open Idealize.ShloMosaic Idealize.ShloMosaic.ValueIdx Idealize.SL.Sem
open Cert.KernelIdeal Cert.KernelIdeal.Gen Cert.KernelIdeal.Hand

/-! ## A row's maximum and sum over the lanes -/

/-- The maximum over the lanes from the word of -∞, at row r: the fold of max from -∞ over the 1024 lanes. -/
theorem rowmax_at (src : FVec Ideal S1024x1024 .f32) (r : Fin 1024) (hφ : FKind.Formats .f32)
    (hacc : (0xFF800000#32 : BitVec 32) = FKind.maximumf.neutral .f32 hφ) :
    multiReduction .maximumf [1] S1024 src 0xFF800000#32 reduces_S1024x1024_S1024 hφ hacc (ix1 r)
      = (Finset.univ : Finset (Fin 1024)).fold max (⊥ : EReal) (fun j => src (ix2 r j)) := by
  refine (Ideal.multiReduction_maximumf_single src _ reduces_S1024x1024_S1024 hφ hacc (ix1 r)).trans ?_
  have e : (src ∘ reduces_S1024x1024_S1024.lift (ix1 r) : Fin 1024 → EReal) = fun j => src (ix2 r j) :=
    funext fun j => congrArg src (lift_row r j)
  exact congrArg₂ (fun (b : EReal) (f : Fin 1024 → EReal) => (Finset.univ : Finset (Fin 1024)).fold max b f)
    ofBits_negInf e

/-- The sum over the lanes from the zero word, at row r: the sum over the 1024 lanes. -/
theorem rowsum_at (src : FVec Ideal S1024x1024 .f32) (r : Fin 1024) (hφ : FKind.Formats .f32)
    (hacc : (0x00000000#32 : BitVec 32) = FKind.add.neutral .f32 hφ) :
    multiReduction .add [1] S1024 src 0x00000000#32 reduces_S1024x1024_S1024 hφ hacc (ix1 r)
      = ∑ j : Fin 1024, src (ix2 r j) := by
  refine (Ideal.multiReduction_add_single src _ reduces_S1024x1024_S1024 hφ hacc (ix1 r)).trans ?_
  exact Finset.sum_congr rfl fun j _ => congrArg src (lift_row r j)

/-! ## The scores of a row -/

/-- Row r's scaled scores against every key of a block. -/
def zFull (q k : Vec Ideal S1x1024x128 .f32) (r : Fin 1024) : Fin 1024 → EReal :=
  fun j => Cert.Spec.dot128 (fun i => q (ix3 (0 : Fin 1) r i)) (fun i => k (ix3 (0 : Fin 1) j i)) * Cert.Spec.cK

/-- Row r's scores against its own block: the keys at or before r, -∞ after. -/
def zMask (q k : Vec Ideal S1x1024x128 .f32) (r : Fin 1024) : Fin 1024 → EReal :=
  fun j => if j ≤ r then Cert.Spec.dot128 (fun i => q (ix3 (0 : Fin 1) r i)) (fun i => k (ix3 (0 : Fin 1) j i)) * Cert.Spec.cK else ⊥

theorem pay9_row (q k : Vec Ideal S1x1024x128 .f32) (r : Fin 1024) :
    (fun j : Fin 1024 => k0_pay9 (F := Ideal) q k (ix2 r j)) = zFull q k r :=
  funext fun j => pay9_at q k r j

/-- The masked score at (r, j), for block number w = 0 or 1 on both sides of the comparison. -/
theorem pay15_at (w : BitVec 32) (hw : w = 0#32 ∨ w = 1#32) (q k : Vec Ideal S1x1024x128 .f32) (r j : Fin 1024) :
    k0_pay15 (F := Ideal) w w q k (ix2 r j) = if j ≤ r then k0_pay9 (F := Ideal) q k (ix2 r j) else ⊥ := by
  unfold k0_pay15
  show Scalar.select (IntOp.cmpi .sge
        (IntOp.addi (Scalar.muli w 1024#32) (iota .tc S1024x1024 32 [0] iota_S1024x1024_d0_w32 (ix2 r j)))
        (IntOp.addi (Scalar.muli w 1024#32) (iota .tc S1024x1024 32 [1] iota_S1024x1024_d1_w32 (ix2 r j))))
      (k0_pay9 (F := Ideal) q k (ix2 r j)) (Named.named (F := Ideal) κ "neg_big" (φ := .f32) 0xFF333332#32) = _
  rw [iota_single_apply, iota_single_apply, negBig_eq]
  show Scalar.select (IntOp.cmpi .sge (IntOp.addi (Scalar.muli w 1024#32) (BitVec.ofNat 32 r.val))
        (IntOp.addi (Scalar.muli w 1024#32) (BitVec.ofNat 32 j.val))) _ _ = _
  rw [causal_bit w hw r j]
  by_cases h : j ≤ r
  · rw [if_pos h, if_pos h]; exact select_one _ _
  · rw [if_neg h, if_neg h]; exact select_zero _ _

theorem pay15_row (w : BitVec 32) (hw : w = 0#32 ∨ w = 1#32) (q k : Vec Ideal S1x1024x128 .f32) (r : Fin 1024) :
    (fun j : Fin 1024 => k0_pay15 (F := Ideal) w w q k (ix2 r j)) = zMask q k r :=
  funext fun j => by
    rw [pay15_at w hw q k r j, pay9_at q k r j]
    rfl

/-! ## The update by the query block's own keys, at row r -/

theorem pay16_row (w : BitVec 32) (hw : w = 0#32 ∨ w = 1#32) (q k : Vec Ideal S1x1024x128 .f32)
    (m : Vec Ideal S1024x1 .f32) (r : Fin 1024) :
    k0_pay16 (F := Ideal) w w q k m (ix2 r (0 : Fin 1))
      = max (m (ix2 r (0 : Fin 1))) ((Finset.univ : Finset (Fin 1024)).fold max (⊥ : EReal) (zMask q k r)) := by
  unfold k0_pay16
  refine congrArg (fun x : EReal => max (m (ix2 r (0 : Fin 1))) x) ?_
  refine (col_cast _ r 0).trans ?_
  refine (rowmax_at _ r _ _).trans ?_
  rw [pay15_row w hw q k r]

theorem pay17_row (w : BitVec 32) (hw : w = 0#32 ∨ w = 1#32) (q k : Vec Ideal S1x1024x128 .f32)
    (m : Vec Ideal S1024x1 .f32) (r : Fin 1024) :
    k0_pay17 (F := Ideal) w w q k m (ix2 r (0 : Fin 1))
      = Ideal.exp (m (ix2 r (0 : Fin 1))
          - max (m (ix2 r (0 : Fin 1))) ((Finset.univ : Finset (Fin 1024)).fold max (⊥ : EReal) (zMask q k r))) := by
  unfold k0_pay17
  exact congrArg (fun x : EReal => Ideal.exp (m (ix2 r (0 : Fin 1)) - x)) (pay16_row w hw q k m r)

theorem pay18_row (w : BitVec 32) (hw : w = 0#32 ∨ w = 1#32) (q k : Vec Ideal S1x1024x128 .f32)
    (m : Vec Ideal S1024x1 .f32) (r j : Fin 1024) :
    k0_pay18 (F := Ideal) w w q k m (ix2 r j)
      = Ideal.exp (zMask q k r j
          - max (m (ix2 r (0 : Fin 1))) ((Finset.univ : Finset (Fin 1024)).fold max (⊥ : EReal) (zMask q k r))) := by
  unfold k0_pay18
  exact congrArg₂ (fun x y : EReal => Ideal.exp (x - y)) (congrFun (pay15_row w hw q k r) j)
    ((bcast_col_1024 _ r j).trans (pay16_row w hw q k m r))

theorem pay19_row (w : BitVec 32) (hw : w = 0#32 ∨ w = 1#32) (q k : Vec Ideal S1x1024x128 .f32)
    (m l : Vec Ideal S1024x1 .f32) (r : Fin 1024) :
    k0_pay19 (F := Ideal) w w q k m l (ix2 r (0 : Fin 1))
      = Ideal.exp (m (ix2 r (0 : Fin 1))
            - max (m (ix2 r (0 : Fin 1))) ((Finset.univ : Finset (Fin 1024)).fold max (⊥ : EReal) (zMask q k r)))
          * l (ix2 r (0 : Fin 1))
        + ∑ j : Fin 1024, Ideal.exp (zMask q k r j
            - max (m (ix2 r (0 : Fin 1))) ((Finset.univ : Finset (Fin 1024)).fold max (⊥ : EReal) (zMask q k r))) := by
  unfold k0_pay19
  refine (congrFun (shapeCast_self _ _) _).trans ?_
  refine congrArg₂ (fun x y : EReal => x + y)
    (congrArg (fun x : EReal => x * l (ix2 r (0 : Fin 1))) (pay17_row w hw q k m r)) ?_
  refine (col_cast _ r 0).trans ?_
  refine (rowsum_at _ r _ _).trans ?_
  exact Finset.sum_congr rfl fun j _ => pay18_row w hw q k m r j

/-- The rescaled weighted sum plus a weight matrix against the values, at (r, d). -/
theorem pay6_at (a : FVec Ideal S1024x1 .f32) (p : FVec Ideal S1024x1024 .f32) (acc : Vec Ideal S1024x128 .f32)
    (v : Vec Ideal S1x1024x128 .f32) (r : Fin 1024) (d : Fin 128) :
    k0_pay6 (F := Ideal) a p acc v (ix2 r d)
      = a (ix2 r (0 : Fin 1)) * acc (ix2 r d) + ∑ j : Fin 1024, p (ix2 r j) * v (ix3 (0 : Fin 1) j d) := by
  unfold k0_pay6
  refine (congrFun (shapeCast_self _ _) _).trans ?_
  refine congrArg₂ (fun x y : EReal => x + y)
    (congrArg (fun x : EReal => x * acc (ix2 r d)) (bcast_col_128 a r d)) ?_
  refine (pv_at _ _ r d).trans ?_
  exact Finset.sum_congr rfl fun j _ => congrArg (fun x : EReal => p (ix2 r j) * x) (cast_in v j d)

/-! ## The update by an earlier block of keys, at row r -/

theorem pay10_row (q k : Vec Ideal S1x1024x128 .f32) (m : Vec Ideal S1024x1 .f32) (r : Fin 1024) :
    k0_pay10 (F := Ideal) q k m (ix2 r (0 : Fin 1))
      = max (m (ix2 r (0 : Fin 1))) ((Finset.univ : Finset (Fin 1024)).fold max (⊥ : EReal) (zFull q k r)) := by
  unfold k0_pay10
  refine congrArg (fun x : EReal => max (m (ix2 r (0 : Fin 1))) x) ?_
  refine (col_cast _ r 0).trans ?_
  refine (rowmax_at _ r _ _).trans ?_
  rw [pay9_row q k r]

theorem pay11_row (q k : Vec Ideal S1x1024x128 .f32) (m : Vec Ideal S1024x1 .f32) (r : Fin 1024) :
    k0_pay11 (F := Ideal) q k m (ix2 r (0 : Fin 1))
      = Ideal.exp (m (ix2 r (0 : Fin 1))
          - max (m (ix2 r (0 : Fin 1))) ((Finset.univ : Finset (Fin 1024)).fold max (⊥ : EReal) (zFull q k r))) := by
  unfold k0_pay11
  exact congrArg (fun x : EReal => Ideal.exp (m (ix2 r (0 : Fin 1)) - x)) (pay10_row q k m r)

theorem pay12_row (q k : Vec Ideal S1x1024x128 .f32) (m : Vec Ideal S1024x1 .f32) (r j : Fin 1024) :
    k0_pay12 (F := Ideal) q k m (ix2 r j)
      = Ideal.exp (zFull q k r j
          - max (m (ix2 r (0 : Fin 1))) ((Finset.univ : Finset (Fin 1024)).fold max (⊥ : EReal) (zFull q k r))) := by
  unfold k0_pay12
  exact congrArg₂ (fun x y : EReal => Ideal.exp (x - y)) (congrFun (pay9_row q k r) j)
    ((bcast_col_1024 _ r j).trans (pay10_row q k m r))

theorem pay13_row (q k : Vec Ideal S1x1024x128 .f32) (m l : Vec Ideal S1024x1 .f32) (r : Fin 1024) :
    k0_pay13 (F := Ideal) q k m l (ix2 r (0 : Fin 1))
      = Ideal.exp (m (ix2 r (0 : Fin 1))
            - max (m (ix2 r (0 : Fin 1))) ((Finset.univ : Finset (Fin 1024)).fold max (⊥ : EReal) (zFull q k r)))
          * l (ix2 r (0 : Fin 1))
        + ∑ j : Fin 1024, Ideal.exp (zFull q k r j
            - max (m (ix2 r (0 : Fin 1))) ((Finset.univ : Finset (Fin 1024)).fold max (⊥ : EReal) (zFull q k r))) := by
  unfold k0_pay13
  refine (congrFun (shapeCast_self _ _) _).trans ?_
  refine congrArg₂ (fun x y : EReal => x + y)
    (congrArg (fun x : EReal => x * l (ix2 r (0 : Fin 1))) (pay11_row q k m r)) ?_
  refine (col_cast _ r 0).trans ?_
  refine (rowsum_at _ r _ _).trans ?_
  exact Finset.sum_congr rfl fun j _ => pay12_row q k m r j

theorem pay14_row (q k : Vec Ideal S1x1024x128 .f32) (m : Vec Ideal S1024x1 .f32) (acc : Vec Ideal S1024x128 .f32)
    (v : Vec Ideal S1x1024x128 .f32) (r : Fin 1024) (d : Fin 128) :
    k0_pay14 (F := Ideal) q k m acc v (ix2 r d)
      = Ideal.exp (m (ix2 r (0 : Fin 1))
            - max (m (ix2 r (0 : Fin 1))) ((Finset.univ : Finset (Fin 1024)).fold max (⊥ : EReal) (zFull q k r)))
          * acc (ix2 r d)
        + ∑ j : Fin 1024, Ideal.exp (zFull q k r j
            - max (m (ix2 r (0 : Fin 1))) ((Finset.univ : Finset (Fin 1024)).fold max (⊥ : EReal) (zFull q k r)))
          * v (ix3 (0 : Fin 1) j d) := by
  unfold k0_pay14
  refine congrArg₂ (fun x y : EReal => x + y)
    (congrArg (fun x : EReal => x * acc (ix2 r d)) ((bcast_col_128 _ r d).trans (pay11_row q k m r))) ?_
  refine (pv_at _ _ r d).trans ?_
  exact Finset.sum_congr rfl fun j _ =>
    congrArg₂ (fun x y : EReal => x * y) (pay12_row q k m r j) (cast_in v j d)

/-! ## Row r of the scratch state -/

/-- Row r of a scratch state: its maximum, its sum, its weighted sums over the 128 features. -/
def rowSt (s : Scr Ideal) (r : Fin 1024) : Cert.Spec.St :=
  ⟨s.m (ix2 r (0 : Fin 1)), s.l (ix2 r (0 : Fin 1)), fun d => s.acc (ix2 r d)⟩

theorem St_ext {a b : Cert.Spec.St} (hm : a.m = b.m) (hl : a.l = b.l) (hacc : a.acc = b.acc) : a = b := by
  cases a; cases b
  simp only [Cert.Spec.St.mk.injEq]
  exact ⟨hm, hl, hacc⟩

/-- The reset, at row r, is the initial state. -/
theorem init_row (r : Fin 1024) : rowSt (scrInit (F := Ideal)) r = Cert.Spec.init := by
  refine St_ext ?_ ?_ ?_
  · show k0_pay1 (F := Ideal) (ix2 r (0 : Fin 1)) = ⊥
    unfold k0_pay1
    exact (congrFun (shapeCast_self _ _) _).trans ofBits_negInf
  · show k0_pay2 (F := Ideal) (ix2 r (0 : Fin 1)) = 0
    unfold k0_pay2
    exact (congrFun (shapeCast_self _ _) _).trans Ideal.ofBits_zero_f32
  · funext d
    show k0_pay3 (F := Ideal) (ix2 r d) = 0
    unfold k0_pay3
    exact (congrFun (shapeCast_self _ _) _).trans Ideal.ofBits_zero_f32

/-- The update by the query block's own keys (block number w = 0 or 1), at row r: the step on the masked scores. -/
theorem diag_row (w : BitVec 32) (hw : w = 0#32 ∨ w = 1#32) (q k v : Vec Ideal S1x1024x128 .f32) (s : Scr Ideal)
    (r : Fin 1024) :
    rowSt (diagStep w w q k v s) r
      = Cert.Spec.step (zMask q k r) (fun j i => v (ix3 (0 : Fin 1) j i)) (rowSt s r) := by
  refine St_ext ?_ ?_ ?_
  · show k0_pay7 (k0_pay16 (F := Ideal) w w q k s.m) (ix2 r (0 : Fin 1)) = _
    unfold k0_pay7
    exact (congrFun (shapeCast_self _ _) _).trans (pay16_row w hw q k s.m r)
  · exact pay19_row w hw q k s.m s.l r
  · funext d
    exact (pay6_at _ _ s.acc v r d).trans
      (congrArg₂ (fun x y : EReal => x * s.acc (ix2 r d) + y) (pay17_row w hw q k s.m r)
        (Finset.sum_congr rfl fun j _ =>
          congrArg (fun x : EReal => x * v (ix3 (0 : Fin 1) j d)) (pay18_row w hw q k s.m r j)))

/-- The update by an earlier block of keys, at row r: the step on the plain scores. -/
theorem off_row (q k v : Vec Ideal S1x1024x128 .f32) (s : Scr Ideal) (r : Fin 1024) :
    rowSt (offStep q k v s) r
      = Cert.Spec.step (zFull q k r) (fun j i => v (ix3 (0 : Fin 1) j i)) (rowSt s r) := by
  refine St_ext ?_ ?_ ?_
  · show k0_pay5 (k0_pay10 (F := Ideal) q k s.m) (ix2 r (0 : Fin 1)) = _
    unfold k0_pay5
    exact (congrFun (shapeCast_self _ _) _).trans (pay10_row q k s.m r)
  · exact pay13_row q k s.m s.l r
  · funext d
    show k0_pay4 (k0_pay14 (F := Ideal) q k s.m s.acc v) (ix2 r d) = _
    unfold k0_pay4
    exact (congrFun (shapeCast_self _ _) _).trans (pay14_row q k s.m s.acc v r d)

/-- The output block at (r, d): the final quotient of row r's state. -/
theorem out_row (s : Scr Ideal) (r : Fin 1024) (d : Fin 128) :
    outOf s (ix3 (0 : Fin 1) r d) = Cert.Spec.fin (rowSt s r) d := by
  unfold outOf k0_pay8
  refine (cast_out _ 0 r d).trans ?_
  exact congrArg (fun x : EReal => Ideal.div (s.acc (ix2 r d)) x) (bcast_col_128 s.l r d)

end Cert.KernelIdeal.PayValue

end
-- ==== Proof.PayValue.lean ====
/-
  The body's output block at an index is the specification's blockwise result for that query row: for a row of the
  first query block, reset and one masked update; for a row of the second, reset, the plain update by the first block
  of keys, then the masked update by its own. Both sides are the same expression on the extended reals, operation for
  operation, so no finiteness is asked of the inputs.
-/
import proofs.«141465_j40630390620348_2_alg».proof.Proof.PayValue.Rows

noncomputable section

namespace Cert.KernelIdeal.PayValue

open Idealize.ShloMosaic in
/-- A row of the first query block: the output at (r, d) is the one-block result. -/
theorem outA_at (q k v : Vec Ideal Cert.KernelIdeal.S1x1024x128 .f32) (r : Fin 1024) (d : Fin 128) :
    Cert.KernelIdeal.Hand.outA (F := Ideal) q k v (ValueIdx.ix3 (0 : Fin 1) r d)
      = Cert.Spec.kerA (fun i => q (ValueIdx.ix3 0 r i)) (fun j i => k (ValueIdx.ix3 0 j i)) (fun j i => v (ValueIdx.ix3 0 j i)) r d := by
  unfold Cert.KernelIdeal.Hand.outA
  rw [out_row, diag_row 0#32 (Or.inl rfl), init_row]
  rfl

open Idealize.ShloMosaic in
/-- A row of the second query block: the output at (r, d) is the two-block result. -/
theorem outC_at (q k0 v0 k1 v1 : Vec Ideal Cert.KernelIdeal.S1x1024x128 .f32) (r : Fin 1024) (d : Fin 128) :
    Cert.KernelIdeal.Hand.outC (F := Ideal) q k0 v0 k1 v1 (ValueIdx.ix3 (0 : Fin 1) r d)
      = Cert.Spec.kerC (fun i => q (ValueIdx.ix3 0 r i)) (fun j i => k0 (ValueIdx.ix3 0 j i)) (fun j i => v0 (ValueIdx.ix3 0 j i))
          (fun j i => k1 (ValueIdx.ix3 0 j i)) (fun j i => v1 (ValueIdx.ix3 0 j i)) r d := by
  unfold Cert.KernelIdeal.Hand.outC Cert.KernelIdeal.Hand.scrB
  rw [out_row, diag_row 1#32 (Or.inr rfl), off_row, init_row]
  rfl

end Cert.KernelIdeal.PayValue

end
-- ==== Proof.KernelValue.lean ====
/-
  The kernel's whole function at an index, on finite real data, is causal attention over all 2048 keys at once.

  The arguments `[2, 16, 2048, 128]` are recast to `[32, 2048, 128]` (batch and head fused into `b * 16 + h`); for
  each fused head the region computes the first 1024 query rows from the first block of 1024 keys under the causal
  mask, and the second 1024 query rows from the first block unmasked followed by the second block under the mask;
  the result is recast, transposed and recast to `[2, 2048, 2048]`. Read at `(b, s, h * 128 + d)` the trailing layout
  operations reach the region's result at `(b * 16 + h, s, d)`; that entry is the blockwise computation on the rows
  `(b, h, ·, ·)` of the three arguments, and the blockwise computation equals the whole-row one on real data.
-/
import proofs.«141465_j40630390620348_2_alg».proof.Proof.Layout
import proofs.«141465_j40630390620348_2_alg».proof.Proof.Steps
import proofs.«141465_j40630390620348_2_alg».proof.Proof.Algebra
import proofs.«141465_j40630390620348_2_alg».proof.Proof.Blocks
import proofs.«141465_j40630390620348_2_alg».proof.Proof.PayValue

noncomputable section

namespace Cert.KernelIdeal.Hand

open Idealize.ShloMosaic Idealize.SL.Sem
open Cert.KernelIdeal Cert.KernelIdeal.Gen

section Generic
variable {F : FTy → Type} [FloatOps F] [Named F]

/-- The region's function at `(bh, s, d)`, by the half the query row `s` lies in. -/
theorem kv_G3_at (Q K V : Vec F S32x2048x128 .f32) (bh : Fin 32) (s : Fin 2048) (d : Fin 128) :
    G3 Q K V (ValueIdx.ix3 bh s d)
      = if s.val < 1024 then
          outA (blkOf Q bh 0) (blkOf K bh 0) (blkOf V bh 0) (ValueIdx.ix3 0 ⟨s.val % 1024, Nat.mod_lt _ (by omega)⟩ d)
        else
          outC (blkOf Q bh 1) (blkOf K bh 0) (blkOf V bh 0) (blkOf K bh 1) (blkOf V bh 1)
            (ValueIdx.ix3 0 ⟨s.val % 1024, Nat.mod_lt _ (by omega)⟩ d) := rfl

/-- Row `r` of block `j` of fused head `b * 16 + h` of a recast argument is row `t = j * 1024 + r` of head `(b, h)` of
    the argument. -/
theorem kv_blk_row (X : FVec F S2x16x2048x128 .f32) (b : Fin 2) (h : Fin 16) (j : Fin 2) (r : Fin 1024) (i : Fin 128)
    (t : Fin 2048) (ht : t.val = j.val * 1024 + r.val) :
    blkOf (shapeCast S32x2048x128 X Facts₀.shapeCasts_S2x16x2048x128_S32x2048x128) ⟨b.val * 16 + h.val, by omega⟩ j
        (ValueIdx.ix3 (0 : Fin 1) r i) = X (ValueIdx.ix4 b h t i) := by
  have e : t = ⟨j.val * 1024 + r.val, by have := j.isLt; omega⟩ := Fin.ext ht
  rw [e]
  exact prefix_at X b h ⟨j.val * 1024 + r.val, by have := j.isLt; omega⟩ i

end Generic

/-- The kernel's function of real arguments, read at `(b, s, h * 128 + d)`: causal attention of query row `s` of head
    `(b, h)` against that head's 2048 key and value rows. -/
theorem kernel_value (q k v : S2x16x2048x128.Idx → ℝ) (b : Fin 2) (h : Fin 16) (s : Fin 2048) (d : Fin 128) :
    shapeCast S2x2048x2048
        (transpose S2x2048x16x128 [0, 2, 1, 3]
          (shapeCast S2x16x2048x128
            (G3 (F := Ideal)
              (shapeCast S32x2048x128 (fun i => ((q i : ℝ) : EReal)) Facts₀.shapeCasts_S2x16x2048x128_S32x2048x128)
              (shapeCast S32x2048x128 (fun i => ((k i : ℝ) : EReal)) Facts₀.shapeCasts_S2x16x2048x128_S32x2048x128)
              (shapeCast S32x2048x128 (fun i => ((v i : ℝ) : EReal)) Facts₀.shapeCasts_S2x16x2048x128_S32x2048x128))
            Facts₀.shapeCasts_S32x2048x128_S2x16x2048x128)
          Facts₀.transposes_S2x16x2048x128_S2x2048x16x128_0_2_1_3)
        Facts₀.shapeCasts_S2x2048x16x128_S2x2048x2048
      (ValueIdx.ix3 b s ⟨h.val * 128 + d.val, by omega⟩)
      = Cert.Spec.ref (fun i => ((q (ValueIdx.ix4 b h s i) : ℝ) : EReal))
          (fun j i => ((k (ValueIdx.ix4 b h j i) : ℝ) : EReal)) (fun j i => ((v (ValueIdx.ix4 b h j i) : ℝ) : EReal)) s d := by
  refine (tail_at (F := Ideal) _ b h s d).trans ?_
  refine (kv_G3_at (F := Ideal) _ _ _ ⟨b.val * 16 + h.val, by omega⟩ s d).trans ?_
  by_cases hs : s.val < 1024
  · -- a query row of the first half: one block of keys
    rw [if_pos hs]
    have er : (⟨s.val % 1024, Nat.mod_lt _ (by omega)⟩ : Fin 1024) = ⟨s.val, hs⟩ := Fin.ext (Nat.mod_eq_of_lt hs)
    have es : Cert.Spec.lo ⟨s.val, hs⟩ = s := Fin.ext rfl
    rw [er]
    refine (PayValue.outA_at _ _ _ ⟨s.val, hs⟩ d).trans ?_
    have hq : (fun i : Fin 128 => blkOf (F := Ideal)
          (shapeCast S32x2048x128 (fun i => ((q i : ℝ) : EReal)) Facts₀.shapeCasts_S2x16x2048x128_S32x2048x128)
          ⟨b.val * 16 + h.val, by omega⟩ 0 (ValueIdx.ix3 (0 : Fin 1) ⟨s.val, hs⟩ i))
        = fun i => ((q (ValueIdx.ix4 b h s i) : ℝ) : EReal) :=
      funext fun i => kv_blk_row (F := Ideal) (fun i => ((q i : ℝ) : EReal)) b h 0 ⟨s.val, hs⟩ i s
        (by show s.val = 0 * 1024 + s.val; omega)
    have hk : (fun (j : Fin 1024) (i : Fin 128) => blkOf (F := Ideal)
          (shapeCast S32x2048x128 (fun i => ((k i : ℝ) : EReal)) Facts₀.shapeCasts_S2x16x2048x128_S32x2048x128)
          ⟨b.val * 16 + h.val, by omega⟩ 0 (ValueIdx.ix3 (0 : Fin 1) j i))
        = fun j i => ((k (ValueIdx.ix4 b h (Cert.Spec.lo j) i) : ℝ) : EReal) :=
      funext fun j => funext fun i => kv_blk_row (F := Ideal) (fun i => ((k i : ℝ) : EReal)) b h 0 j i (Cert.Spec.lo j)
        (by show j.val = 0 * 1024 + j.val; omega)
    have hv : (fun (j : Fin 1024) (i : Fin 128) => blkOf (F := Ideal)
          (shapeCast S32x2048x128 (fun i => ((v i : ℝ) : EReal)) Facts₀.shapeCasts_S2x16x2048x128_S32x2048x128)
          ⟨b.val * 16 + h.val, by omega⟩ 0 (ValueIdx.ix3 (0 : Fin 1) j i))
        = fun j i => ((v (ValueIdx.ix4 b h (Cert.Spec.lo j) i) : ℝ) : EReal) :=
      funext fun j => funext fun i => kv_blk_row (F := Ideal) (fun i => ((v i : ℝ) : EReal)) b h 0 j i (Cert.Spec.lo j)
        (by show j.val = 0 * 1024 + j.val; omega)
    rw [hq, hk, hv]
    refine (Cert.Spec.kerA_eq_ref (fun i => q (ValueIdx.ix4 b h s i)) (fun j i => k (ValueIdx.ix4 b h j i))
      (fun j i => v (ValueIdx.ix4 b h j i)) ⟨s.val, hs⟩ d).trans ?_
    rw [es]
  · -- a query row of the second half: the first block of keys whole, then the second under the mask
    rw [if_neg hs]
    have hs' : s.val - 1024 < 1024 := by have := s.isLt; omega
    have er : (⟨s.val % 1024, Nat.mod_lt _ (by omega)⟩ : Fin 1024) = ⟨s.val - 1024, hs'⟩ :=
      Fin.ext (by show s.val % 1024 = s.val - 1024; have := s.isLt; omega)
    have es : Cert.Spec.hi ⟨s.val - 1024, hs'⟩ = s := Fin.ext (by show 1024 + (s.val - 1024) = s.val; omega)
    rw [er]
    refine (PayValue.outC_at _ _ _ _ _ ⟨s.val - 1024, hs'⟩ d).trans ?_
    have hq : (fun i : Fin 128 => blkOf (F := Ideal)
          (shapeCast S32x2048x128 (fun i => ((q i : ℝ) : EReal)) Facts₀.shapeCasts_S2x16x2048x128_S32x2048x128)
          ⟨b.val * 16 + h.val, by omega⟩ 1 (ValueIdx.ix3 (0 : Fin 1) ⟨s.val - 1024, hs'⟩ i))
        = fun i => ((q (ValueIdx.ix4 b h s i) : ℝ) : EReal) :=
      funext fun i => kv_blk_row (F := Ideal) (fun i => ((q i : ℝ) : EReal)) b h 1 ⟨s.val - 1024, hs'⟩ i s
        (by show s.val = 1 * 1024 + (s.val - 1024); omega)
    have hk0 : (fun (j : Fin 1024) (i : Fin 128) => blkOf (F := Ideal)
          (shapeCast S32x2048x128 (fun i => ((k i : ℝ) : EReal)) Facts₀.shapeCasts_S2x16x2048x128_S32x2048x128)
          ⟨b.val * 16 + h.val, by omega⟩ 0 (ValueIdx.ix3 (0 : Fin 1) j i))
        = fun j i => ((k (ValueIdx.ix4 b h (Cert.Spec.lo j) i) : ℝ) : EReal) :=
      funext fun j => funext fun i => kv_blk_row (F := Ideal) (fun i => ((k i : ℝ) : EReal)) b h 0 j i (Cert.Spec.lo j)
        (by show j.val = 0 * 1024 + j.val; omega)
    have hv0 : (fun (j : Fin 1024) (i : Fin 128) => blkOf (F := Ideal)
          (shapeCast S32x2048x128 (fun i => ((v i : ℝ) : EReal)) Facts₀.shapeCasts_S2x16x2048x128_S32x2048x128)
          ⟨b.val * 16 + h.val, by omega⟩ 0 (ValueIdx.ix3 (0 : Fin 1) j i))
        = fun j i => ((v (ValueIdx.ix4 b h (Cert.Spec.lo j) i) : ℝ) : EReal) :=
      funext fun j => funext fun i => kv_blk_row (F := Ideal) (fun i => ((v i : ℝ) : EReal)) b h 0 j i (Cert.Spec.lo j)
        (by show j.val = 0 * 1024 + j.val; omega)
    have hk1 : (fun (j : Fin 1024) (i : Fin 128) => blkOf (F := Ideal)
          (shapeCast S32x2048x128 (fun i => ((k i : ℝ) : EReal)) Facts₀.shapeCasts_S2x16x2048x128_S32x2048x128)
          ⟨b.val * 16 + h.val, by omega⟩ 1 (ValueIdx.ix3 (0 : Fin 1) j i))
        = fun j i => ((k (ValueIdx.ix4 b h (Cert.Spec.hi j) i) : ℝ) : EReal) :=
      funext fun j => funext fun i => kv_blk_row (F := Ideal) (fun i => ((k i : ℝ) : EReal)) b h 1 j i (Cert.Spec.hi j)
        (by show 1024 + j.val = 1 * 1024 + j.val; omega)
    have hv1 : (fun (j : Fin 1024) (i : Fin 128) => blkOf (F := Ideal)
          (shapeCast S32x2048x128 (fun i => ((v i : ℝ) : EReal)) Facts₀.shapeCasts_S2x16x2048x128_S32x2048x128)
          ⟨b.val * 16 + h.val, by omega⟩ 1 (ValueIdx.ix3 (0 : Fin 1) j i))
        = fun j i => ((v (ValueIdx.ix4 b h (Cert.Spec.hi j) i) : ℝ) : EReal) :=
      funext fun j => funext fun i => kv_blk_row (F := Ideal) (fun i => ((v i : ℝ) : EReal)) b h 1 j i (Cert.Spec.hi j)
        (by show 1024 + j.val = 1 * 1024 + j.val; omega)
    rw [hq, hk0, hv0, hk1, hv1]
    refine (Cert.Spec.kerC_eq_ref (fun i => q (ValueIdx.ix4 b h s i)) (fun j i => k (ValueIdx.ix4 b h j i))
      (fun j i => v (ValueIdx.ix4 b h j i)) ⟨s.val - 1024, hs'⟩ d).trans ?_
    rw [es]

end Cert.KernelIdeal.Hand
-- ==== Proof.Claims.lean ====
/-
  The algebraic conjunct, assembled.

  Both programs run from memories that agree on the three arguments. The kernel's run (given the body obligation of
  its one pipelined region) ends with the result buffer at the last boundary's contents; those contents are the
  blockwise attention function of the recast arguments, recast, transposed and recast to `[2, 2048, 2048]`. The
  reference's run ends with its result buffer at the composed term of its operations. Under the precondition the
  arguments are embeddings of real arrays; on such data both results, read at `(b, s, h * 128 + d)`, are causal
  attention of query row `s` of head `(b, h)` over that head's 2048 keys and values (`Cert.Spec.ref`), and every
  index of the result has that form. So the two results are one array.
-/
import proofs.«141465_j40630390620348_2_alg».proof.Defs
import proofs.«141465_j40630390620348_2_alg».proof.Proof.RefValue
import proofs.«141465_j40630390620348_2_alg».proof.Proof.Finite
import proofs.«141465_j40630390620348_2_alg».proof.Proof.Run
import proofs.«141465_j40630390620348_2_alg».proof.Proof.RunValue
import proofs.«141465_j40630390620348_2_alg».proof.Proof.KernelValue
import proofs.«141465_j40630390620348_2_alg».proof.Proof.Gen.ReferenceIdeal.Run
import proofs.«141465_j40630390620348_2_alg».proof.Proof.Gen.ReferenceIdeal.Read
import proofs.«141465_j40630390620348_2_alg».proof.Proof.Gen.Pre_finite_inputs

noncomputable section

namespace Cert.Proof.Claims

open Idealize.ShloMosaic Idealize.ShloMosaic.TcCoe Idealize.SL.Sem

/-- Every index of the `[2, 2048, 2048]` result is `(b, s, h * 128 + d)` for a head `h` and a feature `d`: its last
    coordinate divided by 128, with remainder. -/
theorem split3 (i : (⟨3, ![2, 2048, 2048]⟩ : Shape).Idx) :
    ∃ (b : Fin 2) (s : Fin 2048) (h : Fin 16) (d : Fin 128),
      i = ValueIdx.ix3 b s (⟨h.val * 128 + d.val, by omega⟩ : Fin 2048) := by
  have h2 : (i 2).val < 2048 := (i 2).isLt
  refine ⟨i 0, i 1, ⟨(i 2).val / 128, by omega⟩, ⟨(i 2).val % 128, Nat.mod_lt _ (by decide)⟩, ?_⟩
  funext a
  match a with
  | ⟨0, _⟩ => rfl
  | ⟨1, _⟩ => rfl
  | ⟨2, _⟩ => exact Fin.ext (Nat.div_add_mod' (i 2).val 128).symm

section
open Cert.KernelIdeal Cert.KernelIdeal.Gen Cert.KernelIdeal.Hand

/-- The two results are one array. On real data (the precondition) the reference's result at `(b, s, h * 128 + d)` is
    causal attention of query row `s` of head `(b, h)` over that head's keys and values, and so is the kernel's. -/
theorem result_eq (m : (ℓ : Loc nD τ sig) → Buf (Elt Ideal) ℓ) (ρ : Dev nD → PrngReg)
    (m' : (ℓ : Loc Cert.ReferenceIdeal.nD Cert.ReferenceIdeal.τ Cert.ReferenceIdeal.sig) → Buf (Elt Ideal) ℓ)
    (hpre : Cert.Pre_KernelIdeal (hPre_finite_inputs := Cert.Pre_finite_inputs.Gen.facts) m)
    (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2)) :
    Cert.ReferenceIdeal.Value.res_main_v21 m' c = W3 m ρ c (Proc.devRef .tc main_v6) := by
  rw [Cert.ReferenceIdeal.Read.val_main_v21_eq, h0, h1, h2]
  obtain ⟨q, k, v, e0, e1, e2⟩ := finite_of_pre (hP := Cert.Pre_finite_inputs.Gen.facts) m hpre c
  refine Eq.trans ?_ (run_value (F := Ideal) m ρ c).symm
  rw [e0, e1, e2]
  funext i
  obtain ⟨b, s, h, d, rfl⟩ := split3 i
  exact (Cert.ReferenceIdeal.RefValue.ref_at _ _ _ b h s d).trans (kernel_value q k v b h s d).symm

/-- The algebraic conjunct, given the body obligation of the one pipelined region: both programs run; the kernel's
    result is the last boundary's contents, the reference's its composed term, and the two are one array. -/
theorem algebraic_of_body
    (hbody : ∀ (m : (ℓ : Loc Cert.KernelIdeal.nD Cert.KernelIdeal.τ Cert.KernelIdeal.sig) → Buf (Elt Ideal) ℓ)
      (ρ : Dev Cert.KernelIdeal.nD → PrngReg) (c : Dev Cert.KernelIdeal.nD),
      Idealize.ShloMosaic.Pipeline.BodyObligationLoose (Cert.KernelIdeal.Hand.dat (F := Ideal) (Cert.KernelIdeal.Hand.V1 m ρ) c)
        (Cert.KernelIdeal.defs₀ (F := Ideal)) Variants.none () Set.univ) :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' hpre hagree
  refine ⟨fun c => W3 m ρ c (Proc.devRef .tc main_v6), run_of_body (F := Ideal) m ρ (hbody m ρ), ?_⟩
  refine (θ_run Cert.ReferenceIdeal.defs _ _).mono (fun _ h c => ⟨(h c).1.trans ?_, (h c).2⟩)
    (Cert.ReferenceIdeal.Value.run (F := Ideal) m' ρ')
  exact result_eq m ρ m' hpre c (hagree c).1 (hagree c).2.1 (hagree c).2.2

end

end Cert.Proof.Claims

end
-- ==== Proof.lean ====
/-
  The certificate's claim, proved.

  What is compared. Causal attention, one head at a time: a query row's scores against the key rows are scaled,
  the scores of the keys after the row are masked away, and the softmax of what remains weighs the value rows.
  One program does this over all 2048 keys of the row at once: scores divided by `11863283 / 2^19` and doubled,
  masked to `-∞`, the row's maximum subtracted, exponentials, their sum, the quotient, the weighted sum.
  The other works through the keys in blocks of 1024 with a running maximum, a running sum of exponentials and a
  running weighted sum, each rescaled by `exp (m - m')` when the maximum moves from `m` to `m'`, and divides at the
  end. On finite inputs the two agree exactly as extended reals (`Cert.Spec.kerA_eq_ref`, `kerC_eq_ref`).

  The two named constants. The blockwise program scales its scores by the constant it names `"coeff_over_norm"`,
  the rational `2^20 / 11863283`, which is `2` over the other program's divisor; and it masks with the constant it
  names `"neg_big"`, read as `-∞`, the value the other program masks with.

  Which conjunct comes from what.
  * `frame_Kernel`, `frame_KernelIdeal`: @main is a stretch of layout operations, one pipelined region of 96 points
    (32 heads, three points each) and a second stretch; the launch theorem runs the segments given the region's
    body obligation, and the body obligation is proved point by point from the invariant that carries the running
    maximum, sum and weighted sum between the points of a head. The arguments are written by nothing.
  * `frame_ReferenceIdeal`: the whole-row program is a straight line of array operations; its run ends with every
    argument as it began.
  * `preserves_Kernel_KernelIdeal`: the three ledger entries are the table's values of the two names.
  * `algebraic_KernelIdeal_ReferenceIdeal`: both runs end; the blockwise result array is one function of the three
    arguments, the whole-row result is its composed term, and at every index `(b, s, h * 128 + d)` both are
    `Cert.Spec.ref` of row `s`, the keys and the values of head `(b, h)` — the precondition making every entry real.
-/
import proofs.«141465_j40630390620348_2_alg».proof.Defs
import proofs.«141465_j40630390620348_2_alg».proof.Proof.Gen.Kernel
import proofs.«141465_j40630390620348_2_alg».proof.Proof.Gen.Kernel.Skeleton
import proofs.«141465_j40630390620348_2_alg».proof.Proof.Gen.Kernel.Launch
import proofs.«141465_j40630390620348_2_alg».proof.Proof.Gen.Kernel.Flash
import proofs.«141465_j40630390620348_2_alg».proof.Proof.Gen.KernelIdeal
import proofs.«141465_j40630390620348_2_alg».proof.Proof.Gen.KernelIdeal.Skeleton
import proofs.«141465_j40630390620348_2_alg».proof.Proof.Gen.KernelIdeal.Launch
import proofs.«141465_j40630390620348_2_alg».proof.Proof.Gen.KernelIdeal.Flash
import proofs.«141465_j40630390620348_2_alg».proof.Proof.Gen.ReferenceIdeal
import proofs.«141465_j40630390620348_2_alg».proof.Proof.Gen.ReferenceIdeal.Run
import proofs.«141465_j40630390620348_2_alg».proof.Proof.Gen.ReferenceIdeal.Read
import proofs.«141465_j40630390620348_2_alg».proof.Proof.Gen.Pre_finite_inputs
import Idealize.ShloMosaic.Adequacy
import Idealize.ShloMosaic.Init
import proofs.«141465_j40630390620348_2_alg».proof.Proof.Body
import proofs.«141465_j40630390620348_2_alg».proof.Proof.KBody
import proofs.«141465_j40630390620348_2_alg».proof.Proof.KRun
import proofs.«141465_j40630390620348_2_alg».proof.Proof.Claims

noncomputable section

namespace Cert.Proof

open Idealize.ShloMosaic Idealize.SL.Sem

/-- The blockwise program as printed runs and its arguments end as they began: the launch, given the region's body
    obligation at the word-level instance. -/
theorem frame_p : Cert.frame_Kernel (hKernel := Cert.Kernel.Gen.facts) (hPre_finite_inputs := Cert.Pre_finite_inputs.Gen.facts) :=
  fun m ρ _ => (θ_run Cert.Kernel.defs _ _).mono (fun _ h c => (h c).2)
    (Cert.Kernel.Hand.run_of_body (F := Bits) m ρ (fun c => (Cert.Kernel.Hand.body_obligation (F := Bits) (Cert.Kernel.Hand.V1 m ρ) c).loose))

/-- The same for the idealized blockwise program, at the ideal instance. -/
theorem frame_pi : Cert.frame_KernelIdeal (hKernelIdeal := Cert.KernelIdeal.Gen.facts)
    (hPre_finite_inputs := Cert.Pre_finite_inputs.Gen.facts) :=
  fun m ρ _ => (θ_run Cert.KernelIdeal.defs _ _).mono (fun _ h c => (h c).2)
    (Cert.KernelIdeal.Hand.run_of_body (F := Ideal) m ρ (fun c => (Cert.KernelIdeal.Hand.body_obligation (F := Ideal) (Cert.KernelIdeal.Hand.V1 m ρ) c).loose))

/-- The whole-row program runs and its arguments end as they began: the second half of what its run says. -/
theorem frame_ri : Cert.frame_ReferenceIdeal (hReferenceIdeal := Cert.ReferenceIdeal.Gen.facts)
    (hPre_finite_inputs := Cert.Pre_finite_inputs.Gen.facts) := fun m ρ _ =>
  (θ_run Cert.ReferenceIdeal.defs _ _).mono (fun _ h c => (h c).2) (Cert.ReferenceIdeal.Value.run (F := Ideal) m ρ)

/-- The ledger's three entries: the table gives `"coeff_over_norm"` the rational `2^20 / 11863283` (cited twice) and
    `"neg_big"` the value `-∞`, and each printed constant is its name's value at the ideal instance. -/
theorem preserves : Cert.preserves_Kernel_KernelIdeal :=
  ⟨IdealRules.named_const.statement Cert.KernelIdeal.κ "coeff_over_norm" .f32 0x3DB504F3#32 ((1048576 / 11863283 : ℝ) : EReal) rfl,
   IdealRules.named_const.statement Cert.KernelIdeal.κ "coeff_over_norm" .f32 0x3DB504F3#32 ((1048576 / 11863283 : ℝ) : EReal) rfl,
   IdealRules.named_const.statement Cert.KernelIdeal.κ "neg_big" .f32 0xFF333332#32 ⊥ rfl⟩

/-- The two idealized programs end with one result array: the assembly, given the region's body obligation. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) :=
  Cert.Proof.Claims.algebraic_of_body (fun m ρ c => (Cert.KernelIdeal.Hand.body_obligation (F := Ideal) (Cert.KernelIdeal.Hand.V1 m ρ) c).loose)

/-- Everything the certificate claims, under the witnesses of the programs' stated side conditions. -/
theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
